-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S1024x1024 : Shape := ⟨2, ![1024, 1024]⟩
abbrev S1024 : Shape := ⟨1, ![1024]⟩
abbrev S1024x1 : Shape := ⟨2, ![1024, 1]⟩
abbrev S1x8192 : Shape := ⟨2, ![1, 8192]⟩
abbrev S1x1024 : Shape := ⟨2, ![1, 1024]⟩
abbrev S_ : Shape := ⟨0, ![]⟩

abbrev nBuf : Space → Nat
  | .hbm => 17
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x8192, .f32⟩
  | .hbm, ⟨5, _⟩ => ⟨S1x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_cond3 (i : grid1.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_11 : BitVec 32 := 0#32
  let v24 : BitVec 1 := Scalar.cmpi .ne v23 c0_i32_11
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 8], ![false, false]⟩

def k2_cond3 (i : grid2.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_11 : BitVec 32 := 0#32
  let v24 : BitVec 1 := Scalar.cmpi .ne v23 c0_i32_11
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x1024_S1024x1024 : S1024x1024.ShapeCasts S1024x1024
  transposes_S1024x1024_p1_0_S1024x1024 : S1024x1024.Transposes [1, 0] S1024x1024
  reduces_S1024x1024_S1024_2 : S1024x1024.Reduces [0] S1024
  shapeCasts_S1024_S1x1024 : S1024.ShapeCasts S1x1024
  iota_S1024x1024_d0_w32 : S1024x1024.Iotas .tc 32 [0]
  iota_S1024x1024_d1_w32 : S1024x1024.Iotas .tc 32 [1]
  reducesTo_S1x8192_S_d0_1 : S1x8192.ReducesTo [0, 1] S_
  h_S_ : 0 < S_.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .f32 = 32 ∨ (Rect.block (s := S8192x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x1024.size a
  hwx1_1 : ∀ i : grid1.Coords, EltTy.bits .bf16 = 32 ∨ (Rect.block (s := S8192x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x1024.size a
  hwx2_1 : ∀ i : grid2.Coords, EltTy.bits .bf16 = 32 ∨ (Rect.block (s := S8192x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

abbrev win2_0 : Pipeline.Window sig grid2 :=
  Pipeline.Window.ofSpec (Memref.whole main_v0_1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond3 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S8192x2 : Shape := ⟨2, ![8192, 2]⟩

abbrev nBuf : Space → Nat
  | .hbm => 107
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192, .i32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192x1, .f32⟩
  | .hbm, ⟨33, _⟩ => ⟨S8192x8192, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x1, .i32⟩
  | .hbm, ⟨74, _⟩ => ⟨S8192x2, .i32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .i32⟩
  | .hbm, ⟨82, _⟩ => ⟨S8192, .i32⟩
  | .hbm, ⟨83, _⟩ => ⟨S8192, .i1⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S8192, .i32⟩
  | .hbm, ⟨88, _⟩ => ⟨S_, .i32⟩
  | .hbm, ⟨89, _⟩ => ⟨S8192, .i32⟩
  | .hbm, ⟨90, _⟩ => ⟨S8192, .i1⟩
  | .hbm, ⟨91, _⟩ => ⟨S_, .i32⟩
  | .hbm, ⟨92, _⟩ => ⟨S8192, .i32⟩
  | .hbm, ⟨93, _⟩ => ⟨S8192, .i32⟩
  | .hbm, ⟨94, _⟩ => ⟨S8192, .i32⟩
  | .hbm, ⟨95, _⟩ => ⟨S8192x1, .i32⟩
  | .hbm, ⟨96, _⟩ => ⟨S8192x1, .i32⟩
  | .hbm, ⟨97, _⟩ => ⟨S8192x2, .i32⟩
  | .hbm, ⟨98, _⟩ => ⟨S8192, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v20 : Ref sig .tc := ⟨.hbm, 41, rfl⟩
abbrev main_v21 : Ref sig .tc := ⟨.hbm, 42, rfl⟩
abbrev main_call1_cst : Ref sig .tc := ⟨.hbm, 43, rfl⟩
abbrev main_call1_v0 : Ref sig .tc := ⟨.hbm, 44, rfl⟩
abbrev main_call1_cst_0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_cst_1 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_v22 : Ref sig .tc := ⟨.hbm, 57, rfl⟩
abbrev main_c : Ref sig .tc := ⟨.hbm, 58, rfl⟩
abbrev main_v23 : Ref sig .tc := ⟨.hbm, 59, rfl⟩
abbrev main_v24 : Ref sig .tc := ⟨.hbm, 60, rfl⟩
abbrev main_c_4 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_5 : Ref sig .tc := ⟨.hbm, 65, rfl⟩
abbrev main_v28 : Ref sig .tc := ⟨.hbm, 66, rfl⟩
abbrev main_v29 : Ref sig .tc := ⟨.hbm, 67, rfl⟩
abbrev main_c_6 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_7 : Ref sig .tc := ⟨.hbm, 76, rfl⟩
abbrev main_v37 : Ref sig .tc := ⟨.hbm, 77, rfl⟩
abbrev main_cst_8 : Ref sig .tc := ⟨.hbm, 78, rfl⟩
abbrev main_v38 : Ref sig .tc := ⟨.hbm, 79, rfl⟩
abbrev main_v39 : Ref sig .tc := ⟨.hbm, 80, rfl⟩
abbrev main_c_9 : Ref sig .tc := ⟨.hbm, 81, rfl⟩
abbrev main_v40 : Ref sig .tc := ⟨.hbm, 82, rfl⟩
abbrev main_v41 : Ref sig .tc := ⟨.hbm, 83, rfl⟩
abbrev main_c_10 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_c_11 : Ref sig .tc := ⟨.hbm, 88, rfl⟩
abbrev main_v45 : Ref sig .tc := ⟨.hbm, 89, rfl⟩
abbrev main_v46 : Ref sig .tc := ⟨.hbm, 90, rfl⟩
abbrev main_c_12 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_cst_13 : Ref sig .tc := ⟨.hbm, 99, rfl⟩
abbrev main_v54 : Ref sig .tc := ⟨.hbm, 100, rfl⟩
abbrev main_cst_14 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_15 : Ref sig .tc := ⟨.hbm, 105, rfl⟩
abbrev main_v58 : Ref sig .tc := ⟨.hbm, 106, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  transposes_S8192x8192_S8192x8192_1_0 : S8192x8192.Transposes [1, 0] S8192x8192
  concatenates_S8192x1_S8192x1_S8192x2_d1 : Shape.Concatenates [S8192x1, S8192x1] S8192x2 1
  reducesTo_S8192_S_d0 : S8192.ReducesTo [0] S_
  dot_S8192x1024_S8192x1024_S8192x8192_1_1_0_0_n_n_wf : DotDims.WF S8192x1024 S8192x1024 S8192x8192 [1] [1] [0] [0] [] []
  gather_S8192x8192_S8192x2_S8192_n_01_n_n_01_1_11_wf : GatherDims.WF S8192x8192 S8192x2 S8192 [] [0, 1] [] [0, 1] [] 1 ![1, 1]

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.Region0K.lean ====
/-
  The row normalisation, the first of the three regions: its body and its proof data, stated at the contents
  `V` the TensorCore's buffers hold when the region is entered.

  The body reads both input blocks whole (1024 rows of 1024 entries each), and writes each output block whole:
  every entry of a row divided by the row's Euclidean length clamped below.  So after the body an input's
  staging buffer still holds its block, and an output's holds one function of the matching input block alone.
-/
import proofs.«134093_j6932077215890_1_alg».proof.Proof.Gen.Kernel.Launch
import proofs.«134093_j6932077215890_1_alg».proof.Proof.Gen.Kernel.Skeleton
import proofs.«134093_j6932077215890_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows `1024 t … 1024 t + 1023` of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, whatever proof data has `V`'s array there and
    a body that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: a whole `1024 × 1024` buffer -/

abbrev r0 : Rect S1024x1024 := Rect.unit (s := S1024x1024) ![0, 0] S1024x1024.size inb_S1024x1024_S1024x1024_0_0

/-! ## What the body leaves in the two output buffers -/

/-- The first output's staging buffer after the body: its one whole-buffer store of the normalised first input block. -/
def out0_2 (x0 : Vec F S1024x1024 .f32) : Vec F S1024x1024 .bf16 :=
  View.canon [⟨r0, k0_pay1 (View.ld x0 r0)⟩]

/-- The second output's, of the second input block. -/
def out0_3 (x1 : Vec F S1024x1024 .f32) : Vec F S1024x1024 .bf16 :=
  View.canon [⟨r0, k0_pay2 (View.ld x1 r0)⟩]

/-- One whole-buffer store covers the buffer. -/
theorem cover0 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The body on whole staging buffers, the inputs' at contents `x0`, `x1` and the outputs' at anything, ends with the
    inputs' as they were and the outputs' at `out0_2 x0`, `out0_3 x1`; the grid coordinate it is passed is not read. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .bf16) (harg3 : arg3.IsWhole) (arg4 : Memref sig .tc .vmem S1024x1024 .bf16) (harg4 : arg4.IsWhole)
    (x0 : Vec F S1024x1024 .f32) (x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The region's proof data -/

/-- The proof data of the region on core `c`: the arrays as the region finds them; after the body at point `t` each
    input's buffer at its block and each output's at the normalised matching input block; the invariant that of a
    body which touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.Region1BodyK.lean ====
import proofs.«134093_j6932077215890_1_alg».proof.Proof.Gen.Kernel.Launch
import proofs.«134093_j6932077215890_1_alg».proof.Proof.Gen.Kernel.Skeleton
import proofs.«134093_j6932077215890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The accumulation kernel's body, case by case

The body keeps two rows of 1024 numbers between grid points: the running column sums of the exponentials
(`acc`) and the diagonal of the scaled products (`diag`). At a point with inner coordinate 0 both are reset
to zero first; the column sums of this tile's exponentials are then added to `acc`; where the two grid
coordinates agree `diag` is overwritten by this tile's diagonal; at the last inner coordinate the output row
`log acc - diag` is stored. One transition function says all of it. -/

/-- The inner coordinate is 0: the accumulators are reset. -/
abbrev c1 (i : grid1.Coords) : Prop := (Scalar.cmpi .ne (Scalar.extui (Scalar.cmpi .eq (BitVec.ofNat 32 (i 1).val) 0#32)) 0#32) = 1#1
/-- The two coordinates agree: the tile holds the diagonal. -/
abbrev c2 (i : grid1.Coords) : Prop := (Scalar.cmpi .ne (Scalar.extui (Scalar.cmpi .eq (BitVec.ofNat 32 (i 0).val) (BitVec.ofNat 32 (i 1).val))) 0#32) = 1#1
/-- The inner coordinate is the last: the output row is stored. -/
abbrev c3 (i : grid1.Coords) : Prop := k1_cond3 i = 1#1

theorem hz2 : (![0, 0] : Fin 2 → ℕ) = fun _ => 0 := by funext a; fin_cases a <;> rfl

/-- A store through the whole rectangle, last, covers the shape. -/
theorem whole_cover {S : Shape} {e : EltTy} {off : Fin S.rank → ℕ} (h : off = fun _ => 0) (inb : ∀ a, off a + S.size a ≤ S.size a)
    (w : S.Idx → Elt F e) (L : List (View.Piece (Elt F) S e)) :
    ∀ y, ∃ p ∈ ((⟨Rect.unit off S.size inb, w⟩ : View.Piece (Elt F) S e) :: L), y ∈ p.1.set := by
  subst h; intro y
  exact ⟨_, List.mem_cons_self, by show y ∈ (Rect.whole S).set; rw [Rect.set_whole]; exact Finset.mem_univ y⟩

/-- After a whole-rectangle store, last, the buffer reads as the stored value. -/
theorem read_writes_whole {sp : Space} {S : Shape} {e : EltTy} (v : View sig .tc sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (whole_cover h inb w L), View.canon_cons_unit_zero h]

/-- The running column sums after a point, from the tile's two blocks and what the point found. -/
def accNext (i : grid1.Coords) (x0 x1 : Vec F S1024x1024 .bf16) (s5 : Vec F S1x1024 .f32) : Vec F S1x1024 .f32 :=
  k1_pay4 x0 x1 (if c1 i then k1_pay1 else s5)

/-- The diagonal row after a point. -/
def diagNext (i : grid1.Coords) (x0 x1 : Vec F S1024x1024 .bf16) (s6 : Vec F S1x1024 .f32) : Vec F S1x1024 .f32 :=
  if c2 i then k1_pay5 x0 x1 else if c1 i then k1_pay2 else s6

/-- The output window's buffer after a point: stored at the last inner coordinate, else as found. -/
def outNext (i : grid1.Coords) (x0 x1 : Vec F S1024x1024 .bf16) (s4 s5 s6 : Vec F S1x1024 .f32) : Vec F S1x1024 .f32 :=
  if c3 i then k1_pay6 (accNext i x0 x1 s5) (diagNext i x0 x1 s6) else s4

set_option hygiene false in
/-- One case of the body: the conditionals decided by the case's hypotheses, the run, and each buffer read back. -/
local macro "run_case" e1:term:max e2:term:max e3:term:max : tactic => `(tactic|
  (simp only [$e1:term, $e2:term, $e3:term]
   sl_exec (disch := first | exact h1 | exact h2 | exact h3)
   sl_step
   iapply Hk
   isplitl [H0]
   · iexists _; isplitr; · ipureintro; exact harg2.read_unread _
     iexact H0
   isplitl [H1]
   · iexists _; isplitr; · ipureintro; exact harg3.read_unread _
     iexact H1
   isplitl [H4]
   · iexists _; isplitr
     swap; · iexact H4
     ipureintro
     try sl_unfold_run_names
     simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]
   isplitl [H5]
   · iexists _; isplitr
     swap; · iexact H5
     ipureintro
     try sl_unfold_run_names
     simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]
   iexists _; isplitr
   swap; · iexact H6
   ipureintro
   try sl_unfold_run_names
   simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]))

set_option maxHeartbeats 8000000 in
/-- The body on whole memrefs: the two input blocks at `x0`, `x1`, the output buffer and the two scratch rows at
    any contents `s4`, `s5`, `s6`, run to the continuation holding the inputs as they were and the three rows
    at the transition's values. The reset and the output store never meet (`hx`). -/
theorem sound_kernel (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole)
    (hx : ¬ (c1 i ∧ c3 i))
    (x0 x1 : Vec F S1024x1024 .bf16) (s4 s5 s6 : Vec F S1x1024 .f32) (K : PUnit → sProp 𝕄) :
    iprop(owns (c : Thread nD τ) arg2 fullShare x0 ∗ owns (c : Thread nD τ) arg3 fullShare x1
        ∗ owns (c : Thread nD τ) arg4 fullShare s4 ∗ owns (c : Thread nD τ) arg5 fullShare s5 ∗ owns (c : Thread nD τ) arg6 fullShare s6
        ∗ (iprop(owns (c : Thread nD τ) arg2 fullShare x0 ∗ owns (c : Thread nD τ) arg3 fullShare x1
            ∗ owns (c : Thread nD τ) arg4 fullShare (outNext i x0 x1 s4 s5 s6) ∗ owns (c : Thread nD τ) arg5 fullShare (accNext i x0 x1 s5)
            ∗ owns (c : Thread nD τ) arg6 fullShare (diagNext i x0 x1 s6)) -∗ K ⟨⟩))
      ⊢ wp frame (wpE (defs₀ (F := F)) Variants.none c none) E (cc1__partial_kernel i arg2 harg2 arg3 harg3 arg4 harg4 arg5 harg5 arg6 harg6) K := by
  simp only [cc1__partial_kernel_eq_skeleton]; unfold cc1__partial_kernel_skel
  unfold owns outNext accNext diagNext
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  by_cases h1 : c1 i
  · by_cases h2 : c2 i
    · by_cases h3 : c3 i
      · exact absurd ⟨h1, h3⟩ hx
      · run_case (if_pos h1) (if_pos h2) (if_neg h3)
    · by_cases h3 : c3 i
      · exact absurd ⟨h1, h3⟩ hx
      · run_case (if_pos h1) (if_neg h2) (if_neg h3)
  · by_cases h2 : c2 i
    · by_cases h3 : c3 i
      · run_case (if_neg h1) (if_pos h2) (if_pos h3)
      · run_case (if_neg h1) (if_pos h2) (if_neg h3)
    · by_cases h3 : c3 i
      · run_case (if_neg h1) (if_neg h2) (if_pos h3)
      · run_case (if_neg h1) (if_neg h2) (if_neg h3)

end Cert.Kernel.Hand1
end
-- ==== Proof.Region1K.lean ====
import proofs.«134093_j6932077215890_1_alg».proof.Proof.Region1BodyK

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The accumulation region over its 8 × 8 grid: what every buffer holds between points

The region is entered with the arrays at contents `V`. Point `t` has outer coordinate `t / 8` and inner coordinate
`t % 8`; its two input blocks are 1024 rows of each operand. The pair (running column sums, diagonal row) after
point `t` is the body's transition applied to the pair after point `t - 1`; the output row is stored, and written
back, at the points with inner coordinate 7. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch rows as whole memrefs. -/
abbrev scM0 : Memref sig .tc .vmem S1x1024 .f32 := Memref.whole cc1_scratch0
abbrev scM1 : Memref sig .tc .vmem S1x1024 .f32 := Memref.whole cc1_scratch1

/-- The pair (running column sums, diagonal row) after point `n`: the transition from the pair after `n - 1`
    (from zero rows before the first point, where the reset makes the choice immaterial). -/
def st (c : Dev nD) : (n : ℕ) → n < cfg1.N → Vec F S1x1024 .f32 × Vec F S1x1024 .f32
  | 0, hn => (accNext (grid1.coords ⟨0, hn⟩) (iblk V c 0 ⟨0, hn⟩) (iblk V c 1 ⟨0, hn⟩) (k1_pay1 (F := F)),
      diagNext (grid1.coords ⟨0, hn⟩) (iblk V c 0 ⟨0, hn⟩) (iblk V c 1 ⟨0, hn⟩) (k1_pay2 (F := F)))
  | n + 1, hn => (accNext (grid1.coords ⟨n + 1, hn⟩) (iblk V c 0 ⟨n + 1, hn⟩) (iblk V c 1 ⟨n + 1, hn⟩) (st c n (Nat.lt_of_succ_lt hn)).1,
      diagNext (grid1.coords ⟨n + 1, hn⟩) (iblk V c 0 ⟨n + 1, hn⟩) (iblk V c 1 ⟨n + 1, hn⟩) (st c n (Nat.lt_of_succ_lt hn)).2)

/-- The pair the body FINDS at point `t`: what the point before left (zero rows at the first). -/
def stPrev (c : Dev nD) (t : Fin cfg1.N) : Vec F S1x1024 .f32 × Vec F S1x1024 .f32 :=
  match t with
  | ⟨0, _⟩ => (k1_pay1 (F := F), k1_pay2 (F := F))
  | ⟨n + 1, hn⟩ => st V c n (Nat.lt_of_succ_lt hn)

theorem st_eq (c : Dev nD) (t : Fin cfg1.N) :
    st V c t.val t.isLt = (accNext (grid1.coords t) (iblk V c 0 t) (iblk V c 1 t) (stPrev V c t).1,
      diagNext (grid1.coords t) (iblk V c 0 t) (iblk V c 1 t) (stPrev V c t).2) := by
  obtain ⟨n, hn⟩ := t
  cases n with
  | zero => rfl
  | succ n => rfl

/-- Where the accumulators are reset, what the point found in them does not matter. -/
theorem accNext_reset (i : grid1.Coords) (h : c1 i) (x0 x1 : Vec F S1024x1024 .bf16) (s s' : Vec F S1x1024 .f32) :
    accNext i x0 x1 s = accNext i x0 x1 s' := by unfold accNext; rw [if_pos h, if_pos h]
theorem diagNext_reset (i : grid1.Coords) (h : c1 i) (x0 x1 : Vec F S1024x1024 .bf16) (s s' : Vec F S1x1024 .f32) :
    diagNext i x0 x1 s = diagNext i x0 x1 s' := by
  unfold diagNext; by_cases h2 : c2 i
  · rw [if_pos h2, if_pos h2]
  · rw [if_neg h2, if_neg h2, if_pos h, if_pos h]

/-! ## The conditions over the grid -/

/-- The accumulators are reset exactly at the points with inner coordinate 0 — decided over the grid. -/
theorem hc1 : ∀ t : Fin cfg1.N, c1 (grid1.coords t) ↔ t.val % 8 = 0 :=
  (by decide +kernel : ∀ t : Fin grid1.N, c1 (grid1.coords t) ↔ t.val % 8 = 0)
/-- The output row is stored exactly at the points with inner coordinate 7. -/
theorem hc3 : ∀ t : Fin cfg1.N, c3 (grid1.coords t) ↔ t.val % 8 = 7 :=
  (by decide +kernel : ∀ t : Fin grid1.N, c3 (grid1.coords t) ↔ t.val % 8 = 7)
/-- The first point resets. -/
theorem hc1_zero (t : Fin cfg1.N) (h : t.val = 0) : c1 (grid1.coords t) := (hc1 t).mpr (by rw [h])
theorem hx (t : Fin cfg1.N) : ¬ (c1 (grid1.coords t) ∧ c3 (grid1.coords t)) := fun ⟨a, b⟩ => by
  have := (hc1 t).mp a; have := (hc3 t).mp b; omega

/-- The inputs are never idle; the output window is idle, and not written back, away from inner coordinate 7, and live there. -/
theorem live_0 : ∀ t : Fin cfg1.N, cfg1.idle 0 (grid1.coords t) = false := by decide +kernel
theorem live_1 : ∀ t : Fin cfg1.N, cfg1.idle 1 (grid1.coords t) = false := by decide +kernel
theorem idle_2 : ∀ t : Fin cfg1.N, ¬ c3 (grid1.coords t) → cfg1.idle 2 (grid1.coords t) = true := by decide +kernel
theorem noFlush_2 : ∀ t : Fin cfg1.N, ¬ c3 (grid1.coords t) → (cfg1.win 2).flush t = false := by decide +kernel
theorem live_2 : ∀ t : Fin cfg1.N, c3 (grid1.coords t) → cfg1.idle 2 (grid1.coords t) = false := by decide +kernel

/-! ## The region invariant -/

/-- The core's scoped buffers the region neither stages through nor keeps its rows in, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc2_scratch1), ((c : Thread nD τ).loc cc2_scratch1) ↦{fullShare} f))

/-- The invariant with the two scratch rows at `a` and `d`. -/
def PhiAt (c : Dev nD) (a d : Vec F S1x1024 .f32) : sProp 𝕄 :=
  iprop(owns (c : Thread nD τ) scM0 fullShare a ∗ owns (c : Thread nD τ) scM1 fullShare d ∗ others (F := F) c ∗ ∃ r, prngReg c r)

/-- What the region is entered with is the invariant at SOME rows. -/
theorem PhiA_split (c : Dev nD) : (Pipeline.ΦA spec1 c : sProp 𝕄) ⊢ iprop(∃ a d, PhiAt (F := F) c a d) := by
  unfold Pipeline.ΦA PhiAt others; rw [scopedRest1_eq]
  simp only [scM0, scM1, owns_whole]
  iintro ⟨⟨R0, R1, R2, R3, R4, R5, R6, R7, HS0, HS1, R10, R11, R12, R13, R14, R15, R16, R17⟩, Hg⟩
  icases HS0 with ⟨%a, HS0⟩
  icases HS1 with ⟨%d, HS1⟩
  iexists a; iexists d
  isplitl [HS0]; · iexact HS0
  isplitl [HS1]; · iexact HS1
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R10]; · iexact R10
  isplitl [R11]; · iexact R11
  isplitl [R12]; · iexact R12
  isplitl [R13]; · iexact R13
  isplitl [R14]; · iexact R14
  isplitl [R15]; · iexact R15
  isplitl [R16]; · iexact R16
  iexact R17

/-- And the invariant at any rows gives it back. -/
theorem PhiA_join (c : Dev nD) (a d : Vec F S1x1024 .f32) : PhiAt (F := F) c a d ⊢ (Pipeline.ΦA spec1 c : sProp 𝕄) := by
  unfold Pipeline.ΦA PhiAt others; rw [scopedRest1_eq]
  simp only [scM0, scM1, owns_whole]
  iintro ⟨HS0, HS1, ⟨R0, R1, R2, R3, R4, R5, R6, R7, R10, R11, R12, R13, R14, R15, R16, R17⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [HS0]; · iexists _; iexact HS0
  isplitl [HS1]; · iexists _; iexact HS1
  isplitl [R10]; · iexact R10
  isplitl [R11]; · iexact R11
  isplitl [R12]; · iexact R12
  isplitl [R13]; · iexact R13
  isplitl [R14]; · iexact R14
  isplitl [R15]; · iexact R15
  isplitl [R16]; · iexact R16
  iexact R17

/-- The invariant before position `n`: as entered before the first point; afterwards the two rows at what the point
    before left. -/
def PhiS (c : Dev nD) : (n : ℕ) → n ≤ cfg1.N → sProp 𝕄
  | 0, _ => Pipeline.ΦA spec1 c
  | n + 1, hn => PhiAt c (st V c n hn).1 (st V c n hn).2

theorem PhiS_succ (c : Dev nD) (n : ℕ) (hn : n < cfg1.N) :
    PhiS V c (n + 1) hn = PhiAt c (st V c n hn).1 (st V c n hn).2 := rfl

/-! ## The proof data -/

/-- The pipeline's proof data on core `c`: the arrays as the region finds them; each input's buffer left at its
    block; the output's buffer, where it is stored, at `log acc - diag` of the rows after the point; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay6 (st V c t.val t.isLt).1 (st V c t.val t.isLt).2
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) :
    (dat V c).after 2 t = k1_pay6 (st V c t.val t.isLt).1 (st V c t.val t.isLt).2 := by dsimp only [dat]

/-- Each input's current staging buffer holds its block at every point, fetched there or not (unfetched, the block
    index has not moved). -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem Phi_castSucc (c : Dev nD) (t : Fin cfg1.N) :
    (dat V c).Φ t.castSucc = PhiS V c t.val (Nat.le_of_lt t.isLt) := by
  dsimp only [dat]; simp only [Fin.coe_castSucc]

/-- Before point `t` the invariant holds the two rows at SOME contents which, unless the point resets, are what the
    point before left. -/
theorem Phi_before (c : Dev nD) (t : Fin cfg1.N) :
    (dat V c).Φ t.castSucc ⊢ iprop(∃ a d, ⌜¬ c1 (grid1.coords t) → a = (stPrev V c t).1 ∧ d = (stPrev V c t).2⌝ ∗ PhiAt (F := F) c a d) := by
  rw [Phi_castSucc]
  obtain ⟨n, hn⟩ := t
  cases n with
  | zero =>
    have e : PhiS V c (⟨0, hn⟩ : Fin cfg1.N).val (Nat.le_of_lt hn) = Pipeline.ΦA spec1 c := rfl
    rw [e]
    iintro H
    ihave H' := (PhiA_split (F := F) c) $$ H
    icases H' with ⟨%a, %d, H'⟩
    iexists a; iexists d
    isplitr; · ipureintro; intro h; exact absurd (hc1_zero ⟨0, hn⟩ rfl) h
    iexact H'
  | succ n =>
    have e : PhiS V c (⟨n + 1, hn⟩ : Fin cfg1.N).val (Nat.le_of_lt hn)
        = PhiAt c (stPrev V c ⟨n + 1, hn⟩).1 (stPrev V c ⟨n + 1, hn⟩).2 := rfl
    rw [e]
    iintro H
    iexists _; iexists _
    isplitr; · ipureintro; intro _; exact ⟨rfl, rfl⟩
    iexact H

end Cert.Kernel.Hand1
end
-- ==== Proof.Region1OblK.lean ====
import proofs.«134093_j6932077215890_1_alg».proof.Proof.Region1K

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body obligation of the accumulation region

At every point the body is handed the two input blocks, the output window's buffer at whatever it holds and the
two scratch rows at what the point before left (at anything where it resets them), and leaves the rows at the
transition's values, the output buffer stored where the inner coordinate is last and untouched elsewhere. -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  iintro ⟨HΦ, Ho, ⟨%d0, H0⟩, ⟨%d1, H1⟩, ⟨%d2, H2⟩⟩
  ihave HΦ' := (Phi_before V c t) $$ HΦ
  icases HΦ' with ⟨%a, %d, %had, HΦ'⟩
  have ha : accNext (grid1.coords t) (iblk V c 0 t) (iblk V c 1 t) (stPrev V c t).1
      = accNext (grid1.coords t) (iblk V c 0 t) (iblk V c 1 t) a := by
    by_cases h : c1 (grid1.coords t)
    · exact accNext_reset _ h _ _ _ _
    · rw [(had h).1]
  have hd : diagNext (grid1.coords t) (iblk V c 0 t) (iblk V c 1 t) (stPrev V c t).2
      = diagNext (grid1.coords t) (iblk V c 0 t) (iblk V c 1 t) d := by
    by_cases h : c1 (grid1.coords t)
    · exact diagNext_reset _ h _ _ _ _
    · rw [(had h).2]
  rw [st_eq V c t, ha, hd]
  unfold PhiAt
  icases HΦ' with ⟨HS0, HS1, Hoth, Hg⟩
  by_cases h3 : c3 (grid1.coords t)
  · rw [show (dat V c).leavesExact 2 t = owns (c : Thread nD τ) (st1_2 t) fullShare ((dat V c).after 2 t) from by
      unfold Dat.leavesExact; rw [live_2 t h3], after_2, st_eq V c t, ha, hd]
    iapply (sound_kernel c Set.univ (grid1.coords t) _ _ _ _ _ _ _ _ _ _ (hx t) (iblk V c 0 t) (iblk V c 1 t) ((dat V c).before 2 t d2) a d _)
    isplitl [H0]; · iexact H0
    isplitl [H1]; · iexact H1
    isplitl [H2]; · iexact H2
    isplitl [HS0]; · iexact HS0
    isplitl [HS1]; · iexact HS1
    unfold outNext; rw [if_pos h3]
    iintro ⟨H0, H1, H2, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexact H2
  · rw [Dat.leavesExact_idle (dat V c) 2 t (idle_2 t h3) (noFlush_2 t h3)]
    iapply (sound_kernel c Set.univ (grid1.coords t) _ _ _ _ _ _ _ _ _ _ (hx t) (iblk V c 0 t) (iblk V c 1 t) ((dat V c).before 2 t d2) a d _)
    isplitl [H0]; · iexact H0
    isplitl [H1]; · iexact H1
    isplitl [H2]; · iexact H2
    isplitl [HS0]; · iexact HS0
    isplitl [HS1]; · iexact HS1
    unfold outNext; rw [if_neg h3]
    iintro ⟨H0, H1, H2, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : (Pipeline.ΦA spec1 c : sProp 𝕄) ⊢ (dat V c).Φ 0 := by
  rw [show (dat V c).Φ 0 = PhiS V c 0 (Nat.zero_le _) from rfl]
  exact Idealize.SL.BI.Entails.refl _

/-- After the last point the invariant gives the entry form back: the rows' contents are forgotten. -/
theorem hout (c : Dev nD) : (dat V c).Φ (Fin.last cfg1.N) ⊢ (Pipeline.ΦA spec1 c : sProp 𝕄) := by
  have hN : cfg1.N = 64 := N_1
  rw [show (dat V c).Φ (Fin.last cfg1.N) = PhiS V c (63 + 1) (by rw [hN]) from by
    dsimp only [dat]; congr 1]
  rw [PhiS_succ]
  exact PhiA_join c _ _

end Cert.Kernel.Hand1
end
-- ==== Proof.Region2BodyK.lean ====
import proofs.«134093_j6932077215890_1_alg».proof.Proof.Gen.Kernel.Launch
import proofs.«134093_j6932077215890_1_alg».proof.Proof.Gen.Kernel.Skeleton
import proofs.«134093_j6932077215890_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The accumulation kernel's body, case by case

The body keeps two rows of 1024 numbers between grid points: the running column sums of the exponentials
(`acc`) and the diagonal of the scaled products (`diag`). At a point with inner coordinate 0 both are reset
to zero first; the column sums of this tile's exponentials are then added to `acc`; where the two grid
coordinates agree `diag` is overwritten by this tile's diagonal; at the last inner coordinate the output row
`log acc - diag` is stored. One transition function says all of it. -/

/-- The inner coordinate is 0: the accumulators are reset. -/
abbrev c1 (i : grid2.Coords) : Prop := (Scalar.cmpi .ne (Scalar.extui (Scalar.cmpi .eq (BitVec.ofNat 32 (i 1).val) 0#32)) 0#32) = 1#1
/-- The two coordinates agree: the tile holds the diagonal. -/
abbrev c2 (i : grid2.Coords) : Prop := (Scalar.cmpi .ne (Scalar.extui (Scalar.cmpi .eq (BitVec.ofNat 32 (i 0).val) (BitVec.ofNat 32 (i 1).val))) 0#32) = 1#1
/-- The inner coordinate is the last: the output row is stored. -/
abbrev c3 (i : grid2.Coords) : Prop := k2_cond3 i = 1#1

theorem hz2 : (![0, 0] : Fin 2 → ℕ) = fun _ => 0 := by funext a; fin_cases a <;> rfl

/-- A store through the whole rectangle, last, covers the shape. -/
theorem whole_cover {S : Shape} {e : EltTy} {off : Fin S.rank → ℕ} (h : off = fun _ => 0) (inb : ∀ a, off a + S.size a ≤ S.size a)
    (w : S.Idx → Elt F e) (L : List (View.Piece (Elt F) S e)) :
    ∀ y, ∃ p ∈ ((⟨Rect.unit off S.size inb, w⟩ : View.Piece (Elt F) S e) :: L), y ∈ p.1.set := by
  subst h; intro y
  exact ⟨_, List.mem_cons_self, by show y ∈ (Rect.whole S).set; rw [Rect.set_whole]; exact Finset.mem_univ y⟩

/-- After a whole-rectangle store, last, the buffer reads as the stored value. -/
theorem read_writes_whole {sp : Space} {S : Shape} {e : EltTy} (v : View sig .tc sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (whole_cover h inb w L), View.canon_cons_unit_zero h]

/-- The running column sums after a point, from the tile's two blocks and what the point found. -/
def accNext (i : grid2.Coords) (x0 x1 : Vec F S1024x1024 .bf16) (s5 : Vec F S1x1024 .f32) : Vec F S1x1024 .f32 :=
  k2_pay4 x0 x1 (if c1 i then k2_pay1 else s5)

/-- The diagonal row after a point. -/
def diagNext (i : grid2.Coords) (x0 x1 : Vec F S1024x1024 .bf16) (s6 : Vec F S1x1024 .f32) : Vec F S1x1024 .f32 :=
  if c2 i then k2_pay5 x0 x1 else if c1 i then k2_pay2 else s6

/-- The output window's buffer after a point: stored at the last inner coordinate, else as found. -/
def outNext (i : grid2.Coords) (x0 x1 : Vec F S1024x1024 .bf16) (s4 s5 s6 : Vec F S1x1024 .f32) : Vec F S1x1024 .f32 :=
  if c3 i then k2_pay6 (accNext i x0 x1 s5) (diagNext i x0 x1 s6) else s4

set_option hygiene false in
/-- One case of the body: the conditionals decided by the case's hypotheses, the run, and each buffer read back. -/
local macro "run_case" e1:term:max e2:term:max e3:term:max : tactic => `(tactic|
  (simp only [$e1:term, $e2:term, $e3:term]
   sl_exec (disch := first | exact h1 | exact h2 | exact h3)
   sl_step
   iapply Hk
   isplitl [H0]
   · iexists _; isplitr; · ipureintro; exact harg2.read_unread _
     iexact H0
   isplitl [H1]
   · iexists _; isplitr; · ipureintro; exact harg3.read_unread _
     iexact H1
   isplitl [H4]
   · iexists _; isplitr
     swap; · iexact H4
     ipureintro
     try sl_unfold_run_names
     simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]
   isplitl [H5]
   · iexists _; isplitr
     swap; · iexact H5
     ipureintro
     try sl_unfold_run_names
     simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]
   iexists _; isplitr
   swap; · iexact H6
   ipureintro
   try sl_unfold_run_names
   simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]))

set_option maxHeartbeats 8000000 in
/-- The body on whole memrefs: the two input blocks at `x0`, `x1`, the output buffer and the two scratch rows at
    any contents `s4`, `s5`, `s6`, run to the continuation holding the inputs as they were and the three rows
    at the transition's values. The reset and the output store never meet (`hx`). -/
theorem sound_kernel (c : Dev nD) (E : Set ℕ) (i : grid2.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole)
    (hx : ¬ (c1 i ∧ c3 i))
    (x0 x1 : Vec F S1024x1024 .bf16) (s4 s5 s6 : Vec F S1x1024 .f32) (K : PUnit → sProp 𝕄) :
    iprop(owns (c : Thread nD τ) arg2 fullShare x0 ∗ owns (c : Thread nD τ) arg3 fullShare x1
        ∗ owns (c : Thread nD τ) arg4 fullShare s4 ∗ owns (c : Thread nD τ) arg5 fullShare s5 ∗ owns (c : Thread nD τ) arg6 fullShare s6
        ∗ (iprop(owns (c : Thread nD τ) arg2 fullShare x0 ∗ owns (c : Thread nD τ) arg3 fullShare x1
            ∗ owns (c : Thread nD τ) arg4 fullShare (outNext i x0 x1 s4 s5 s6) ∗ owns (c : Thread nD τ) arg5 fullShare (accNext i x0 x1 s5)
            ∗ owns (c : Thread nD τ) arg6 fullShare (diagNext i x0 x1 s6)) -∗ K ⟨⟩))
      ⊢ wp frame (wpE (defs₀ (F := F)) Variants.none c none) E (cc2__partial_kernel i arg2 harg2 arg3 harg3 arg4 harg4 arg5 harg5 arg6 harg6) K := by
  simp only [cc2__partial_kernel_eq_skeleton]; unfold cc2__partial_kernel_skel
  unfold owns outNext accNext diagNext
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  by_cases h1 : c1 i
  · by_cases h2 : c2 i
    · by_cases h3 : c3 i
      · exact absurd ⟨h1, h3⟩ hx
      · run_case (if_pos h1) (if_pos h2) (if_neg h3)
    · by_cases h3 : c3 i
      · exact absurd ⟨h1, h3⟩ hx
      · run_case (if_pos h1) (if_neg h2) (if_neg h3)
  · by_cases h2 : c2 i
    · by_cases h3 : c3 i
      · run_case (if_neg h1) (if_pos h2) (if_pos h3)
      · run_case (if_neg h1) (if_pos h2) (if_neg h3)
    · by_cases h3 : c3 i
      · run_case (if_neg h1) (if_neg h2) (if_pos h3)
      · run_case (if_neg h1) (if_neg h2) (if_neg h3)

end Cert.Kernel.Hand2
end
-- ==== Proof.Region2K.lean ====
import proofs.«134093_j6932077215890_1_alg».proof.Proof.Region2BodyK

set_option maxRecDepth 16384

noncomputable section

namespace Cert.Kernel.Hand2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The accumulation region over its 8 × 8 grid: what every buffer holds between points

The region is entered with the arrays at contents `V`. Point `t` has outer coordinate `t / 8` and inner coordinate
`t % 8`; its two input blocks are 1024 rows of each operand. The pair (running column sums, diagonal row) after
point `t` is the body's transition applied to the pair after point `t - 1`; the output row is stored, and written
back, at the points with inner coordinate 7. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch rows as whole memrefs. -/
abbrev scM0 : Memref sig .tc .vmem S1x1024 .f32 := Memref.whole cc2_scratch0
abbrev scM1 : Memref sig .tc .vmem S1x1024 .f32 := Memref.whole cc2_scratch1

/-- The pair (running column sums, diagonal row) after point `n`: the transition from the pair after `n - 1`
    (from zero rows before the first point, where the reset makes the choice immaterial). -/
def st (c : Dev nD) : (n : ℕ) → n < cfg2.N → Vec F S1x1024 .f32 × Vec F S1x1024 .f32
  | 0, hn => (accNext (grid2.coords ⟨0, hn⟩) (iblk V c 0 ⟨0, hn⟩) (iblk V c 1 ⟨0, hn⟩) (k2_pay1 (F := F)),
      diagNext (grid2.coords ⟨0, hn⟩) (iblk V c 0 ⟨0, hn⟩) (iblk V c 1 ⟨0, hn⟩) (k2_pay2 (F := F)))
  | n + 1, hn => (accNext (grid2.coords ⟨n + 1, hn⟩) (iblk V c 0 ⟨n + 1, hn⟩) (iblk V c 1 ⟨n + 1, hn⟩) (st c n (Nat.lt_of_succ_lt hn)).1,
      diagNext (grid2.coords ⟨n + 1, hn⟩) (iblk V c 0 ⟨n + 1, hn⟩) (iblk V c 1 ⟨n + 1, hn⟩) (st c n (Nat.lt_of_succ_lt hn)).2)

/-- The pair the body FINDS at point `t`: what the point before left (zero rows at the first). -/
def stPrev (c : Dev nD) (t : Fin cfg2.N) : Vec F S1x1024 .f32 × Vec F S1x1024 .f32 :=
  match t with
  | ⟨0, _⟩ => (k2_pay1 (F := F), k2_pay2 (F := F))
  | ⟨n + 1, hn⟩ => st V c n (Nat.lt_of_succ_lt hn)

theorem st_eq (c : Dev nD) (t : Fin cfg2.N) :
    st V c t.val t.isLt = (accNext (grid2.coords t) (iblk V c 0 t) (iblk V c 1 t) (stPrev V c t).1,
      diagNext (grid2.coords t) (iblk V c 0 t) (iblk V c 1 t) (stPrev V c t).2) := by
  obtain ⟨n, hn⟩ := t
  cases n with
  | zero => rfl
  | succ n => rfl

/-- Where the accumulators are reset, what the point found in them does not matter. -/
theorem accNext_reset (i : grid2.Coords) (h : c1 i) (x0 x1 : Vec F S1024x1024 .bf16) (s s' : Vec F S1x1024 .f32) :
    accNext i x0 x1 s = accNext i x0 x1 s' := by unfold accNext; rw [if_pos h, if_pos h]
theorem diagNext_reset (i : grid2.Coords) (h : c1 i) (x0 x1 : Vec F S1024x1024 .bf16) (s s' : Vec F S1x1024 .f32) :
    diagNext i x0 x1 s = diagNext i x0 x1 s' := by
  unfold diagNext; by_cases h2 : c2 i
  · rw [if_pos h2, if_pos h2]
  · rw [if_neg h2, if_neg h2, if_pos h, if_pos h]

/-! ## The conditions over the grid -/

/-- The accumulators are reset exactly at the points with inner coordinate 0 — decided over the grid. -/
theorem hc1 : ∀ t : Fin cfg2.N, c1 (grid2.coords t) ↔ t.val % 8 = 0 :=
  (by decide +kernel : ∀ t : Fin grid2.N, c1 (grid2.coords t) ↔ t.val % 8 = 0)
/-- The output row is stored exactly at the points with inner coordinate 7. -/
theorem hc3 : ∀ t : Fin cfg2.N, c3 (grid2.coords t) ↔ t.val % 8 = 7 :=
  (by decide +kernel : ∀ t : Fin grid2.N, c3 (grid2.coords t) ↔ t.val % 8 = 7)
/-- The first point resets. -/
theorem hc1_zero (t : Fin cfg2.N) (h : t.val = 0) : c1 (grid2.coords t) := (hc1 t).mpr (by rw [h])
theorem hx (t : Fin cfg2.N) : ¬ (c1 (grid2.coords t) ∧ c3 (grid2.coords t)) := fun ⟨a, b⟩ => by
  have := (hc1 t).mp a; have := (hc3 t).mp b; omega

/-- The inputs are never idle; the output window is idle, and not written back, away from inner coordinate 7, and live there. -/
theorem live_0 : ∀ t : Fin cfg2.N, cfg2.idle 0 (grid2.coords t) = false := by decide +kernel
theorem live_1 : ∀ t : Fin cfg2.N, cfg2.idle 1 (grid2.coords t) = false := by decide +kernel
theorem idle_2 : ∀ t : Fin cfg2.N, ¬ c3 (grid2.coords t) → cfg2.idle 2 (grid2.coords t) = true := by decide +kernel
theorem noFlush_2 : ∀ t : Fin cfg2.N, ¬ c3 (grid2.coords t) → (cfg2.win 2).flush t = false := by decide +kernel
theorem live_2 : ∀ t : Fin cfg2.N, c3 (grid2.coords t) → cfg2.idle 2 (grid2.coords t) = false := by decide +kernel

/-! ## The region invariant -/

/-- The core's scoped buffers the region neither stages through nor keeps its rows in, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The invariant with the two scratch rows at `a` and `d`. -/
def PhiAt (c : Dev nD) (a d : Vec F S1x1024 .f32) : sProp 𝕄 :=
  iprop(owns (c : Thread nD τ) scM0 fullShare a ∗ owns (c : Thread nD τ) scM1 fullShare d ∗ others (F := F) c ∗ ∃ r, prngReg c r)

/-- What the region is entered with is the invariant at SOME rows. -/
theorem PhiA_split (c : Dev nD) : (Pipeline.ΦA spec2 c : sProp 𝕄) ⊢ iprop(∃ a d, PhiAt (F := F) c a d) := by
  unfold Pipeline.ΦA PhiAt others; rw [scopedRest2_eq]
  simp only [scM0, scM1, owns_whole]
  iintro ⟨⟨R0, R1, R2, R3, R4, R5, R6, R7, R8, R9, R10, R11, R12, R13, R14, R15, HS0, HS1⟩, Hg⟩
  icases HS0 with ⟨%a, HS0⟩
  icases HS1 with ⟨%d, HS1⟩
  iexists a; iexists d
  isplitl [HS0]; · iexact HS0
  isplitl [HS1]; · iexact HS1
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

/-- And the invariant at any rows gives it back. -/
theorem PhiA_join (c : Dev nD) (a d : Vec F S1x1024 .f32) : PhiAt (F := F) c a d ⊢ (Pipeline.ΦA spec2 c : sProp 𝕄) := by
  unfold Pipeline.ΦA PhiAt others; rw [scopedRest2_eq]
  simp only [scM0, scM1, owns_whole]
  iintro ⟨HS0, HS1, ⟨R0, R1, R2, R3, R4, R5, R6, R7, R8, R9, R10, R11, R12, R13, R14, R15⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [HS0]; · iexists _; iexact HS0
  iexists _; iexact HS1

/-- The invariant before position `n`: as entered before the first point; afterwards the two rows at what the point
    before left. -/
def PhiS (c : Dev nD) : (n : ℕ) → n ≤ cfg2.N → sProp 𝕄
  | 0, _ => Pipeline.ΦA spec2 c
  | n + 1, hn => PhiAt c (st V c n hn).1 (st V c n hn).2

theorem PhiS_succ (c : Dev nD) (n : ℕ) (hn : n < cfg2.N) :
    PhiS V c (n + 1) hn = PhiAt c (st V c n hn).1 (st V c n hn).2 := rfl

/-! ## The proof data -/

/-- The pipeline's proof data on core `c`: the arrays as the region finds them; each input's buffer left at its
    block; the output's buffer, where it is stored, at `log acc - diag` of the rows after the point; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay6 (st V c t.val t.isLt).1 (st V c t.val t.isLt).2
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) :
    (dat V c).after 2 t = k2_pay6 (st V c t.val t.isLt).1 (st V c t.val t.isLt).2 := by dsimp only [dat]

/-- Each input's current staging buffer holds its block at every point, fetched there or not (unfetched, the block
    index has not moved). -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem Phi_castSucc (c : Dev nD) (t : Fin cfg2.N) :
    (dat V c).Φ t.castSucc = PhiS V c t.val (Nat.le_of_lt t.isLt) := by
  dsimp only [dat]; simp only [Fin.coe_castSucc]

/-- Before point `t` the invariant holds the two rows at SOME contents which, unless the point resets, are what the
    point before left. -/
theorem Phi_before (c : Dev nD) (t : Fin cfg2.N) :
    (dat V c).Φ t.castSucc ⊢ iprop(∃ a d, ⌜¬ c1 (grid2.coords t) → a = (stPrev V c t).1 ∧ d = (stPrev V c t).2⌝ ∗ PhiAt (F := F) c a d) := by
  rw [Phi_castSucc]
  obtain ⟨n, hn⟩ := t
  cases n with
  | zero =>
    have e : PhiS V c (⟨0, hn⟩ : Fin cfg2.N).val (Nat.le_of_lt hn) = Pipeline.ΦA spec2 c := rfl
    rw [e]
    iintro H
    ihave H' := (PhiA_split (F := F) c) $$ H
    icases H' with ⟨%a, %d, H'⟩
    iexists a; iexists d
    isplitr; · ipureintro; intro h; exact absurd (hc1_zero ⟨0, hn⟩ rfl) h
    iexact H'
  | succ n =>
    have e : PhiS V c (⟨n + 1, hn⟩ : Fin cfg2.N).val (Nat.le_of_lt hn)
        = PhiAt c (stPrev V c ⟨n + 1, hn⟩).1 (stPrev V c ⟨n + 1, hn⟩).2 := rfl
    rw [e]
    iintro H
    iexists _; iexists _
    isplitr; · ipureintro; intro _; exact ⟨rfl, rfl⟩
    iexact H

end Cert.Kernel.Hand2
end
-- ==== Proof.Region2OblK.lean ====
import proofs.«134093_j6932077215890_1_alg».proof.Proof.Region2K

set_option maxRecDepth 16384

noncomputable section

namespace Cert.Kernel.Hand2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The body obligation of the accumulation region

At every point the body is handed the two input blocks, the output window's buffer at whatever it holds and the
two scratch rows at what the point before left (at anything where it resets them), and leaves the rows at the
transition's values, the output buffer stored where the inner coordinate is last and untouched elsewhere. -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  iintro ⟨HΦ, Ho, ⟨%d0, H0⟩, ⟨%d1, H1⟩, ⟨%d2, H2⟩⟩
  ihave HΦ' := (Phi_before V c t) $$ HΦ
  icases HΦ' with ⟨%a, %d, %had, HΦ'⟩
  have ha : accNext (grid2.coords t) (iblk V c 0 t) (iblk V c 1 t) (stPrev V c t).1
      = accNext (grid2.coords t) (iblk V c 0 t) (iblk V c 1 t) a := by
    by_cases h : c1 (grid2.coords t)
    · exact accNext_reset _ h _ _ _ _
    · rw [(had h).1]
  have hd : diagNext (grid2.coords t) (iblk V c 0 t) (iblk V c 1 t) (stPrev V c t).2
      = diagNext (grid2.coords t) (iblk V c 0 t) (iblk V c 1 t) d := by
    by_cases h : c1 (grid2.coords t)
    · exact diagNext_reset _ h _ _ _ _
    · rw [(had h).2]
  rw [st_eq V c t, ha, hd]
  unfold PhiAt
  icases HΦ' with ⟨HS0, HS1, Hoth, Hg⟩
  by_cases h3 : c3 (grid2.coords t)
  · rw [show (dat V c).leavesExact 2 t = owns (c : Thread nD τ) (st2_2 t) fullShare ((dat V c).after 2 t) from by
      unfold Dat.leavesExact; rw [live_2 t h3], after_2, st_eq V c t, ha, hd]
    iapply (sound_kernel c Set.univ (grid2.coords t) _ _ _ _ _ _ _ _ _ _ (hx t) (iblk V c 0 t) (iblk V c 1 t) ((dat V c).before 2 t d2) a d _)
    isplitl [H0]; · iexact H0
    isplitl [H1]; · iexact H1
    isplitl [H2]; · iexact H2
    isplitl [HS0]; · iexact HS0
    isplitl [HS1]; · iexact HS1
    unfold outNext; rw [if_pos h3]
    iintro ⟨H0, H1, H2, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexact H2
  · rw [Dat.leavesExact_idle (dat V c) 2 t (idle_2 t h3) (noFlush_2 t h3)]
    iapply (sound_kernel c Set.univ (grid2.coords t) _ _ _ _ _ _ _ _ _ _ (hx t) (iblk V c 0 t) (iblk V c 1 t) ((dat V c).before 2 t d2) a d _)
    isplitl [H0]; · iexact H0
    isplitl [H1]; · iexact H1
    isplitl [H2]; · iexact H2
    isplitl [HS0]; · iexact HS0
    isplitl [HS1]; · iexact HS1
    unfold outNext; rw [if_neg h3]
    iintro ⟨H0, H1, H2, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : (Pipeline.ΦA spec2 c : sProp 𝕄) ⊢ (dat V c).Φ 0 := by
  rw [show (dat V c).Φ 0 = PhiS V c 0 (Nat.zero_le _) from rfl]
  exact Idealize.SL.BI.Entails.refl _

/-- After the last point the invariant gives the entry form back: the rows' contents are forgotten. -/
theorem hout (c : Dev nD) : (dat V c).Φ (Fin.last cfg2.N) ⊢ (Pipeline.ΦA spec2 c : sProp 𝕄) := by
  have hN : cfg2.N = 64 := N_2
  rw [show (dat V c).Φ (Fin.last cfg2.N) = PhiS V c (63 + 1) (by rw [hN]) from by
    dsimp only [dat]; congr 1]
  rw [PhiS_succ]
  exact PhiA_join c _ _

end Cert.Kernel.Hand2
end
-- ==== Proof.RunBits.lean ====
/-
  The run of the kernel program over its three regions and the closing host stretch.

  The unscoped buffers' contents are followed from the launch to the return: a region changes only its own arrays,
  each left at what its points' write-backs fold to, and the host stretch changes only the buffers its operations
  write.  Every region is entered from the contents the item before it left, so the three regions and the stretch
  chain; at the return every unscoped buffer is read off the last contents.  The two arguments are written by no
  item, so they end as launched; the result is the host stretch's term of the two row vectors the second and third
  regions leave, and those are the folds of their write-backs.
-/
import proofs.«134093_j6932077215890_1_alg».proof.Proof.Region0K
import proofs.«134093_j6932077215890_1_alg».proof.Proof.Region1OblK
import proofs.«134093_j6932077215890_1_alg».proof.Proof.Region2OblK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.HandRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After region 0: its arrays at what the write-backs leave, every other buffer as the region found it. -/
def W1 (c : Dev nD) : Valuation τ sig (Elt F) :=
  Pipeline.withArrays spec0 c (W0 m ρ c) fun w => (Cert.Kernel.Hand0.dat0 (V0 m ρ) c).arrAt w cfg0.N
theorem W1_arr (c : Dev nD) (w : Fin cfg0.W) :
    W1 m ρ c (Proc.devRef .tc (Pipeline.arrRef spec0 w)) = (Cert.Kernel.Hand0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (Cert.Kernel.Hand0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the write-backs leave, every other buffer as the region found it. -/
def W2 (c : Dev nD) : Valuation τ sig (Elt F) :=
  Pipeline.withArrays spec1 c (W1 m ρ c) fun w => (Cert.Kernel.Hand1.dat (V1 m ρ) c).arrAt w cfg1.N
theorem W2_arr (c : Dev nD) (w : Fin cfg1.W) :
    W2 m ρ c (Proc.devRef .tc (Pipeline.arrRef spec1 w)) = (Cert.Kernel.Hand1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (Cert.Kernel.Hand1.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the write-backs leave, every other buffer as the region found it. -/
def W3 (c : Dev nD) : Valuation τ sig (Elt F) :=
  Pipeline.withArrays spec2 c (W2 m ρ c) fun w => (Cert.Kernel.Hand2.dat (V2 m ρ) c).arrAt w cfg2.N
theorem W3_arr (c : Dev nD) (w : Fin cfg2.W) :
    W3 m ρ c (Proc.devRef .tc (Pipeline.arrRef spec2 w)) = (Cert.Kernel.Hand2.dat (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (Cert.Kernel.Hand2.dat (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After the host stretch. -/
abbrev W4 : Dev nD → Valuation τ sig (Elt F) := fun c => StableHlo.after hostOps3 (W3 m ρ c)

/-! ## What reaches the end unchanged, and what each region leaves -/

/-- No operation of the host stretch writes a buffer outside this list. -/
abbrev hostOps3_W : List (Ref sig .tc) := [main_cst, main_v3, main_cst_0, main_v4, main_cst_1, main_v5, main_cst_2, main_v6, main_v7, main_cst_3, main_v8]
theorem hostOps3_writes : (hostOps3 : List (HloOp τ sig (Elt F))).Forall fun op => op.writes ⊆ (hostOps3_W.map (Proc.devRef (τ := τ) .tc)).toFinset := by
  simp only [List.Forall]
  refine ⟨?_, ?_, ?_, ?_, ?_, ?_, ?_, ?_, ?_, ?_, ?_⟩ <;>
    (simp only [StableHlo.nullary_writes, StableHlo.binary_writes, Finset.singleton_subset_iff, List.mem_toFinset]
     exact List.mem_map_of_mem (by decide))
theorem W4_of (c : Dev nD) (r : Ref sig .tc) (h : r ∉ hostOps3_W) : W4 m ρ c (Proc.devRef .tc r) = W3 m ρ c (Proc.devRef .tc r) :=
  StableHlo.after_of_writes_sub hostOps3 _ hostOps3_writes h

/-- The first argument is written by no item: it ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((Cert.Kernel.Hand0.dat0 (V0 m ρ) c).arrAt_in 0 rfl _).trans (Cert.Kernel.Hand0.A_eq0 (V0 m ρ) c 0))
    _ = m ((c : Thread nD τ).loc main_arg0) := rfl
/-- The second argument likewise. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((Cert.Kernel.Hand0.dat0 (V0 m ρ) c).arrAt_in 1 rfl _).trans (Cert.Kernel.Hand0.A_eq0 (V0 m ρ) c 1))
    _ = m ((c : Thread nD τ).loc main_arg1) := rfl

/-- The two scaled matrices are what the first region's write-backs fold to. -/
theorem W1_main_v0_0 (c : Dev nD) : W1 m ρ c (Proc.devRef .tc main_v0_0) = (Cert.Kernel.Hand0.dat0 (V0 m ρ) c).arrAt 2 cfg0.N := W1_arr m ρ c 2
theorem W1_main_v0_1 (c : Dev nD) : W1 m ρ c (Proc.devRef .tc main_v0_1) = (Cert.Kernel.Hand0.dat0 (V0 m ρ) c).arrAt 3 cfg0.N := W1_arr m ρ c 3
/-- The row vector of the second region is what its write-backs fold to; the third region does not touch it. -/
theorem W3_main_v1 (c : Dev nD) : W3 m ρ c (Proc.devRef .tc main_v1) = (Cert.Kernel.Hand1.dat (V1 m ρ) c).arrAt 2 cfg1.N :=
  (W3_of_ne m ρ c main_v1 (by decide)).trans (W2_arr m ρ c 2)
/-- The row vector of the third region is what its write-backs fold to. -/
theorem W3_main_v2 (c : Dev nD) : W3 m ρ c (Proc.devRef .tc main_v2) = (Cert.Kernel.Hand2.dat (V2 m ρ) c).arrAt 2 cfg2.N := W3_arr m ρ c 2

/-- The result: the half-sum of the two row vectors' means, as the host stretch computes it. -/
theorem W4_main_v8 (c : Dev nD) :
    W4 m ρ c (Proc.devRef .tc main_v8)
      = Host.divf (addf
          (Host.divf (Host.reduceAdd (W3 m ρ c (Proc.devRef .tc main_v1)) (constant S_ .f32 0x00000000#32) reducesTo_S1x8192_S_d0_1 h_S_) (constant S_ .f32 0x46000000#32))
          (Host.divf (Host.reduceAdd (W3 m ρ c (Proc.devRef .tc main_v2)) (constant S_ .f32 0x00000000#32) reducesTo_S1x8192_S_d0_1 h_S_) (constant S_ .f32 0x46000000#32)))
        (constant S_ .f32 0x40000000#32) := by
  show StableHlo.after hostOps3 (W3 m ρ c) (Proc.devRef .tc main_v8) = _
  after_results_simp

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Cert.Kernel.Hand0.dat0 (V0 m ρ) c
  | ⟨1, _⟩ => fun c => Cert.Kernel.Hand1.dat (V1 m ρ) c
  | ⟨2, _⟩ => fun c => Cert.Kernel.Hand2.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of the host stretch allocates a buffer. -/
theorem hostOps3_fresh : (hostOps3 : List (HloOp τ sig (Elt F))).Forall fun op => op.fresh = ∅ := by
  simp only [List.Forall]; repeat' constructor
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered with every unscoped buffer at `W0`, left with them at `W1`; its arrays
    are split out of the unscoped buffers at the entry and put back, at what the write-backs leave, at the exit; the
    generator register goes into the body's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cert.Kernel.Hand0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered with every unscoped buffer at `W1`, left with them at `W2`; its arrays
    are split out of the unscoped buffers at the entry and put back, at what the write-backs leave, at the exit; the
    generator register goes into the body's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cert.Kernel.Hand1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ ((Cert.Kernel.Hand1.dat (V1 m ρ) c).Φ 0 : sProp 𝕄) := by
      have h' := Cert.Kernel.Hand1.hin (V1 m ρ) c
      unfold Pipeline.ΦA at h'
      exact h'
    rw [show (pdats m ρ 1 c).Φ 0 = (Cert.Kernel.Hand1.dat (V1 m ρ) c).Φ 0 from rfl]
    iintro ⟨Hp, -, Hr⟩
    iapply h
    isplitl [Hr]; · iexact Hr
    iexact Hp
  hout c := by
    have h : ((Cert.Kernel.Hand1.dat (V1 m ρ) c).Φ (Fin.last cfg1.N) : sProp 𝕄) ⊢ iprop(Pipeline.scopedRest spec1 c ∗ ∃ r, prngReg c r) := by
      have h' := Cert.Kernel.Hand1.hout (V1 m ρ) c
      unfold Pipeline.ΦA at h'
      exact h'
    rw [Pipeline.ownSems0_none, show (pdats m ρ 1 c).Φ (Fin.last _) = (Cert.Kernel.Hand1.dat (V1 m ρ) c).Φ (Fin.last cfg1.N) from rfl]
    iintro HΦ
    ihave HA := (h) $$ HΦ
    icases HA with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered with every unscoped buffer at `W2`, left with them at `W3`; its arrays
    are split out of the unscoped buffers at the entry and put back, at what the write-backs leave, at the exit; the
    generator register goes into the body's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Cert.Kernel.Hand2.body_obligation (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec2 c ∗ ∃ r, prngReg c r) ⊢ ((Cert.Kernel.Hand2.dat (V2 m ρ) c).Φ 0 : sProp 𝕄) := by
      have h' := Cert.Kernel.Hand2.hin (V2 m ρ) c
      unfold Pipeline.ΦA at h'
      exact h'
    rw [show (pdats m ρ 2 c).Φ 0 = (Cert.Kernel.Hand2.dat (V2 m ρ) c).Φ 0 from rfl]
    iintro ⟨Hp, -, Hr⟩
    iapply h
    isplitl [Hr]; · iexact Hr
    iexact Hp
  hout c := by
    have h : ((Cert.Kernel.Hand2.dat (V2 m ρ) c).Φ (Fin.last cfg2.N) : sProp 𝕄) ⊢ iprop(Pipeline.scopedRest spec2 c ∗ ∃ r, prngReg c r) := by
      have h' := Cert.Kernel.Hand2.hout (V2 m ρ) c
      unfold Pipeline.ΦA at h'
      exact h'
    rw [Pipeline.ownSems0_none, show (pdats m ρ 2 c).Φ (Fin.last _) = (Cert.Kernel.Hand2.dat (V2 m ρ) c).Φ (Fin.last cfg2.N) from rfl]
    iintro HΦ
    ihave HA := (h) $$ HΦ
    icases HA with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order: the three regions, then the host stretch from the contents the third leaves. -/
abbrev segs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (W3 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and at
    the return every unscoped buffer of every core holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.HandRun

end
-- ==== Proof.Region0.lean ====
/-
  The row normalisation, the first of the three regions: its body and its proof data, stated at the contents
  `V` the TensorCore's buffers hold when the region is entered.

  The body reads both input blocks whole (1024 rows of 1024 entries each), and writes each output block whole:
  every entry of a row divided by the row's Euclidean length clamped below.  So after the body an input's
  staging buffer still holds its block, and an output's holds one function of the matching input block alone.
-/
import proofs.«134093_j6932077215890_1_alg».proof.Proof.Gen.KernelIdeal.Launch
import proofs.«134093_j6932077215890_1_alg».proof.Proof.Gen.KernelIdeal.Skeleton
import proofs.«134093_j6932077215890_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows `1024 t … 1024 t + 1023` of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, whatever proof data has `V`'s array there and
    a body that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's one access rectangle: a whole `1024 × 1024` buffer -/

abbrev r0 : Rect S1024x1024 := Rect.unit (s := S1024x1024) ![0, 0] S1024x1024.size inb_S1024x1024_S1024x1024_0_0

/-! ## What the body leaves in the two output buffers -/

/-- The first output's staging buffer after the body: its one whole-buffer store of the normalised first input block. -/
def out0_2 (x0 : Vec F S1024x1024 .f32) : Vec F S1024x1024 .bf16 :=
  View.canon [⟨r0, k0_pay1 (View.ld x0 r0)⟩]

/-- The second output's, of the second input block. -/
def out0_3 (x1 : Vec F S1024x1024 .f32) : Vec F S1024x1024 .bf16 :=
  View.canon [⟨r0, k0_pay2 (View.ld x1 r0)⟩]

/-- One whole-buffer store covers the buffer. -/
theorem cover0 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The body on whole staging buffers, the inputs' at contents `x0`, `x1` and the outputs' at anything, ends with the
    inputs' as they were and the outputs' at `out0_2 x0`, `out0_3 x1`; the grid coordinate it is passed is not read. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1024x1024 .bf16) (harg3 : arg3.IsWhole) (arg4 : Memref sig .tc .vmem S1024x1024 .bf16) (harg4 : arg4.IsWhole)
    (x0 : Vec F S1024x1024 .f32) (x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)) -∗ K ⟨⟩))
      ⊢ wp frame (wpE (defs₀ (F := F)) Variants.none c none) E (cc0__normalize_kernel i arg1 harg1 arg2 harg2 arg3 harg3 arg4 harg4) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The region's proof data -/

/-- The proof data of the region on core `c`: the arrays as the region finds them; after the body at point `t` each
    input's buffer at its block and each output's at the normalised matching input block; the invariant that of a
    body which touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.Region1Body.lean ====
import proofs.«134093_j6932077215890_1_alg».proof.Proof.Gen.KernelIdeal.Launch
import proofs.«134093_j6932077215890_1_alg».proof.Proof.Gen.KernelIdeal.Skeleton
import proofs.«134093_j6932077215890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The accumulation kernel's body, case by case

The body keeps two rows of 1024 numbers between grid points: the running column sums of the exponentials
(`acc`) and the diagonal of the scaled products (`diag`). At a point with inner coordinate 0 both are reset
to zero first; the column sums of this tile's exponentials are then added to `acc`; where the two grid
coordinates agree `diag` is overwritten by this tile's diagonal; at the last inner coordinate the output row
`log acc - diag` is stored. One transition function says all of it. -/

/-- The inner coordinate is 0: the accumulators are reset. -/
abbrev c1 (i : grid1.Coords) : Prop := (Scalar.cmpi .ne (Scalar.extui (Scalar.cmpi .eq (BitVec.ofNat 32 (i 1).val) 0#32)) 0#32) = 1#1
/-- The two coordinates agree: the tile holds the diagonal. -/
abbrev c2 (i : grid1.Coords) : Prop := (Scalar.cmpi .ne (Scalar.extui (Scalar.cmpi .eq (BitVec.ofNat 32 (i 0).val) (BitVec.ofNat 32 (i 1).val))) 0#32) = 1#1
/-- The inner coordinate is the last: the output row is stored. -/
abbrev c3 (i : grid1.Coords) : Prop := k1_cond3 i = 1#1

theorem hz2 : (![0, 0] : Fin 2 → ℕ) = fun _ => 0 := by funext a; fin_cases a <;> rfl

/-- A store through the whole rectangle, last, covers the shape. -/
theorem whole_cover {S : Shape} {e : EltTy} {off : Fin S.rank → ℕ} (h : off = fun _ => 0) (inb : ∀ a, off a + S.size a ≤ S.size a)
    (w : S.Idx → Elt F e) (L : List (View.Piece (Elt F) S e)) :
    ∀ y, ∃ p ∈ ((⟨Rect.unit off S.size inb, w⟩ : View.Piece (Elt F) S e) :: L), y ∈ p.1.set := by
  subst h; intro y
  exact ⟨_, List.mem_cons_self, by show y ∈ (Rect.whole S).set; rw [Rect.set_whole]; exact Finset.mem_univ y⟩

/-- After a whole-rectangle store, last, the buffer reads as the stored value. -/
theorem read_writes_whole {sp : Space} {S : Shape} {e : EltTy} (v : View sig .tc sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (whole_cover h inb w L), View.canon_cons_unit_zero h]

/-- The running column sums after a point, from the tile's two blocks and what the point found. -/
def accNext (i : grid1.Coords) (x0 x1 : Vec F S1024x1024 .bf16) (s5 : Vec F S1x1024 .f32) : Vec F S1x1024 .f32 :=
  k1_pay4 x0 x1 (if c1 i then k1_pay1 else s5)

/-- The diagonal row after a point. -/
def diagNext (i : grid1.Coords) (x0 x1 : Vec F S1024x1024 .bf16) (s6 : Vec F S1x1024 .f32) : Vec F S1x1024 .f32 :=
  if c2 i then k1_pay5 x0 x1 else if c1 i then k1_pay2 else s6

/-- The output window's buffer after a point: stored at the last inner coordinate, else as found. -/
def outNext (i : grid1.Coords) (x0 x1 : Vec F S1024x1024 .bf16) (s4 s5 s6 : Vec F S1x1024 .f32) : Vec F S1x1024 .f32 :=
  if c3 i then k1_pay6 (accNext i x0 x1 s5) (diagNext i x0 x1 s6) else s4

set_option hygiene false in
/-- One case of the body: the conditionals decided by the case's hypotheses, the run, and each buffer read back. -/
local macro "run_case" e1:term:max e2:term:max e3:term:max : tactic => `(tactic|
  (simp only [$e1:term, $e2:term, $e3:term]
   sl_exec (disch := first | exact h1 | exact h2 | exact h3)
   sl_step
   iapply Hk
   isplitl [H0]
   · iexists _; isplitr; · ipureintro; exact harg2.read_unread _
     iexact H0
   isplitl [H1]
   · iexists _; isplitr; · ipureintro; exact harg3.read_unread _
     iexact H1
   isplitl [H4]
   · iexists _; isplitr
     swap; · iexact H4
     ipureintro
     try sl_unfold_run_names
     simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]
   isplitl [H5]
   · iexists _; isplitr
     swap; · iexact H5
     ipureintro
     try sl_unfold_run_names
     simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]
   iexists _; isplitr
   swap; · iexact H6
   ipureintro
   try sl_unfold_run_names
   simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]))

set_option maxHeartbeats 8000000 in
/-- The body on whole memrefs: the two input blocks at `x0`, `x1`, the output buffer and the two scratch rows at
    any contents `s4`, `s5`, `s6`, run to the continuation holding the inputs as they were and the three rows
    at the transition's values. The reset and the output store never meet (`hx`). -/
theorem sound_kernel (c : Dev nD) (E : Set ℕ) (i : grid1.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole)
    (hx : ¬ (c1 i ∧ c3 i))
    (x0 x1 : Vec F S1024x1024 .bf16) (s4 s5 s6 : Vec F S1x1024 .f32) (K : PUnit → sProp 𝕄) :
    iprop(owns (c : Thread nD τ) arg2 fullShare x0 ∗ owns (c : Thread nD τ) arg3 fullShare x1
        ∗ owns (c : Thread nD τ) arg4 fullShare s4 ∗ owns (c : Thread nD τ) arg5 fullShare s5 ∗ owns (c : Thread nD τ) arg6 fullShare s6
        ∗ (iprop(owns (c : Thread nD τ) arg2 fullShare x0 ∗ owns (c : Thread nD τ) arg3 fullShare x1
            ∗ owns (c : Thread nD τ) arg4 fullShare (outNext i x0 x1 s4 s5 s6) ∗ owns (c : Thread nD τ) arg5 fullShare (accNext i x0 x1 s5)
            ∗ owns (c : Thread nD τ) arg6 fullShare (diagNext i x0 x1 s6)) -∗ K ⟨⟩))
      ⊢ wp frame (wpE (defs₀ (F := F)) Variants.none c none) E (cc1__partial_kernel i arg2 harg2 arg3 harg3 arg4 harg4 arg5 harg5 arg6 harg6) K := by
  simp only [cc1__partial_kernel_eq_skeleton]; unfold cc1__partial_kernel_skel
  unfold owns outNext accNext diagNext
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  by_cases h1 : c1 i
  · by_cases h2 : c2 i
    · by_cases h3 : c3 i
      · exact absurd ⟨h1, h3⟩ hx
      · run_case (if_pos h1) (if_pos h2) (if_neg h3)
    · by_cases h3 : c3 i
      · exact absurd ⟨h1, h3⟩ hx
      · run_case (if_pos h1) (if_neg h2) (if_neg h3)
  · by_cases h2 : c2 i
    · by_cases h3 : c3 i
      · run_case (if_neg h1) (if_pos h2) (if_pos h3)
      · run_case (if_neg h1) (if_pos h2) (if_neg h3)
    · by_cases h3 : c3 i
      · run_case (if_neg h1) (if_neg h2) (if_pos h3)
      · run_case (if_neg h1) (if_neg h2) (if_neg h3)

end Cert.KernelIdeal.Hand1
end
-- ==== Proof.Region1.lean ====
import proofs.«134093_j6932077215890_1_alg».proof.Proof.Region1Body

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The accumulation region over its 8 × 8 grid: what every buffer holds between points

The region is entered with the arrays at contents `V`. Point `t` has outer coordinate `t / 8` and inner coordinate
`t % 8`; its two input blocks are 1024 rows of each operand. The pair (running column sums, diagonal row) after
point `t` is the body's transition applied to the pair after point `t - 1`; the output row is stored, and written
back, at the points with inner coordinate 7. -/

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch rows as whole memrefs. -/
abbrev scM0 : Memref sig .tc .vmem S1x1024 .f32 := Memref.whole cc1_scratch0
abbrev scM1 : Memref sig .tc .vmem S1x1024 .f32 := Memref.whole cc1_scratch1

/-- The pair (running column sums, diagonal row) after point `n`: the transition from the pair after `n - 1`
    (from zero rows before the first point, where the reset makes the choice immaterial). -/
def st (c : Dev nD) : (n : ℕ) → n < cfg1.N → Vec F S1x1024 .f32 × Vec F S1x1024 .f32
  | 0, hn => (accNext (grid1.coords ⟨0, hn⟩) (iblk V c 0 ⟨0, hn⟩) (iblk V c 1 ⟨0, hn⟩) (k1_pay1 (F := F)),
      diagNext (grid1.coords ⟨0, hn⟩) (iblk V c 0 ⟨0, hn⟩) (iblk V c 1 ⟨0, hn⟩) (k1_pay2 (F := F)))
  | n + 1, hn => (accNext (grid1.coords ⟨n + 1, hn⟩) (iblk V c 0 ⟨n + 1, hn⟩) (iblk V c 1 ⟨n + 1, hn⟩) (st c n (Nat.lt_of_succ_lt hn)).1,
      diagNext (grid1.coords ⟨n + 1, hn⟩) (iblk V c 0 ⟨n + 1, hn⟩) (iblk V c 1 ⟨n + 1, hn⟩) (st c n (Nat.lt_of_succ_lt hn)).2)

/-- The pair the body FINDS at point `t`: what the point before left (zero rows at the first). -/
def stPrev (c : Dev nD) (t : Fin cfg1.N) : Vec F S1x1024 .f32 × Vec F S1x1024 .f32 :=
  match t with
  | ⟨0, _⟩ => (k1_pay1 (F := F), k1_pay2 (F := F))
  | ⟨n + 1, hn⟩ => st V c n (Nat.lt_of_succ_lt hn)

theorem st_eq (c : Dev nD) (t : Fin cfg1.N) :
    st V c t.val t.isLt = (accNext (grid1.coords t) (iblk V c 0 t) (iblk V c 1 t) (stPrev V c t).1,
      diagNext (grid1.coords t) (iblk V c 0 t) (iblk V c 1 t) (stPrev V c t).2) := by
  obtain ⟨n, hn⟩ := t
  cases n with
  | zero => rfl
  | succ n => rfl

/-- Where the accumulators are reset, what the point found in them does not matter. -/
theorem accNext_reset (i : grid1.Coords) (h : c1 i) (x0 x1 : Vec F S1024x1024 .bf16) (s s' : Vec F S1x1024 .f32) :
    accNext i x0 x1 s = accNext i x0 x1 s' := by unfold accNext; rw [if_pos h, if_pos h]
theorem diagNext_reset (i : grid1.Coords) (h : c1 i) (x0 x1 : Vec F S1024x1024 .bf16) (s s' : Vec F S1x1024 .f32) :
    diagNext i x0 x1 s = diagNext i x0 x1 s' := by
  unfold diagNext; by_cases h2 : c2 i
  · rw [if_pos h2, if_pos h2]
  · rw [if_neg h2, if_neg h2, if_pos h, if_pos h]

/-! ## The conditions over the grid -/

/-- The accumulators are reset exactly at the points with inner coordinate 0 — decided over the grid. -/
theorem hc1 : ∀ t : Fin cfg1.N, c1 (grid1.coords t) ↔ t.val % 8 = 0 :=
  (by decide +kernel : ∀ t : Fin grid1.N, c1 (grid1.coords t) ↔ t.val % 8 = 0)
/-- The output row is stored exactly at the points with inner coordinate 7. -/
theorem hc3 : ∀ t : Fin cfg1.N, c3 (grid1.coords t) ↔ t.val % 8 = 7 :=
  (by decide +kernel : ∀ t : Fin grid1.N, c3 (grid1.coords t) ↔ t.val % 8 = 7)
/-- The first point resets. -/
theorem hc1_zero (t : Fin cfg1.N) (h : t.val = 0) : c1 (grid1.coords t) := (hc1 t).mpr (by rw [h])
theorem hx (t : Fin cfg1.N) : ¬ (c1 (grid1.coords t) ∧ c3 (grid1.coords t)) := fun ⟨a, b⟩ => by
  have := (hc1 t).mp a; have := (hc3 t).mp b; omega

/-- The inputs are never idle; the output window is idle, and not written back, away from inner coordinate 7, and live there. -/
theorem live_0 : ∀ t : Fin cfg1.N, cfg1.idle 0 (grid1.coords t) = false := by decide +kernel
theorem live_1 : ∀ t : Fin cfg1.N, cfg1.idle 1 (grid1.coords t) = false := by decide +kernel
theorem idle_2 : ∀ t : Fin cfg1.N, ¬ c3 (grid1.coords t) → cfg1.idle 2 (grid1.coords t) = true := by decide +kernel
theorem noFlush_2 : ∀ t : Fin cfg1.N, ¬ c3 (grid1.coords t) → (cfg1.win 2).flush t = false := by decide +kernel
theorem live_2 : ∀ t : Fin cfg1.N, c3 (grid1.coords t) → cfg1.idle 2 (grid1.coords t) = false := by decide +kernel

/-! ## The region invariant -/

/-- The core's scoped buffers the region neither stages through nor keeps its rows in, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc2_scratch1), ((c : Thread nD τ).loc cc2_scratch1) ↦{fullShare} f))

/-- The invariant with the two scratch rows at `a` and `d`. -/
def PhiAt (c : Dev nD) (a d : Vec F S1x1024 .f32) : sProp 𝕄 :=
  iprop(owns (c : Thread nD τ) scM0 fullShare a ∗ owns (c : Thread nD τ) scM1 fullShare d ∗ others (F := F) c ∗ ∃ r, prngReg c r)

/-- What the region is entered with is the invariant at SOME rows. -/
theorem PhiA_split (c : Dev nD) : (Pipeline.ΦA spec1 c : sProp 𝕄) ⊢ iprop(∃ a d, PhiAt (F := F) c a d) := by
  unfold Pipeline.ΦA PhiAt others; rw [scopedRest1_eq]
  simp only [scM0, scM1, owns_whole]
  iintro ⟨⟨R0, R1, R2, R3, R4, R5, R6, R7, HS0, HS1, R10, R11, R12, R13, R14, R15, R16, R17⟩, Hg⟩
  icases HS0 with ⟨%a, HS0⟩
  icases HS1 with ⟨%d, HS1⟩
  iexists a; iexists d
  isplitl [HS0]; · iexact HS0
  isplitl [HS1]; · iexact HS1
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R10]; · iexact R10
  isplitl [R11]; · iexact R11
  isplitl [R12]; · iexact R12
  isplitl [R13]; · iexact R13
  isplitl [R14]; · iexact R14
  isplitl [R15]; · iexact R15
  isplitl [R16]; · iexact R16
  iexact R17

/-- And the invariant at any rows gives it back. -/
theorem PhiA_join (c : Dev nD) (a d : Vec F S1x1024 .f32) : PhiAt (F := F) c a d ⊢ (Pipeline.ΦA spec1 c : sProp 𝕄) := by
  unfold Pipeline.ΦA PhiAt others; rw [scopedRest1_eq]
  simp only [scM0, scM1, owns_whole]
  iintro ⟨HS0, HS1, ⟨R0, R1, R2, R3, R4, R5, R6, R7, R10, R11, R12, R13, R14, R15, R16, R17⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [HS0]; · iexists _; iexact HS0
  isplitl [HS1]; · iexists _; iexact HS1
  isplitl [R10]; · iexact R10
  isplitl [R11]; · iexact R11
  isplitl [R12]; · iexact R12
  isplitl [R13]; · iexact R13
  isplitl [R14]; · iexact R14
  isplitl [R15]; · iexact R15
  isplitl [R16]; · iexact R16
  iexact R17

/-- The invariant before position `n`: as entered before the first point; afterwards the two rows at what the point
    before left. -/
def PhiS (c : Dev nD) : (n : ℕ) → n ≤ cfg1.N → sProp 𝕄
  | 0, _ => Pipeline.ΦA spec1 c
  | n + 1, hn => PhiAt c (st V c n hn).1 (st V c n hn).2

theorem PhiS_succ (c : Dev nD) (n : ℕ) (hn : n < cfg1.N) :
    PhiS V c (n + 1) hn = PhiAt c (st V c n hn).1 (st V c n hn).2 := rfl

/-! ## The proof data -/

/-- The pipeline's proof data on core `c`: the arrays as the region finds them; each input's buffer left at its
    block; the output's buffer, where it is stored, at `log acc - diag` of the rows after the point; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay6 (st V c t.val t.isLt).1 (st V c t.val t.isLt).2
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) :
    (dat V c).after 2 t = k1_pay6 (st V c t.val t.isLt).1 (st V c t.val t.isLt).2 := by dsimp only [dat]

/-- Each input's current staging buffer holds its block at every point, fetched there or not (unfetched, the block
    index has not moved). -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem Phi_castSucc (c : Dev nD) (t : Fin cfg1.N) :
    (dat V c).Φ t.castSucc = PhiS V c t.val (Nat.le_of_lt t.isLt) := by
  dsimp only [dat]; simp only [Fin.coe_castSucc]

/-- Before point `t` the invariant holds the two rows at SOME contents which, unless the point resets, are what the
    point before left. -/
theorem Phi_before (c : Dev nD) (t : Fin cfg1.N) :
    (dat V c).Φ t.castSucc ⊢ iprop(∃ a d, ⌜¬ c1 (grid1.coords t) → a = (stPrev V c t).1 ∧ d = (stPrev V c t).2⌝ ∗ PhiAt (F := F) c a d) := by
  rw [Phi_castSucc]
  obtain ⟨n, hn⟩ := t
  cases n with
  | zero =>
    have e : PhiS V c (⟨0, hn⟩ : Fin cfg1.N).val (Nat.le_of_lt hn) = Pipeline.ΦA spec1 c := rfl
    rw [e]
    iintro H
    ihave H' := (PhiA_split (F := F) c) $$ H
    icases H' with ⟨%a, %d, H'⟩
    iexists a; iexists d
    isplitr; · ipureintro; intro h; exact absurd (hc1_zero ⟨0, hn⟩ rfl) h
    iexact H'
  | succ n =>
    have e : PhiS V c (⟨n + 1, hn⟩ : Fin cfg1.N).val (Nat.le_of_lt hn)
        = PhiAt c (stPrev V c ⟨n + 1, hn⟩).1 (stPrev V c ⟨n + 1, hn⟩).2 := rfl
    rw [e]
    iintro H
    iexists _; iexists _
    isplitr; · ipureintro; intro _; exact ⟨rfl, rfl⟩
    iexact H

end Cert.KernelIdeal.Hand1
end
-- ==== Proof.Region1Obl.lean ====
import proofs.«134093_j6932077215890_1_alg».proof.Proof.Region1

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The body obligation of the accumulation region

At every point the body is handed the two input blocks, the output window's buffer at whatever it holds and the
two scratch rows at what the point before left (at anything where it resets them), and leaves the rows at the
transition's values, the output buffer stored where the inner coordinate is last and untouched elsewhere. -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  iintro ⟨HΦ, Ho, ⟨%d0, H0⟩, ⟨%d1, H1⟩, ⟨%d2, H2⟩⟩
  ihave HΦ' := (Phi_before V c t) $$ HΦ
  icases HΦ' with ⟨%a, %d, %had, HΦ'⟩
  have ha : accNext (grid1.coords t) (iblk V c 0 t) (iblk V c 1 t) (stPrev V c t).1
      = accNext (grid1.coords t) (iblk V c 0 t) (iblk V c 1 t) a := by
    by_cases h : c1 (grid1.coords t)
    · exact accNext_reset _ h _ _ _ _
    · rw [(had h).1]
  have hd : diagNext (grid1.coords t) (iblk V c 0 t) (iblk V c 1 t) (stPrev V c t).2
      = diagNext (grid1.coords t) (iblk V c 0 t) (iblk V c 1 t) d := by
    by_cases h : c1 (grid1.coords t)
    · exact diagNext_reset _ h _ _ _ _
    · rw [(had h).2]
  rw [st_eq V c t, ha, hd]
  unfold PhiAt
  icases HΦ' with ⟨HS0, HS1, Hoth, Hg⟩
  by_cases h3 : c3 (grid1.coords t)
  · rw [show (dat V c).leavesExact 2 t = owns (c : Thread nD τ) (st1_2 t) fullShare ((dat V c).after 2 t) from by
      unfold Dat.leavesExact; rw [live_2 t h3], after_2, st_eq V c t, ha, hd]
    iapply (sound_kernel c Set.univ (grid1.coords t) _ _ _ _ _ _ _ _ _ _ (hx t) (iblk V c 0 t) (iblk V c 1 t) ((dat V c).before 2 t d2) a d _)
    isplitl [H0]; · iexact H0
    isplitl [H1]; · iexact H1
    isplitl [H2]; · iexact H2
    isplitl [HS0]; · iexact HS0
    isplitl [HS1]; · iexact HS1
    unfold outNext; rw [if_pos h3]
    iintro ⟨H0, H1, H2, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexact H2
  · rw [Dat.leavesExact_idle (dat V c) 2 t (idle_2 t h3) (noFlush_2 t h3)]
    iapply (sound_kernel c Set.univ (grid1.coords t) _ _ _ _ _ _ _ _ _ _ (hx t) (iblk V c 0 t) (iblk V c 1 t) ((dat V c).before 2 t d2) a d _)
    isplitl [H0]; · iexact H0
    isplitl [H1]; · iexact H1
    isplitl [H2]; · iexact H2
    isplitl [HS0]; · iexact HS0
    isplitl [HS1]; · iexact HS1
    unfold outNext; rw [if_neg h3]
    iintro ⟨H0, H1, H2, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : (Pipeline.ΦA spec1 c : sProp 𝕄) ⊢ (dat V c).Φ 0 := by
  rw [show (dat V c).Φ 0 = PhiS V c 0 (Nat.zero_le _) from rfl]
  exact Idealize.SL.BI.Entails.refl _

/-- After the last point the invariant gives the entry form back: the rows' contents are forgotten. -/
theorem hout (c : Dev nD) : (dat V c).Φ (Fin.last cfg1.N) ⊢ (Pipeline.ΦA spec1 c : sProp 𝕄) := by
  have hN : cfg1.N = 64 := N_1
  rw [show (dat V c).Φ (Fin.last cfg1.N) = PhiS V c (63 + 1) (by rw [hN]) from by
    dsimp only [dat]; congr 1]
  rw [PhiS_succ]
  exact PhiA_join c _ _

end Cert.KernelIdeal.Hand1
end
-- ==== Proof.Region2Body.lean ====
import proofs.«134093_j6932077215890_1_alg».proof.Proof.Gen.KernelIdeal.Launch
import proofs.«134093_j6932077215890_1_alg».proof.Proof.Gen.KernelIdeal.Skeleton
import proofs.«134093_j6932077215890_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The accumulation kernel's body, case by case

The body keeps two rows of 1024 numbers between grid points: the running column sums of the exponentials
(`acc`) and the diagonal of the scaled products (`diag`). At a point with inner coordinate 0 both are reset
to zero first; the column sums of this tile's exponentials are then added to `acc`; where the two grid
coordinates agree `diag` is overwritten by this tile's diagonal; at the last inner coordinate the output row
`log acc - diag` is stored. One transition function says all of it. -/

/-- The inner coordinate is 0: the accumulators are reset. -/
abbrev c1 (i : grid2.Coords) : Prop := (Scalar.cmpi .ne (Scalar.extui (Scalar.cmpi .eq (BitVec.ofNat 32 (i 1).val) 0#32)) 0#32) = 1#1
/-- The two coordinates agree: the tile holds the diagonal. -/
abbrev c2 (i : grid2.Coords) : Prop := (Scalar.cmpi .ne (Scalar.extui (Scalar.cmpi .eq (BitVec.ofNat 32 (i 0).val) (BitVec.ofNat 32 (i 1).val))) 0#32) = 1#1
/-- The inner coordinate is the last: the output row is stored. -/
abbrev c3 (i : grid2.Coords) : Prop := k2_cond3 i = 1#1

theorem hz2 : (![0, 0] : Fin 2 → ℕ) = fun _ => 0 := by funext a; fin_cases a <;> rfl

/-- A store through the whole rectangle, last, covers the shape. -/
theorem whole_cover {S : Shape} {e : EltTy} {off : Fin S.rank → ℕ} (h : off = fun _ => 0) (inb : ∀ a, off a + S.size a ≤ S.size a)
    (w : S.Idx → Elt F e) (L : List (View.Piece (Elt F) S e)) :
    ∀ y, ∃ p ∈ ((⟨Rect.unit off S.size inb, w⟩ : View.Piece (Elt F) S e) :: L), y ∈ p.1.set := by
  subst h; intro y
  exact ⟨_, List.mem_cons_self, by show y ∈ (Rect.whole S).set; rw [Rect.set_whole]; exact Finset.mem_univ y⟩

/-- After a whole-rectangle store, last, the buffer reads as the stored value. -/
theorem read_writes_whole {sp : Space} {S : Shape} {e : EltTy} (v : View sig .tc sp S e) (f : v.ty.Contents (Elt F))
    {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (whole_cover h inb w L), View.canon_cons_unit_zero h]

/-- The running column sums after a point, from the tile's two blocks and what the point found. -/
def accNext (i : grid2.Coords) (x0 x1 : Vec F S1024x1024 .bf16) (s5 : Vec F S1x1024 .f32) : Vec F S1x1024 .f32 :=
  k2_pay4 x0 x1 (if c1 i then k2_pay1 else s5)

/-- The diagonal row after a point. -/
def diagNext (i : grid2.Coords) (x0 x1 : Vec F S1024x1024 .bf16) (s6 : Vec F S1x1024 .f32) : Vec F S1x1024 .f32 :=
  if c2 i then k2_pay5 x0 x1 else if c1 i then k2_pay2 else s6

/-- The output window's buffer after a point: stored at the last inner coordinate, else as found. -/
def outNext (i : grid2.Coords) (x0 x1 : Vec F S1024x1024 .bf16) (s4 s5 s6 : Vec F S1x1024 .f32) : Vec F S1x1024 .f32 :=
  if c3 i then k2_pay6 (accNext i x0 x1 s5) (diagNext i x0 x1 s6) else s4

set_option hygiene false in
/-- One case of the body: the conditionals decided by the case's hypotheses, the run, and each buffer read back. -/
local macro "run_case" e1:term:max e2:term:max e3:term:max : tactic => `(tactic|
  (simp only [$e1:term, $e2:term, $e3:term]
   sl_exec (disch := first | exact h1 | exact h2 | exact h3)
   sl_step
   iapply Hk
   isplitl [H0]
   · iexists _; isplitr; · ipureintro; exact harg2.read_unread _
     iexact H0
   isplitl [H1]
   · iexists _; isplitr; · ipureintro; exact harg3.read_unread _
     iexact H1
   isplitl [H4]
   · iexists _; isplitr
     swap; · iexact H4
     ipureintro
     try sl_unfold_run_names
     simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]
   isplitl [H5]
   · iexists _; isplitr
     swap; · iexact H5
     ipureintro
     try sl_unfold_run_names
     simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]
   iexists _; isplitr
   swap; · iexact H6
   ipureintro
   try sl_unfold_run_names
   simp only [read_writes_whole (S := S1x1024) _ _ hz2, View.readAt_eq_ld, Memref.IsWhole.read_unread, View.ld_unit_zero (S := S1x1024) hz2,
       View.ld_unit_zero (S := S1024x1024) hz2, View.readCov_unit_zero (S := S1x1024) _ hz2]))

set_option maxHeartbeats 8000000 in
/-- The body on whole memrefs: the two input blocks at `x0`, `x1`, the output buffer and the two scratch rows at
    any contents `s4`, `s5`, `s6`, run to the continuation holding the inputs as they were and the three rows
    at the transition's values. The reset and the output store never meet (`hx`). -/
theorem sound_kernel (c : Dev nD) (E : Set ℕ) (i : grid2.Coords)
    (arg2 : Memref sig .tc .vmem S1024x1024 .bf16) (harg2 : arg2.IsWhole) (arg3 : Memref sig .tc .vmem S1024x1024 .bf16) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024 .f32) (harg6 : arg6.IsWhole)
    (hx : ¬ (c1 i ∧ c3 i))
    (x0 x1 : Vec F S1024x1024 .bf16) (s4 s5 s6 : Vec F S1x1024 .f32) (K : PUnit → sProp 𝕄) :
    iprop(owns (c : Thread nD τ) arg2 fullShare x0 ∗ owns (c : Thread nD τ) arg3 fullShare x1
        ∗ owns (c : Thread nD τ) arg4 fullShare s4 ∗ owns (c : Thread nD τ) arg5 fullShare s5 ∗ owns (c : Thread nD τ) arg6 fullShare s6
        ∗ (iprop(owns (c : Thread nD τ) arg2 fullShare x0 ∗ owns (c : Thread nD τ) arg3 fullShare x1
            ∗ owns (c : Thread nD τ) arg4 fullShare (outNext i x0 x1 s4 s5 s6) ∗ owns (c : Thread nD τ) arg5 fullShare (accNext i x0 x1 s5)
            ∗ owns (c : Thread nD τ) arg6 fullShare (diagNext i x0 x1 s6)) -∗ K ⟨⟩))
      ⊢ wp frame (wpE (defs₀ (F := F)) Variants.none c none) E (cc2__partial_kernel i arg2 harg2 arg3 harg3 arg4 harg4 arg5 harg5 arg6 harg6) K := by
  simp only [cc2__partial_kernel_eq_skeleton]; unfold cc2__partial_kernel_skel
  unfold owns outNext accNext diagNext
  iintro ⟨⟨%f0, %hf0, H0⟩, ⟨%f1, %hf1, H1⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf4
  obtain rfl := harg5.eq_unread hf5; obtain rfl := harg6.eq_unread hf6
  by_cases h1 : c1 i
  · by_cases h2 : c2 i
    · by_cases h3 : c3 i
      · exact absurd ⟨h1, h3⟩ hx
      · run_case (if_pos h1) (if_pos h2) (if_neg h3)
    · by_cases h3 : c3 i
      · exact absurd ⟨h1, h3⟩ hx
      · run_case (if_pos h1) (if_neg h2) (if_neg h3)
  · by_cases h2 : c2 i
    · by_cases h3 : c3 i
      · run_case (if_neg h1) (if_pos h2) (if_pos h3)
      · run_case (if_neg h1) (if_pos h2) (if_neg h3)
    · by_cases h3 : c3 i
      · run_case (if_neg h1) (if_neg h2) (if_pos h3)
      · run_case (if_neg h1) (if_neg h2) (if_neg h3)

end Cert.KernelIdeal.Hand2
end
-- ==== Proof.Region2.lean ====
import proofs.«134093_j6932077215890_1_alg».proof.Proof.Region2Body

set_option maxRecDepth 16384

noncomputable section

namespace Cert.KernelIdeal.Hand2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The accumulation region over its 8 × 8 grid: what every buffer holds between points

The region is entered with the arrays at contents `V`. Point `t` has outer coordinate `t / 8` and inner coordinate
`t % 8`; its two input blocks are 1024 rows of each operand. The pair (running column sums, diagonal row) after
point `t` is the body's transition applied to the pair after point `t - 1`; the output row is stored, and written
back, at the points with inner coordinate 7. -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch rows as whole memrefs. -/
abbrev scM0 : Memref sig .tc .vmem S1x1024 .f32 := Memref.whole cc2_scratch0
abbrev scM1 : Memref sig .tc .vmem S1x1024 .f32 := Memref.whole cc2_scratch1

/-- The pair (running column sums, diagonal row) after point `n`: the transition from the pair after `n - 1`
    (from zero rows before the first point, where the reset makes the choice immaterial). -/
def st (c : Dev nD) : (n : ℕ) → n < cfg2.N → Vec F S1x1024 .f32 × Vec F S1x1024 .f32
  | 0, hn => (accNext (grid2.coords ⟨0, hn⟩) (iblk V c 0 ⟨0, hn⟩) (iblk V c 1 ⟨0, hn⟩) (k2_pay1 (F := F)),
      diagNext (grid2.coords ⟨0, hn⟩) (iblk V c 0 ⟨0, hn⟩) (iblk V c 1 ⟨0, hn⟩) (k2_pay2 (F := F)))
  | n + 1, hn => (accNext (grid2.coords ⟨n + 1, hn⟩) (iblk V c 0 ⟨n + 1, hn⟩) (iblk V c 1 ⟨n + 1, hn⟩) (st c n (Nat.lt_of_succ_lt hn)).1,
      diagNext (grid2.coords ⟨n + 1, hn⟩) (iblk V c 0 ⟨n + 1, hn⟩) (iblk V c 1 ⟨n + 1, hn⟩) (st c n (Nat.lt_of_succ_lt hn)).2)

/-- The pair the body FINDS at point `t`: what the point before left (zero rows at the first). -/
def stPrev (c : Dev nD) (t : Fin cfg2.N) : Vec F S1x1024 .f32 × Vec F S1x1024 .f32 :=
  match t with
  | ⟨0, _⟩ => (k2_pay1 (F := F), k2_pay2 (F := F))
  | ⟨n + 1, hn⟩ => st V c n (Nat.lt_of_succ_lt hn)

theorem st_eq (c : Dev nD) (t : Fin cfg2.N) :
    st V c t.val t.isLt = (accNext (grid2.coords t) (iblk V c 0 t) (iblk V c 1 t) (stPrev V c t).1,
      diagNext (grid2.coords t) (iblk V c 0 t) (iblk V c 1 t) (stPrev V c t).2) := by
  obtain ⟨n, hn⟩ := t
  cases n with
  | zero => rfl
  | succ n => rfl

/-- Where the accumulators are reset, what the point found in them does not matter. -/
theorem accNext_reset (i : grid2.Coords) (h : c1 i) (x0 x1 : Vec F S1024x1024 .bf16) (s s' : Vec F S1x1024 .f32) :
    accNext i x0 x1 s = accNext i x0 x1 s' := by unfold accNext; rw [if_pos h, if_pos h]
theorem diagNext_reset (i : grid2.Coords) (h : c1 i) (x0 x1 : Vec F S1024x1024 .bf16) (s s' : Vec F S1x1024 .f32) :
    diagNext i x0 x1 s = diagNext i x0 x1 s' := by
  unfold diagNext; by_cases h2 : c2 i
  · rw [if_pos h2, if_pos h2]
  · rw [if_neg h2, if_neg h2, if_pos h, if_pos h]

/-! ## The conditions over the grid -/

/-- The accumulators are reset exactly at the points with inner coordinate 0 — decided over the grid. -/
theorem hc1 : ∀ t : Fin cfg2.N, c1 (grid2.coords t) ↔ t.val % 8 = 0 :=
  (by decide +kernel : ∀ t : Fin grid2.N, c1 (grid2.coords t) ↔ t.val % 8 = 0)
/-- The output row is stored exactly at the points with inner coordinate 7. -/
theorem hc3 : ∀ t : Fin cfg2.N, c3 (grid2.coords t) ↔ t.val % 8 = 7 :=
  (by decide +kernel : ∀ t : Fin grid2.N, c3 (grid2.coords t) ↔ t.val % 8 = 7)
/-- The first point resets. -/
theorem hc1_zero (t : Fin cfg2.N) (h : t.val = 0) : c1 (grid2.coords t) := (hc1 t).mpr (by rw [h])
theorem hx (t : Fin cfg2.N) : ¬ (c1 (grid2.coords t) ∧ c3 (grid2.coords t)) := fun ⟨a, b⟩ => by
  have := (hc1 t).mp a; have := (hc3 t).mp b; omega

/-- The inputs are never idle; the output window is idle, and not written back, away from inner coordinate 7, and live there. -/
theorem live_0 : ∀ t : Fin cfg2.N, cfg2.idle 0 (grid2.coords t) = false := by decide +kernel
theorem live_1 : ∀ t : Fin cfg2.N, cfg2.idle 1 (grid2.coords t) = false := by decide +kernel
theorem idle_2 : ∀ t : Fin cfg2.N, ¬ c3 (grid2.coords t) → cfg2.idle 2 (grid2.coords t) = true := by decide +kernel
theorem noFlush_2 : ∀ t : Fin cfg2.N, ¬ c3 (grid2.coords t) → (cfg2.win 2).flush t = false := by decide +kernel
theorem live_2 : ∀ t : Fin cfg2.N, c3 (grid2.coords t) → cfg2.idle 2 (grid2.coords t) = false := by decide +kernel

/-! ## The region invariant -/

/-- The core's scoped buffers the region neither stages through nor keeps its rows in, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f))

/-- The invariant with the two scratch rows at `a` and `d`. -/
def PhiAt (c : Dev nD) (a d : Vec F S1x1024 .f32) : sProp 𝕄 :=
  iprop(owns (c : Thread nD τ) scM0 fullShare a ∗ owns (c : Thread nD τ) scM1 fullShare d ∗ others (F := F) c ∗ ∃ r, prngReg c r)

/-- What the region is entered with is the invariant at SOME rows. -/
theorem PhiA_split (c : Dev nD) : (Pipeline.ΦA spec2 c : sProp 𝕄) ⊢ iprop(∃ a d, PhiAt (F := F) c a d) := by
  unfold Pipeline.ΦA PhiAt others; rw [scopedRest2_eq]
  simp only [scM0, scM1, owns_whole]
  iintro ⟨⟨R0, R1, R2, R3, R4, R5, R6, R7, R8, R9, R10, R11, R12, R13, R14, R15, HS0, HS1⟩, Hg⟩
  icases HS0 with ⟨%a, HS0⟩
  icases HS1 with ⟨%d, HS1⟩
  iexists a; iexists d
  isplitl [HS0]; · iexact HS0
  isplitl [HS1]; · iexact HS1
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

/-- And the invariant at any rows gives it back. -/
theorem PhiA_join (c : Dev nD) (a d : Vec F S1x1024 .f32) : PhiAt (F := F) c a d ⊢ (Pipeline.ΦA spec2 c : sProp 𝕄) := by
  unfold Pipeline.ΦA PhiAt others; rw [scopedRest2_eq]
  simp only [scM0, scM1, owns_whole]
  iintro ⟨HS0, HS1, ⟨R0, R1, R2, R3, R4, R5, R6, R7, R8, R9, R10, R11, R12, R13, R14, R15⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  isplitl [HS0]; · iexists _; iexact HS0
  iexists _; iexact HS1

/-- The invariant before position `n`: as entered before the first point; afterwards the two rows at what the point
    before left. -/
def PhiS (c : Dev nD) : (n : ℕ) → n ≤ cfg2.N → sProp 𝕄
  | 0, _ => Pipeline.ΦA spec2 c
  | n + 1, hn => PhiAt c (st V c n hn).1 (st V c n hn).2

theorem PhiS_succ (c : Dev nD) (n : ℕ) (hn : n < cfg2.N) :
    PhiS V c (n + 1) hn = PhiAt c (st V c n hn).1 (st V c n hn).2 := rfl

/-! ## The proof data -/

/-- The pipeline's proof data on core `c`: the arrays as the region finds them; each input's buffer left at its
    block; the output's buffer, where it is stored, at `log acc - diag` of the rows after the point; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => k2_pay6 (st V c t.val t.isLt).1 (st V c t.val t.isLt).2
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) :
    (dat V c).after 2 t = k2_pay6 (st V c t.val t.isLt).1 (st V c t.val t.isLt).2 := by dsimp only [dat]

/-- Each input's current staging buffer holds its block at every point, fetched there or not (unfetched, the block
    index has not moved). -/
theorem before_0 (c : Dev nD) (t : Fin cfg2.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg2.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem Phi_castSucc (c : Dev nD) (t : Fin cfg2.N) :
    (dat V c).Φ t.castSucc = PhiS V c t.val (Nat.le_of_lt t.isLt) := by
  dsimp only [dat]; simp only [Fin.coe_castSucc]

/-- Before point `t` the invariant holds the two rows at SOME contents which, unless the point resets, are what the
    point before left. -/
theorem Phi_before (c : Dev nD) (t : Fin cfg2.N) :
    (dat V c).Φ t.castSucc ⊢ iprop(∃ a d, ⌜¬ c1 (grid2.coords t) → a = (stPrev V c t).1 ∧ d = (stPrev V c t).2⌝ ∗ PhiAt (F := F) c a d) := by
  rw [Phi_castSucc]
  obtain ⟨n, hn⟩ := t
  cases n with
  | zero =>
    have e : PhiS V c (⟨0, hn⟩ : Fin cfg2.N).val (Nat.le_of_lt hn) = Pipeline.ΦA spec2 c := rfl
    rw [e]
    iintro H
    ihave H' := (PhiA_split (F := F) c) $$ H
    icases H' with ⟨%a, %d, H'⟩
    iexists a; iexists d
    isplitr; · ipureintro; intro h; exact absurd (hc1_zero ⟨0, hn⟩ rfl) h
    iexact H'
  | succ n =>
    have e : PhiS V c (⟨n + 1, hn⟩ : Fin cfg2.N).val (Nat.le_of_lt hn)
        = PhiAt c (stPrev V c ⟨n + 1, hn⟩).1 (stPrev V c ⟨n + 1, hn⟩).2 := rfl
    rw [e]
    iintro H
    iexists _; iexists _
    isplitr; · ipureintro; intro _; exact ⟨rfl, rfl⟩
    iexact H

end Cert.KernelIdeal.Hand2
end
-- ==== Proof.Region2Obl.lean ====
import proofs.«134093_j6932077215890_1_alg».proof.Proof.Region2

set_option maxRecDepth 16384

noncomputable section

namespace Cert.KernelIdeal.Hand2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The body obligation of the accumulation region

At every point the body is handed the two input blocks, the output window's buffer at whatever it holds and the
two scratch rows at what the point before left (at anything where it resets them), and leaves the rows at the
transition's values, the output buffer stored where the inner coordinate is last and untouched elsewhere. -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  iintro ⟨HΦ, Ho, ⟨%d0, H0⟩, ⟨%d1, H1⟩, ⟨%d2, H2⟩⟩
  ihave HΦ' := (Phi_before V c t) $$ HΦ
  icases HΦ' with ⟨%a, %d, %had, HΦ'⟩
  have ha : accNext (grid2.coords t) (iblk V c 0 t) (iblk V c 1 t) (stPrev V c t).1
      = accNext (grid2.coords t) (iblk V c 0 t) (iblk V c 1 t) a := by
    by_cases h : c1 (grid2.coords t)
    · exact accNext_reset _ h _ _ _ _
    · rw [(had h).1]
  have hd : diagNext (grid2.coords t) (iblk V c 0 t) (iblk V c 1 t) (stPrev V c t).2
      = diagNext (grid2.coords t) (iblk V c 0 t) (iblk V c 1 t) d := by
    by_cases h : c1 (grid2.coords t)
    · exact diagNext_reset _ h _ _ _ _
    · rw [(had h).2]
  rw [st_eq V c t, ha, hd]
  unfold PhiAt
  icases HΦ' with ⟨HS0, HS1, Hoth, Hg⟩
  by_cases h3 : c3 (grid2.coords t)
  · rw [show (dat V c).leavesExact 2 t = owns (c : Thread nD τ) (st2_2 t) fullShare ((dat V c).after 2 t) from by
      unfold Dat.leavesExact; rw [live_2 t h3], after_2, st_eq V c t, ha, hd]
    iapply (sound_kernel c Set.univ (grid2.coords t) _ _ _ _ _ _ _ _ _ _ (hx t) (iblk V c 0 t) (iblk V c 1 t) ((dat V c).before 2 t d2) a d _)
    isplitl [H0]; · iexact H0
    isplitl [H1]; · iexact H1
    isplitl [H2]; · iexact H2
    isplitl [HS0]; · iexact HS0
    isplitl [HS1]; · iexact HS1
    unfold outNext; rw [if_pos h3]
    iintro ⟨H0, H1, H2, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexact H2
  · rw [Dat.leavesExact_idle (dat V c) 2 t (idle_2 t h3) (noFlush_2 t h3)]
    iapply (sound_kernel c Set.univ (grid2.coords t) _ _ _ _ _ _ _ _ _ _ (hx t) (iblk V c 0 t) (iblk V c 1 t) ((dat V c).before 2 t d2) a d _)
    isplitl [H0]; · iexact H0
    isplitl [H1]; · iexact H1
    isplitl [H2]; · iexact H2
    isplitl [HS0]; · iexact HS0
    isplitl [HS1]; · iexact HS1
    unfold outNext; rw [if_neg h3]
    iintro ⟨H0, H1, H2, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    iexists d2; iexact H2

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : (Pipeline.ΦA spec2 c : sProp 𝕄) ⊢ (dat V c).Φ 0 := by
  rw [show (dat V c).Φ 0 = PhiS V c 0 (Nat.zero_le _) from rfl]
  exact Idealize.SL.BI.Entails.refl _

/-- After the last point the invariant gives the entry form back: the rows' contents are forgotten. -/
theorem hout (c : Dev nD) : (dat V c).Φ (Fin.last cfg2.N) ⊢ (Pipeline.ΦA spec2 c : sProp 𝕄) := by
  have hN : cfg2.N = 64 := N_2
  rw [show (dat V c).Φ (Fin.last cfg2.N) = PhiS V c (63 + 1) (by rw [hN]) from by
    dsimp only [dat]; congr 1]
  rw [PhiS_succ]
  exact PhiA_join c _ _

end Cert.KernelIdeal.Hand2
end
-- ==== Proof.RunIdeal.lean ====
/-
  The run of the kernel program over its three regions and the closing host stretch.

  The unscoped buffers' contents are followed from the launch to the return: a region changes only its own arrays,
  each left at what its points' write-backs fold to, and the host stretch changes only the buffers its operations
  write.  Every region is entered from the contents the item before it left, so the three regions and the stretch
  chain; at the return every unscoped buffer is read off the last contents.  The two arguments are written by no
  item, so they end as launched; the result is the host stretch's term of the two row vectors the second and third
  regions leave, and those are the folds of their write-backs.
-/
import proofs.«134093_j6932077215890_1_alg».proof.Proof.Region0
import proofs.«134093_j6932077215890_1_alg».proof.Proof.Region1Obl
import proofs.«134093_j6932077215890_1_alg».proof.Proof.Region2Obl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After region 0: its arrays at what the write-backs leave, every other buffer as the region found it. -/
def W1 (c : Dev nD) : Valuation τ sig (Elt F) :=
  Pipeline.withArrays spec0 c (W0 m ρ c) fun w => (Cert.KernelIdeal.Hand0.dat0 (V0 m ρ) c).arrAt w cfg0.N
theorem W1_arr (c : Dev nD) (w : Fin cfg0.W) :
    W1 m ρ c (Proc.devRef .tc (Pipeline.arrRef spec0 w)) = (Cert.KernelIdeal.Hand0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
theorem hF0 (c : Dev nD) (w : Fin cfg0.W) : (Cert.KernelIdeal.Hand0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After region 1: its arrays at what the write-backs leave, every other buffer as the region found it. -/
def W2 (c : Dev nD) : Valuation τ sig (Elt F) :=
  Pipeline.withArrays spec1 c (W1 m ρ c) fun w => (Cert.KernelIdeal.Hand1.dat (V1 m ρ) c).arrAt w cfg1.N
theorem W2_arr (c : Dev nD) (w : Fin cfg1.W) :
    W2 m ρ c (Proc.devRef .tc (Pipeline.arrRef spec1 w)) = (Cert.KernelIdeal.Hand1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
theorem hF1 (c : Dev nD) (w : Fin cfg1.W) : (Cert.KernelIdeal.Hand1.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After region 2: its arrays at what the write-backs leave, every other buffer as the region found it. -/
def W3 (c : Dev nD) : Valuation τ sig (Elt F) :=
  Pipeline.withArrays spec2 c (W2 m ρ c) fun w => (Cert.KernelIdeal.Hand2.dat (V2 m ρ) c).arrAt w cfg2.N
theorem W3_arr (c : Dev nD) (w : Fin cfg2.W) :
    W3 m ρ c (Proc.devRef .tc (Pipeline.arrRef spec2 w)) = (Cert.KernelIdeal.Hand2.dat (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
theorem hF2 (c : Dev nD) (w : Fin cfg2.W) : (Cert.KernelIdeal.Hand2.dat (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After the host stretch. -/
abbrev W4 : Dev nD → Valuation τ sig (Elt F) := fun c => StableHlo.after hostOps3 (W3 m ρ c)

/-! ## What reaches the end unchanged, and what each region leaves -/

/-- No operation of the host stretch writes a buffer outside this list. -/
abbrev hostOps3_W : List (Ref sig .tc) := [main_cst, main_v3, main_cst_0, main_v4, main_cst_1, main_v5, main_cst_2, main_v6, main_v7, main_cst_3, main_v8]
theorem hostOps3_writes : (hostOps3 : List (HloOp τ sig (Elt F))).Forall fun op => op.writes ⊆ (hostOps3_W.map (Proc.devRef (τ := τ) .tc)).toFinset := by
  simp only [List.Forall]
  refine ⟨?_, ?_, ?_, ?_, ?_, ?_, ?_, ?_, ?_, ?_, ?_⟩ <;>
    (simp only [StableHlo.nullary_writes, StableHlo.binary_writes, Finset.singleton_subset_iff, List.mem_toFinset]
     exact List.mem_map_of_mem (by decide))
theorem W4_of (c : Dev nD) (r : Ref sig .tc) (h : r ∉ hostOps3_W) : W4 m ρ c (Proc.devRef .tc r) = W3 m ρ c (Proc.devRef .tc r) :=
  StableHlo.after_of_writes_sub hostOps3 _ hostOps3_writes h

/-- The first argument is written by no item: it ends as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((Cert.KernelIdeal.Hand0.dat0 (V0 m ρ) c).arrAt_in 0 rfl _).trans (Cert.KernelIdeal.Hand0.A_eq0 (V0 m ρ) c 0))
    _ = m ((c : Thread nD τ).loc main_arg0) := rfl
/-- The second argument likewise. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := (W1_arr m ρ c 1).trans (((Cert.KernelIdeal.Hand0.dat0 (V0 m ρ) c).arrAt_in 1 rfl _).trans (Cert.KernelIdeal.Hand0.A_eq0 (V0 m ρ) c 1))
    _ = m ((c : Thread nD τ).loc main_arg1) := rfl

/-- The two scaled matrices are what the first region's write-backs fold to. -/
theorem W1_main_v0_0 (c : Dev nD) : W1 m ρ c (Proc.devRef .tc main_v0_0) = (Cert.KernelIdeal.Hand0.dat0 (V0 m ρ) c).arrAt 2 cfg0.N := W1_arr m ρ c 2
theorem W1_main_v0_1 (c : Dev nD) : W1 m ρ c (Proc.devRef .tc main_v0_1) = (Cert.KernelIdeal.Hand0.dat0 (V0 m ρ) c).arrAt 3 cfg0.N := W1_arr m ρ c 3
/-- The row vector of the second region is what its write-backs fold to; the third region does not touch it. -/
theorem W3_main_v1 (c : Dev nD) : W3 m ρ c (Proc.devRef .tc main_v1) = (Cert.KernelIdeal.Hand1.dat (V1 m ρ) c).arrAt 2 cfg1.N :=
  (W3_of_ne m ρ c main_v1 (by decide)).trans (W2_arr m ρ c 2)
/-- The row vector of the third region is what its write-backs fold to. -/
theorem W3_main_v2 (c : Dev nD) : W3 m ρ c (Proc.devRef .tc main_v2) = (Cert.KernelIdeal.Hand2.dat (V2 m ρ) c).arrAt 2 cfg2.N := W3_arr m ρ c 2

/-- The result: the half-sum of the two row vectors' means, as the host stretch computes it. -/
theorem W4_main_v8 (c : Dev nD) :
    W4 m ρ c (Proc.devRef .tc main_v8)
      = Host.divf (addf
          (Host.divf (Host.reduceAdd (W3 m ρ c (Proc.devRef .tc main_v1)) (constant S_ .f32 0x00000000#32) reducesTo_S1x8192_S_d0_1 h_S_) (constant S_ .f32 0x46000000#32))
          (Host.divf (Host.reduceAdd (W3 m ρ c (Proc.devRef .tc main_v2)) (constant S_ .f32 0x00000000#32) reducesTo_S1x8192_S_d0_1 h_S_) (constant S_ .f32 0x46000000#32)))
        (constant S_ .f32 0x40000000#32) := by
  show StableHlo.after hostOps3 (W3 m ρ c) (Proc.devRef .tc main_v8) = _
  after_results_simp

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Cert.KernelIdeal.Hand0.dat0 (V0 m ρ) c
  | ⟨1, _⟩ => fun c => Cert.KernelIdeal.Hand1.dat (V1 m ρ) c
  | ⟨2, _⟩ => fun c => Cert.KernelIdeal.Hand2.dat (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No operation of the host stretch allocates a buffer. -/
theorem hostOps3_fresh : (hostOps3 : List (HloOp τ sig (Elt F))).Forall fun op => op.fresh = ∅ := by
  simp only [List.Forall]; repeat' constructor
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may
-- unfold plain definitions in a metavariable's type
set_option backward.isDefEq.respectTransparency.types false in
/-- Region 0 over the thread state: entered with every unscoped buffer at `W0`, left with them at `W1`; its arrays
    are split out of the unscoped buffers at the entry and put back, at what the write-backs leave, at the exit; the
    generator register goes into the body's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Cert.KernelIdeal.Hand0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 1 over the thread state: entered with every unscoped buffer at `W1`, left with them at `W2`; its arrays
    are split out of the unscoped buffers at the entry and put back, at what the write-backs leave, at the exit; the
    generator register goes into the body's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Cert.KernelIdeal.Hand1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec1 c ∗ ∃ r, prngReg c r) ⊢ ((Cert.KernelIdeal.Hand1.dat (V1 m ρ) c).Φ 0 : sProp 𝕄) := by
      have h' := Cert.KernelIdeal.Hand1.hin (V1 m ρ) c
      unfold Pipeline.ΦA at h'
      exact h'
    rw [show (pdats m ρ 1 c).Φ 0 = (Cert.KernelIdeal.Hand1.dat (V1 m ρ) c).Φ 0 from rfl]
    iintro ⟨Hp, -, Hr⟩
    iapply h
    isplitl [Hr]; · iexact Hr
    iexact Hp
  hout c := by
    have h : ((Cert.KernelIdeal.Hand1.dat (V1 m ρ) c).Φ (Fin.last cfg1.N) : sProp 𝕄) ⊢ iprop(Pipeline.scopedRest spec1 c ∗ ∃ r, prngReg c r) := by
      have h' := Cert.KernelIdeal.Hand1.hout (V1 m ρ) c
      unfold Pipeline.ΦA at h'
      exact h'
    rw [Pipeline.ownSems0_none, show (pdats m ρ 1 c).Φ (Fin.last _) = (Cert.KernelIdeal.Hand1.dat (V1 m ρ) c).Φ (Fin.last cfg1.N) from rfl]
    iintro HΦ
    ihave HA := (h) $$ HΦ
    icases HA with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may
-- unfold plain definitions in a metavariable's type
set_option backward.isDefEq.respectTransparency.types false in
/-- Region 2 over the thread state: entered with every unscoped buffer at `W2`, left with them at `W3`; its arrays
    are split out of the unscoped buffers at the entry and put back, at what the write-backs leave, at the exit; the
    generator register goes into the body's invariant and comes back; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Cert.KernelIdeal.Hand2.body_obligation (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec2 c ∗ ∃ r, prngReg c r) ⊢ ((Cert.KernelIdeal.Hand2.dat (V2 m ρ) c).Φ 0 : sProp 𝕄) := by
      have h' := Cert.KernelIdeal.Hand2.hin (V2 m ρ) c
      unfold Pipeline.ΦA at h'
      exact h'
    rw [show (pdats m ρ 2 c).Φ 0 = (Cert.KernelIdeal.Hand2.dat (V2 m ρ) c).Φ 0 from rfl]
    iintro ⟨Hp, -, Hr⟩
    iapply h
    isplitl [Hr]; · iexact Hr
    iexact Hp
  hout c := by
    have h : ((Cert.KernelIdeal.Hand2.dat (V2 m ρ) c).Φ (Fin.last cfg2.N) : sProp 𝕄) ⊢ iprop(Pipeline.scopedRest spec2 c ∗ ∃ r, prngReg c r) := by
      have h' := Cert.KernelIdeal.Hand2.hout (V2 m ρ) c
      unfold Pipeline.ΦA at h'
      exact h'
    rw [Pipeline.ownSems0_none, show (pdats m ρ 2 c).Φ (Fin.last _) = (Cert.KernelIdeal.Hand2.dat (V2 m ρ) c).Φ (Fin.last cfg2.N) from rfl]
    iintro HΦ
    ihave HA := (h) $$ HΦ
    icases HA with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four items in order: the three regions, then the host stretch from the contents the third leaves. -/
abbrev segs : List (Pipeline.Seg (pcfgs (F := F)) adm (pdats m ρ) () defs₀ 𝒱₀ L lv) :=
  [ .region (reg0 m ρ),
    .region (reg1 m ρ),
    .region (reg2 m ρ),
    .host (hseg hostOps3 hostOps3_sub hostOps3_fresh (W3 m ρ)) ]
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main terminates, nothing faulting, and at
    the return every unscoped buffer of every core holds the last contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.HandRun

end
-- ==== Proof.Spec.lean ====
/-
  The contrastive loss as one real-valued function of the two feature matrices.

  Rows of each matrix are scaled to unit Euclidean length, the length clamped below by a small positive
  constant `ε`; the logit of an image row `i` and a text row `j` is their inner product times the inverse
  temperature; the loss of row `i` of the logit matrix is the logarithm of the sum of the exponentials of the
  row less the diagonal entry, likewise for column `j`; the result is the half-sum of the two means.
-/
import Idealize.ShloMosaic.PureOps.Ideal
import Idealize.ShloMosaic.Lib.ValueIdx

noncomputable section

namespace Cert.Spec

open Idealize.ShloMosaic

/-- The inverse temperature: the exact reciprocal of the reference's divisor `9395241 / 2^27`. -/
def invT : ℝ := 134217728 / 9395241

variable (ε : ℝ)

/-- The Euclidean length of row `i`, clamped below by `ε`. -/
def nrm (A : Fin 8192 → Fin 1024 → ℝ) (i : Fin 8192) : ℝ := max (Real.sqrt (∑ d, A i d * A i d)) ε

/-- Row `i` scaled to (clamped) unit length. -/
def unit (A : Fin 8192 → Fin 1024 → ℝ) (i : Fin 8192) (d : Fin 1024) : ℝ := A i d / nrm ε A i

/-- The logit of image row `i` against text row `j`. -/
def logit (X Y : Fin 8192 → Fin 1024 → ℝ) (i j : Fin 8192) : ℝ := (∑ d, unit ε X i d * unit ε Y j d) * invT

/-- Image row `i`'s term: log-sum-exp of row `i` of the logits less the diagonal. -/
def rowTerm (X Y : Fin 8192 → Fin 1024 → ℝ) (i : Fin 8192) : ℝ :=
  Real.log (∑ j, Real.exp (logit ε X Y i j)) - logit ε X Y i i

/-- Text row `j`'s term: log-sum-exp of column `j` of the logits less the diagonal. -/
def colTerm (X Y : Fin 8192 → Fin 1024 → ℝ) (j : Fin 8192) : ℝ :=
  Real.log (∑ i, Real.exp (logit ε X Y i j)) - logit ε X Y j j

/-- The loss: the mean of the row terms and the mean of the column terms, halved. -/
def loss (X Y : Fin 8192 → Fin 1024 → ℝ) : ℝ :=
  ((∑ i, rowTerm ε X Y i) / 8192 + (∑ j, colTerm ε X Y j) / 8192) / 2

/-- A real matrix as an array of extended reals over the printed shape `[8192, 1024]`. -/
def arr (A : Fin 8192 → Fin 1024 → ℝ) : (⟨2, ![8192, 1024]⟩ : Shape).Idx → EReal := fun j => ((A (j 0) (j 1) : ℝ) : EReal)

end Cert.Spec

end
-- ==== Proof.Consts.lean ====
/-
  The float constants the two programs spell, as the extended reals their binary patterns denote.

  A pattern of the 32-bit format with sign bit 0, exponent field `e` (1 ≤ e ≤ 254) and fraction field `f`
  denotes `(2^23 + f) · 2^(e - 150)`.  The clamp of the row lengths, written 1e-8 in decimal, is the pattern
  with `e = 100`, `f = 2870391`, that is `11258999 / 2^50`; the temperature, written 0.07, is the pattern
  with `e = 123`, `f = 1006633`, that is `9395241 / 2^27`.
-/
import Idealize.ShloMosaic.PureOps.Ideal

noncomputable section

namespace Cert.Consts

open Idealize.ShloMosaic

/-- The lower clamp of a row's Euclidean length: the binary value nearest to `1e-8`. -/
def eps : ℝ := 11258999 / 2 ^ 50

theorem eps_pos : 0 < eps := by unfold eps; positivity

/-- The clamp's pattern denotes `eps`. -/
theorem ofBits_eps : Ideal.ofBits .f32 0x322BCC77#32 = ((eps : ℝ) : EReal) := by
  unfold eps
  simp [Ideal.ofBits, Ideal.ieee, -EReal.coe_mul]; norm_num

/-- The number of rows, `8192 = 2^13`. -/
theorem ofBits_8192 : Ideal.ofBits .f32 0x46000000#32 = ((8192 : ℝ) : EReal) := by
  simp [Ideal.ofBits, Ideal.ieee, -EReal.coe_mul]; norm_num

/-- The final halving's divisor. -/
theorem ofBits_2 : Ideal.ofBits .f32 0x40000000#32 = ((2 : ℝ) : EReal) := by
  simp [Ideal.ofBits, Ideal.ieee, -EReal.coe_mul]; norm_num

/-- The temperature: the binary value nearest to `0.07`. -/
theorem ofBits_temp : Ideal.ofBits .f32 0x3D8F5C29#32 = ((9395241 / 134217728 : ℝ) : EReal) := by
  simp [Ideal.ofBits, Ideal.ieee, -EReal.coe_mul]; norm_num

/-- The zero pattern denotes `0`. -/
theorem ofBits_zero : Ideal.ofBits .f32 0x00000000#32 = ((0 : ℝ) : EReal) := by
  simp [Ideal.ofBits, Ideal.ieee]

/-- The pattern of negative infinity denotes the bottom element. -/
theorem ofBits_neg_inf : Ideal.ofBits .f32 0xFF800000#32 = (⊥ : EReal) := by
  simp [Ideal.ofBits, Ideal.ieee]

end Cert.Consts

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Region0Value.lean ====
/-
  What the row normalisation leaves in its two output arrays, at the exact (extended-real) reading, when the
  matrix it is given has real entries.

  Grid point `t` handles rows `1024 t … 1024 t + 1023`.  Entry `(p, q)` of the block it writes back is the input
  entry divided by the row's clamped length: the square root of the sum of the squares of row `p` of the block,
  taken no smaller than the clamp.  The sum of squares of reals is a nonnegative real, its root is real, the clamp
  is positive, so the quotient is the real quotient; the change of format at the end is the identity.  Row `r` of the
  array lies in block `r / 1024`, so the eight blocks cover the array and the array ends holding, entry by entry,
  the matrix with every row scaled to clamped unit length.
-/
import proofs.«134093_j6932077215890_1_alg».proof.Proof.Region0
import proofs.«134093_j6932077215890_1_alg».proof.Proof.Spec
import proofs.«134093_j6932077215890_1_alg».proof.Proof.Consts
import proofs.«134093_j6932077215890_1_alg».proof.Proof.LibKeepdims
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Hand0

open Cert.KernelIdeal Cert.KernelIdeal.Gen

/-! ## Real arithmetic inside the extended reals -/

/-- A finite sum of reals, summed in the extended reals, is the real sum. -/
theorem coe_sum_real {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The larger of two reals is the same in the extended reals. -/
theorem coe_max_real (a b : ℝ) : max ((a : ℝ) : EReal) ((b : ℝ) : EReal) = ((max a b : ℝ) : EReal) :=
  (EReal.coe_strictMono.monotone.map_max).symm

/-- One entry `a` of a row whose squares sum to `s ≥ 0`, divided by the row's length clamped below by `ε > 0`. -/
theorem unit_entry (ε : ℝ) (hε : 0 < ε) (a s : ℝ) (hs : 0 ≤ s) :
    Ideal.div ((a : ℝ) : EReal) (max (Ideal.sqrt ((s : ℝ) : EReal)) ((ε : ℝ) : EReal))
      = ((a / max (Real.sqrt s) ε : ℝ) : EReal) := by
  rw [Ideal.sqrt_coe, if_neg (not_lt.mpr hs), coe_max_real,
    Ideal.div_coe (ne_of_gt (lt_max_of_lt_right hε)), ← EReal.coe_mul, mul_one_div]

/-! ## The body's payload at an entry -/

section Payload
variable (ε : ℝ) (hε : 0 < ε) (heps : Ideal.ofBits .f32 0x322BCC77#32 = ((ε : ℝ) : EReal))
variable (x : Vec Ideal S1024x1024 .f32) (A : Fin 1024 → Fin 1024 → ℝ)
variable (hx : ∀ p q, x (ix2 p q) = ((A p q : ℝ) : EReal))

include hx in
/-- The column of row sums of squares of a real block, at row `p`. -/
theorem sumsq_apply (hφ : FKind.Formats .f32) (hacc : (0x00000000#32 : BitVec 32) = FKind.add.neutral .f32 hφ) (p : Fin 1024) :
    shapeCast S1024x1 (multiReduction (F := Ideal) .add [1] S1024 (mulf x x) 0x00000000#32 reduces_S1024x1024_S1024 hφ hacc)
        shapeCasts_S1024_S1024x1 (ix2 p (0 : Fin 1))
      = ((∑ d, A p d * A p d : ℝ) : EReal) := by
  refine (shapeCast_a_a1_apply _ _ p 0).trans ?_
  refine (multiReduction_add_axis1_apply (mulf x x) _ _ _ p).trans ?_
  rw [← coe_sum_real]
  refine Finset.sum_congr rfl fun k _ => ?_
  show x (ix2 p k) * x (ix2 p k) = _
  rw [hx, ← EReal.coe_mul]

include hε heps hx in
/-- The first output's payload of a real block `A`, at `(p, q)`: `A p q` over the clamped length of row `p`. -/
theorem pay1_apply (p q : Fin 1024) :
    k0_pay1 (F := Ideal) x (ix2 p q) = ((A p q / max (Real.sqrt (∑ d, A p d * A p d)) ε : ℝ) : EReal) := by
  unfold k0_pay1
  dsimp only
  refine (congrArg (Ideal.div (x (ix2 p q))) (broadcastTo_a1_ab_apply _ _ p q)).trans ?_
  show Ideal.div (x (ix2 p q)) (max (Ideal.sqrt (shapeCast S1024x1 _ _ (ix2 p (0 : Fin 1)))) (Ideal.ofBits .f32 0x322BCC77#32)) = _
  refine (congrArg (fun s => Ideal.div (x (ix2 p q)) (max (Ideal.sqrt s) (Ideal.ofBits .f32 0x322BCC77#32)))
    (sumsq_apply x A hx _ _ p)).trans ?_
  show Ideal.div (x (ix2 p q)) (max (Ideal.sqrt ((∑ d, A p d * A p d : ℝ) : EReal)) (Ideal.ofBits .f32 0x322BCC77#32)) = _
  rw [heps, hx]
  exact unit_entry ε hε _ _ (Finset.sum_nonneg fun d _ => mul_self_nonneg _)

include hε heps hx in
/-- The second output's payload is the same function of its block. -/
theorem pay2_apply (p q : Fin 1024) :
    k0_pay2 (F := Ideal) x (ix2 p q) = ((A p q / max (Real.sqrt (∑ d, A p d * A p d)) ε : ℝ) : EReal) := by
  unfold k0_pay2
  dsimp only
  refine (congrArg (Ideal.div (x (ix2 p q))) (broadcastTo_a1_ab_apply _ _ p q)).trans ?_
  show Ideal.div (x (ix2 p q)) (max (Ideal.sqrt (shapeCast S1024x1 _ _ (ix2 p (0 : Fin 1)))) (Ideal.ofBits .f32 0x322BCC77#32)) = _
  refine (congrArg (fun s => Ideal.div (x (ix2 p q)) (max (Ideal.sqrt s) (Ideal.ofBits .f32 0x322BCC77#32)))
    (sumsq_apply x A hx _ _ p)).trans ?_
  show Ideal.div (x (ix2 p q)) (max (Ideal.sqrt ((∑ d, A p d * A p d : ℝ) : EReal)) (Ideal.ofBits .f32 0x322BCC77#32)) = _
  rw [heps, hx]
  exact unit_entry ε hε _ _ (Finset.sum_nonneg fun d _ => mul_self_nonneg _)

end Payload

/-! ## From the blocks to the array -/

theorem zero_offsets : (![0, 0] : Fin 2 → Nat) = fun _ => 0 := funext fun a => by fin_cases a <;> rfl

/-- The printed index maps, decided over the eight grid points: at point `t` every window is on block row `t`,
    block column `0`. -/
theorem block_row_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of grid point `t`'s block is row `1024 t + p` of the array. -/
def rowOf (t : Fin cfg0.N) (p : Fin 1024) : Fin 8192 :=
  ⟨t.val * 1024 + p.val, by have h := t.isLt; have hN : cfg0.N = 8 := N_0; omega⟩

section Array
variable (V : (c : Dev nD) → (b : Ref sig .tc) → Buf (Elt Ideal) ((c : Thread nD τ).loc b))
variable (X : Fin 8192 → Fin 1024 → ℝ)

/-- An entry of the first input's block at point `t`, when its array is the real matrix `X`. -/
theorem iblk0_0_apply (c : Dev nD) (h : (V c main_arg0 : S8192x1024.Idx → EReal) = Spec.arr X) (t : Fin cfg0.N) (p q : Fin 1024) :
    (iblk0 V c 0 t : Vec Ideal S1024x1024 .f32) (ix2 p q) = ((X (rowOf t p) q : ℝ) : EReal) := by
  obtain ⟨e0, e1, -⟩ := block_row_of_point t
  unfold iblk0
  rw [View.read_apply]
  show (V c main_arg0 : S8192x1024.Idx → EReal) (((cfg0.win 0).blk t).view.emb (ix2 p q)) = _
  rw [h]
  have h0 : ((((cfg0.win 0).blk t).view.emb (ix2 p q)) 0 : Fin 8192) = rowOf t p := Fin.ext (by
    show win0_0.index t (0 : Fin 2) * 1024 + 1 * p.val = t.val * 1024 + p.val
    rw [e0]; omega)
  have h1 : ((((cfg0.win 0).blk t).view.emb (ix2 p q)) 1 : Fin 1024) = q := Fin.ext (by
    show win0_0.index t (1 : Fin 2) * 1024 + 1 * q.val = q.val
    rw [e1]; omega)
  show ((X ((((cfg0.win 0).blk t).view.emb (ix2 p q)) 0) ((((cfg0.win 0).blk t).view.emb (ix2 p q)) 1) : ℝ) : EReal) = _
  rw [h0, h1]

/-- The same for the second input. -/
theorem iblk0_1_apply (c : Dev nD) (h : (V c main_arg1 : S8192x1024.Idx → EReal) = Spec.arr X) (t : Fin cfg0.N) (p q : Fin 1024) :
    (iblk0 V c 1 t : Vec Ideal S1024x1024 .f32) (ix2 p q) = ((X (rowOf t p) q : ℝ) : EReal) := by
  obtain ⟨-, -, e2, e3, -⟩ := block_row_of_point t
  unfold iblk0
  rw [View.read_apply]
  show (V c main_arg1 : S8192x1024.Idx → EReal) (((cfg0.win 1).blk t).view.emb (ix2 p q)) = _
  rw [h]
  have h0 : ((((cfg0.win 1).blk t).view.emb (ix2 p q)) 0 : Fin 8192) = rowOf t p := Fin.ext (by
    show win0_1.index t (0 : Fin 2) * 1024 + 1 * p.val = t.val * 1024 + p.val
    rw [e2]; omega)
  have h1 : ((((cfg0.win 1).blk t).view.emb (ix2 p q)) 1 : Fin 1024) = q := Fin.ext (by
    show win0_1.index t (1 : Fin 2) * 1024 + 1 * q.val = q.val
    rw [e3]; omega)
  show ((X ((((cfg0.win 1).blk t).view.emb (ix2 p q)) 0) ((((cfg0.win 1).blk t).view.emb (ix2 p q)) 1) : ℝ) : EReal) = _
  rw [h0, h1]

variable (ε : ℝ) (hε : 0 < ε) (heps : Ideal.ofBits .f32 0x322BCC77#32 = ((ε : ℝ) : EReal))

include hε heps in
/-- What point `t` writes back to the first output's array is block `t` of the matrix of unit rows. -/
theorem written_back2 (c : Dev nD) (h : (V c main_arg0 : S8192x1024.Idx → EReal) = Spec.arr X) (t : Fin cfg0.N) :
    (dat0 V c).flushed 2 t = ((cfg0.win 2).blk t).view.read (Elt Ideal) (Spec.arr (Spec.unit ε X)) := by
  obtain ⟨-, -, -, -, e4, e5, -⟩ := block_row_of_point t
  show (cfg0.win 2).cut (grid0.coords t) ((dat0 V c).after 2 t) = _
  rw [after0_2]
  unfold out0_2
  rw [View.canon_unit_zero zero_offsets]
  simp only [View.ld_unit_zero (S := S1024x1024) zero_offsets]
  funext j
  obtain ⟨p, q, rfl⟩ : ∃ (p q : Fin 1024), j = ix2 p q := ⟨j 0, j 1, eq_ix2 (n0 := 1024) (n1 := 1024) j⟩
  show k0_pay1 (F := Ideal) (iblk0 V c 0 t) (ix2 p q) = Spec.arr (Spec.unit ε X) (((cfg0.win 2).blk t).view.emb (ix2 p q))
  refine (pay1_apply ε hε heps (iblk0 V c 0 t) (fun p q => X (rowOf t p) q) (iblk0_0_apply V X c h t) p q).trans ?_
  have h0 : ((((cfg0.win 2).blk t).view.emb (ix2 p q)) 0 : Fin 8192) = rowOf t p := Fin.ext (by
    show win0_2.index t (0 : Fin 2) * 1024 + 1 * p.val = t.val * 1024 + p.val
    rw [e4]; omega)
  have h1 : ((((cfg0.win 2).blk t).view.emb (ix2 p q)) 1 : Fin 1024) = q := Fin.ext (by
    show win0_2.index t (1 : Fin 2) * 1024 + 1 * q.val = q.val
    rw [e5]; omega)
  show _ = ((Spec.unit ε X ((((cfg0.win 2).blk t).view.emb (ix2 p q)) 0) ((((cfg0.win 2).blk t).view.emb (ix2 p q)) 1) : ℝ) : EReal)
  rw [h0, h1]
  rfl

include hε heps in
/-- And to the second output's array, of the second matrix. -/
theorem written_back3 (c : Dev nD) (h : (V c main_arg1 : S8192x1024.Idx → EReal) = Spec.arr X) (t : Fin cfg0.N) :
    (dat0 V c).flushed 3 t = ((cfg0.win 3).blk t).view.read (Elt Ideal) (Spec.arr (Spec.unit ε X)) := by
  obtain ⟨-, -, -, -, -, -, e6, e7⟩ := block_row_of_point t
  show (cfg0.win 3).cut (grid0.coords t) ((dat0 V c).after 3 t) = _
  rw [after0_3]
  unfold out0_3
  rw [View.canon_unit_zero zero_offsets]
  simp only [View.ld_unit_zero (S := S1024x1024) zero_offsets]
  funext j
  obtain ⟨p, q, rfl⟩ : ∃ (p q : Fin 1024), j = ix2 p q := ⟨j 0, j 1, eq_ix2 (n0 := 1024) (n1 := 1024) j⟩
  show k0_pay2 (F := Ideal) (iblk0 V c 1 t) (ix2 p q) = Spec.arr (Spec.unit ε X) (((cfg0.win 3).blk t).view.emb (ix2 p q))
  refine (pay2_apply ε hε heps (iblk0 V c 1 t) (fun p q => X (rowOf t p) q) (iblk0_1_apply V X c h t) p q).trans ?_
  have h0 : ((((cfg0.win 3).blk t).view.emb (ix2 p q)) 0 : Fin 8192) = rowOf t p := Fin.ext (by
    show win0_3.index t (0 : Fin 2) * 1024 + 1 * p.val = t.val * 1024 + p.val
    rw [e6]; omega)
  have h1 : ((((cfg0.win 3).blk t).view.emb (ix2 p q)) 1 : Fin 1024) = q := Fin.ext (by
    show win0_3.index t (1 : Fin 2) * 1024 + 1 * q.val = q.val
    rw [e7]; omega)
  show _ = ((Spec.unit ε X ((((cfg0.win 3).blk t).view.emb (ix2 p q)) 0) ((((cfg0.win 3).blk t).view.emb (ix2 p q)) 1) : ℝ) : EReal)
  rw [h0, h1]
  rfl

/-- Row `r` of the first output's array lies in the block of point `r / 1024`: the eight blocks cover the array. -/
theorem blocks_cover2 (i : S8192x1024.Idx) :
    ∃ t : Fin cfg0.N, (cfg0.win 2).flush t = true ∧ i ∈ ((cfg0.win 2).blk t).view.set := by
  have hN : cfg0.N = 8 := N_0
  have hi0 : (i 0).val < 8192 := (i 0).isLt
  have hi1 : (i 1).val < 1024 := (i 1).isLt
  obtain ⟨t, ht⟩ : ∃ t : Fin cfg0.N, t.val = (i 0).val / 1024 := ⟨⟨(i 0).val / 1024, by omega⟩, rfl⟩
  obtain ⟨-, -, -, -, e4, e5, -⟩ := block_row_of_point t
  refine ⟨t, flush0_2 t, ?_⟩
  show i ∈ ((View.whole main_v0_0).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 1024 ≤ (i 1).val ∧ (i 1).val < win0_2.index t (1 : Fin 2) * 1024 + 1024
    rw [e5]; omega

/-- The same for the second output's array. -/
theorem blocks_cover3 (i : S8192x1024.Idx) :
    ∃ t : Fin cfg0.N, (cfg0.win 3).flush t = true ∧ i ∈ ((cfg0.win 3).blk t).view.set := by
  have hN : cfg0.N = 8 := N_0
  have hi0 : (i 0).val < 8192 := (i 0).isLt
  have hi1 : (i 1).val < 1024 := (i 1).isLt
  obtain ⟨t, ht⟩ : ∃ t : Fin cfg0.N, t.val = (i 0).val / 1024 := ⟨⟨(i 0).val / 1024, by omega⟩, rfl⟩
  obtain ⟨-, -, -, -, -, -, e6, e7⟩ := block_row_of_point t
  refine ⟨t, flush0_3 t, ?_⟩
  show i ∈ ((View.whole main_v0_1).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1024 ≤ (i 1).val ∧ (i 1).val < win0_3.index t (1 : Fin 2) * 1024 + 1024
    rw [e7]; omega

include hε heps in
/-- The first output's array after the region: the first matrix with every row scaled to clamped unit length. -/
theorem arr2_eq_of (c : Dev nD) (h : (V c main_arg0 : S8192x1024.Idx → EReal) = Spec.arr X) :
    ((dat0 V c).arrAt 2 cfg0.N : S8192x1024.Idx → EReal) = Spec.arr (Spec.unit ε X) :=
  (dat0 V c).arrAt_eq_of_cover 2 (Spec.arr (Spec.unit ε X)) (fun t _ => written_back2 V X ε hε heps c h t) blocks_cover2

include hε heps in
/-- The second output's array after the region, likewise of the second matrix. -/
theorem arr3_eq_of (c : Dev nD) (h : (V c main_arg1 : S8192x1024.Idx → EReal) = Spec.arr X) :
    ((dat0 V c).arrAt 3 cfg0.N : S8192x1024.Idx → EReal) = Spec.arr (Spec.unit ε X) :=
  (dat0 V c).arrAt_eq_of_cover 3 (Spec.arr (Spec.unit ε X)) (fun t _ => written_back3 V X ε hε heps c h t) blocks_cover3

end Array

section AtTheClamp
variable (V : (c : Dev nD) → (b : Ref sig .tc) → Buf (Elt Ideal) ((c : Thread nD τ).loc b))

/-- At the program's clamp: the first output's array after the region. -/
theorem arr2_eq (X : Fin 8192 → Fin 1024 → ℝ) (c : Dev nD) (h : (V c main_arg0 : S8192x1024.Idx → EReal) = Spec.arr X) :
    ((dat0 V c).arrAt 2 cfg0.N : S8192x1024.Idx → EReal) = Spec.arr (Spec.unit Consts.eps X) :=
  arr2_eq_of V X Consts.eps Consts.eps_pos Consts.ofBits_eps c h

/-- At the program's clamp: the second output's array after the region. -/
theorem arr3_eq (Y : Fin 8192 → Fin 1024 → ℝ) (c : Dev nD) (h : (V c main_arg1 : S8192x1024.Idx → EReal) = Spec.arr Y) :
    ((dat0 V c).arrAt 3 cfg0.N : S8192x1024.Idx → EReal) = Spec.arr (Spec.unit Consts.eps Y) :=
  arr3_eq_of V Y Consts.eps Consts.eps_pos Consts.ofBits_eps c h

end AtTheClamp

end Cert.KernelIdeal.Hand0

end
-- ==== Proof.LibLogSumExp.lean ====
/-
  The shift law of the logarithm of a sum of exponentials over the reals, and the passage between real
  arithmetic and the arithmetic of the extended reals at real arguments.

  For a finite nonempty family of reals `l` and any real `M`,
  `log (∑ exp (l j - M)) = log (∑ exp (l j)) - M`: subtracting a common shift before exponentiating divides the
  sum by `exp M`, which the logarithm turns back into the subtraction of `M`.  So a log-softmax entry does not
  depend on the shift.  On the extended reals the exact operations (square root, exponential, logarithm,
  division, maximum, finite sums) send real arguments in their domains to the coercions of the real results;
  the lemmas of the second half say so one operation at a time.
-/
import Idealize.ShloMosaic.PureOps.Ideal

noncomputable section

namespace Cert.LogSumExp

open Idealize.ShloMosaic

variable {ι : Type*} [Fintype ι]

/-! ## The reals -/

/-- A finite nonempty sum of exponentials is positive. -/
theorem sum_exp_pos [Nonempty ι] (l : ι → ℝ) : 0 < ∑ j, Real.exp (l j) :=
  Finset.sum_pos (fun j _ => Real.exp_pos (l j)) Finset.univ_nonempty

/-- Shifting every exponent by `M` shifts the logarithm of the sum of exponentials by `M`. -/
theorem log_sum_exp_sub [Nonempty ι] (l : ι → ℝ) (M : ℝ) :
    Real.log (∑ j, Real.exp (l j - M)) = Real.log (∑ j, Real.exp (l j)) - M := by
  have h : ∑ j, Real.exp (l j - M) = (∑ j, Real.exp (l j)) * Real.exp (-M) := by
    rw [Finset.sum_mul]
    refine Finset.sum_congr rfl fun j _ => ?_
    rw [sub_eq_add_neg, Real.exp_add]
  rw [h, Real.log_mul (sum_exp_pos l).ne' (Real.exp_pos _).ne', Real.log_exp]
  ring

/-- The negated log-softmax entry at `i`, computed with any shift `M`, is the logarithm of the sum of the
    exponentials less the entry itself. -/
theorem neg_log_softmax [Nonempty ι] (l : ι → ℝ) (M : ℝ) (i : ι) :
    -((l i - M) - Real.log (∑ j, Real.exp (l j - M))) = Real.log (∑ j, Real.exp (l j)) - l i := by
  rw [log_sum_exp_sub]; ring

/-- The negated mean of a family is the mean of the negated family. -/
theorem neg_mean (f : ι → ℝ) (n : ℝ) : -((∑ i, f i) / n) = (∑ i, -f i) / n := by
  rw [Finset.sum_neg_distrib, neg_div]

/-- A sum of squares is not negative. -/
theorem sum_mul_self_nonneg (a : ι → ℝ) : 0 ≤ ∑ d, a d * a d :=
  Finset.sum_nonneg fun d _ => mul_self_nonneg (a d)

/-- A maximum against a positive number is positive. -/
theorem max_pos_of_right {x ε : ℝ} (h : 0 < ε) : 0 < max x ε := lt_max_of_lt_right h

/-! ## Real arguments inside the extended reals -/

/-- The coercion of a finite sum of reals is the sum of the coercions. -/
theorem coe_finset_sum {κ : Type*} (s : Finset κ) (f : κ → ℝ) :
    ((∑ k ∈ s, f k : ℝ) : EReal) = ∑ k ∈ s, ((f k : ℝ) : EReal) := by
  classical
  refine Finset.induction_on s (by simp) ?_
  intro a s ha ih
  rw [Finset.sum_insert ha, Finset.sum_insert ha, EReal.coe_add, ih]

/-- The exact square root at a real that is not negative. -/
theorem sqrt_coe_of_nonneg {r : ℝ} (h : 0 ≤ r) : Ideal.sqrt (r : EReal) = ((Real.sqrt r : ℝ) : EReal) := by
  rw [Ideal.sqrt_coe, if_neg (not_lt.mpr h)]

/-- The exact logarithm at a positive real. -/
theorem log_coe_of_pos {r : ℝ} (h : 0 < r) : Ideal.log (r : EReal) = ((Real.log r : ℝ) : EReal) := by
  rw [Ideal.log_coe, if_neg (not_le.mpr h)]

/-- The exact exponential at a real. -/
theorem exp_coe (r : ℝ) : Ideal.exp (r : EReal) = ((Real.exp r : ℝ) : EReal) := rfl

/-- The exact quotient of two reals, the divisor not zero. -/
theorem div_coe_coe (x : ℝ) {y : ℝ} (h : y ≠ 0) : Ideal.div (x : EReal) (y : EReal) = ((x / y : ℝ) : EReal) := by
  rw [Ideal.div_coe h, ← EReal.coe_mul, mul_one_div]

/-- The maximum of two reals. -/
theorem max_coe_coe (x y : ℝ) : max (x : EReal) (y : EReal) = ((max x y : ℝ) : EReal) :=
  (EReal.coe_strictMono.monotone.map_max (a := x) (b := y)).symm

/-- From the bottom element, the running maximum over a finite nonempty family of reals is a real. -/
theorem fold_max_bot_coe {κ : Type*} (s : Finset κ) (hs : s.Nonempty) (g : κ → ℝ) :
    ∃ M : ℝ, s.fold max (⊥ : EReal) (fun k => ((g k : ℝ) : EReal)) = (M : EReal) := by
  classical
  have key : ∀ t : Finset κ, (t = ∅ ∧ t.fold max (⊥ : EReal) (fun k => ((g k : ℝ) : EReal)) = ⊥)
      ∨ ∃ M : ℝ, t.fold max (⊥ : EReal) (fun k => ((g k : ℝ) : EReal)) = (M : EReal) := by
    intro t
    refine Finset.induction_on t (Or.inl ⟨rfl, Finset.fold_empty⟩) ?_
    intro a t ha ih
    right
    rw [Finset.fold_insert ha]
    rcases ih with ⟨_, h⟩ | ⟨M, h⟩
    · exact ⟨g a, by rw [h, max_bot_right]⟩
    · exact ⟨max (g a) M, by rw [h, max_coe_coe]⟩
  rcases key s with ⟨h, _⟩ | h
  · exact absurd h hs.ne_empty
  · exact h

/-- One log-softmax entry computed in the extended reals from real logits `l` with a real shift `M`: every
    intermediate is the coercion of the real one. -/
theorem log_softmax_coe [Nonempty ι] (l : ι → ℝ) (M : ℝ) (i : ι) :
    ((l i : ℝ) : EReal) - (M : EReal) - Ideal.log (∑ j, Ideal.exp (((l j : ℝ) : EReal) - (M : EReal)))
      = (((l i - M) - Real.log (∑ j, Real.exp (l j - M)) : ℝ) : EReal) := by
  have h : ∀ j, Ideal.exp (((l j : ℝ) : EReal) - (M : EReal)) = ((Real.exp (l j - M) : ℝ) : EReal) := fun j => by
    rw [← EReal.coe_sub]; rfl
  simp only [h]
  rw [← coe_finset_sum, log_coe_of_pos (sum_exp_pos _), ← EReal.coe_sub, ← EReal.coe_sub]

/-- The negated exact quotient of a real by a real that is not zero. -/
theorem neg_div_coe_coe (x : ℝ) {y : ℝ} (h : y ≠ 0) : -Ideal.div (x : EReal) (y : EReal) = ((-(x / y) : ℝ) : EReal) := by
  rw [div_coe_coe x h, ← EReal.coe_neg]

end Cert.LogSumExp

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibRowsSum.lean ====
/-
  GENERAL LEMMA: a rank-2 array of extended reals summed along its FIRST axis — what `sum(x, axis=0)` becomes in a
  vector program — read at an index given by its coordinate.
  • `multiReduction_add_axis0_apply`: the sum over the rows of an `[a, b]` array from the zero word, at `j`, is the
    sum of column `j`.
-/
import Idealize.ShloMosaic.Lib.ValueIdx
import Idealize.ShloMosaic.PureOps.Ideal.Laws

noncomputable section

open scoped BigOperators

namespace Idealize.ShloMosaic.ValueIdx

open Idealize.ShloMosaic

/-- The sum over the rows of an `[a, b]` array of extended reals, accumulated from the zero word: at `j` it is the
    sum of column `j`. -/
theorem multiReduction_add_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Region1Pay.lean ====
/-
  The arithmetic of the accumulation kernel's body, read entry by entry at the exact (extended-real) reading, for
  blocks with real entries.

  The body multiplies the block `b` of the reduction-indexed operand by the transpose of the block `a` of the
  outer-indexed operand and scales by the inverse temperature: entry `(k, m)` of that product is the logit of row `k`
  of `b` against row `m` of `a`.  Column `m` of the exponentials of the logits is summed into the running row of
  sums; on a diagonal tile the diagonal logit `(m, m)` is picked out, as the column sum of the logits masked to the
  diagonal (every other term of the sum is zero); at the last tile of a row the logarithm of the running sum less the
  picked diagonal is written.  All of these are sums, products, exponentials and one logarithm of reals, so each
  entry is the coercion of the real result.
-/
import proofs.«134093_j6932077215890_1_alg».proof.Proof.Gen.KernelIdeal.Skeleton
import proofs.«134093_j6932077215890_1_alg».proof.Proof.Spec
import proofs.«134093_j6932077215890_1_alg».proof.Proof.LibLogSumExp
import proofs.«134093_j6932077215890_1_alg».proof.Proof.LibPlainDot
import proofs.«134093_j6932077215890_1_alg».proof.Proof.LibRowsSum
import Idealize.ShloMosaic.Lib.Pipeline.Value
import Idealize.ShloMosaic.Lib.ValueLayout
import Idealize.ShloMosaic.PureOps.IdealRules

set_option maxRecDepth 16384

noncomputable section

open scoped BigOperators

open Idealize.ShloMosaic Idealize.ShloMosaic.ValueIdx

namespace Cert.KernelIdeal.Hand1V

open Cert.KernelIdeal Cert.KernelIdeal.Gen

/-- The named scale denotes the inverse temperature. -/
theorem inv_temp : Named.named (F := Ideal) κ "inv_temp" (φ := .f32) 0x41649249#32 = ((Spec.invT : ℝ) : EReal) :=
  IdealRules.named_const.ideal_named_scalar _ _ _ _ rfl

/-- Two 32-bit words of numbers below `1024` are equal only if the numbers are. -/
theorem word_eq_iff (k m : Fin 1024) : IntOp.cmpi .eq (BitVec.ofNat 32 k.val) (BitVec.ofNat 32 m.val) = 1#1 ↔ k = m := by
  have hk := k.isLt
  have hm := m.isLt
  constructor
  · intro h
    by_contra hne
    have hv : k.val ≠ m.val := fun e => hne (Fin.ext e)
    have : (BitVec.ofNat 32 k.val == BitVec.ofNat 32 m.val) = false := by
      rw [beq_eq_false_iff_ne]
      intro e
      have := congrArg BitVec.toNat e
      simp only [BitVec.toNat_ofNat] at this
      omega
    simp [IntOp.cmpi, this] at h
  · rintro rfl
    simp [IntOp.cmpi]

section Blocks
variable (x0 x1 : FVec Ideal S1024x1024 .bf16) (A B : Fin 1024 → Fin 1024 → ℝ)
variable (h0 : ∀ p q, x0 (ix2 p q) = ((A p q : ℝ) : EReal)) (h1 : ∀ p q, x1 (ix2 p q) = ((B p q : ℝ) : EReal))

include h0 h1 in
/-- The product of `b`'s block with the transpose of `a`'s: entry `(k, m)` is the inner product of row `k` of `b` with
    row `m` of `a`. -/
theorem dot_apply (k m : Fin 1024) :
    matmul (φ₁ := .bf16) (φ₂ := .bf16) dot_S1024x1024_S1024x1024_S1024x1024_1_0_0_1_n_n none
        (shapeCast S1024x1024 x1 shapeCasts_S1024x1024_S1024x1024)
        (transpose S1024x1024 [1, 0] (shapeCast S1024x1024 x0 shapeCasts_S1024x1024_S1024x1024) transposes_S1024x1024_p1_0_S1024x1024)
        (constant (F := Ideal) S1024x1024 .f32 0x00000000#32) (ix2 k m)
      = ((∑ d, B k d * A m d : ℝ) : EReal) := by
  refine (PlainDot.matmul_zero_apply _ rfl none _ _ (ix2 k m)).trans ?_
  rw [LogSumExp.coe_finset_sum]
  refine Finset.sum_congr rfl fun d _ => ?_
  rw [shapeCast_self, shapeCast_self]
  show x1 (ix2 k d) * transpose S1024x1024 [1, 0] x0 transposes_S1024x1024_p1_0_S1024x1024 (ix2 d m) = _
  rw [transpose_ix2_apply, h0, h1, ← EReal.coe_mul]

include h0 h1 in
/-- The tile of logits: entry `(k, m)` is the inner product of row `k` of `b` with row `m` of `a`, times the inverse
    temperature. -/
theorem pay3_apply (k m : Fin 1024) :
    k1_pay3 (F := Ideal) x0 x1 (ix2 k m) = (((∑ d, B k d * A m d) * Spec.invT : ℝ) : EReal) := by
  unfold k1_pay3
  dsimp only
  refine (congrArg₂ (fun a b : EReal => a * b) (dot_apply x0 x1 A B h0 h1 k m) inv_temp).trans ?_
  rw [← EReal.coe_mul]

include h0 h1 in
/-- The column sums of the exponentials of the tile of logits, as a row: entry `m` is the sum over the rows `k` of `b`'s
    block of the exponential of the logit of row `k` against row `m` of `a`'s block. -/
theorem colsum_exp_apply (hφ : FKind.Formats .f32) (hacc : (0x00000000#32 : BitVec 32) = FKind.add.neutral .f32 hφ)
    (u : Fin 1) (m : Fin 1024) :
    shapeCast S1x1024 (multiReduction (F := Ideal) .add [0] S1024 (Idealize.ShloMosaic.exp (k1_pay3 x0 x1)) 0x00000000#32
        reduces_S1024x1024_S1024_2 hφ hacc) shapeCasts_S1024_S1x1024 (ix2 u m)
      = ((∑ k, Real.exp ((∑ d, B k d * A m d) * Spec.invT) : ℝ) : EReal) := by
  refine (shapeCast_a_1a_apply _ _ u m).trans ?_
  refine (multiReduction_add_axis0_apply (Idealize.ShloMosaic.exp (k1_pay3 x0 x1)) _ _ _ m).trans ?_
  rw [LogSumExp.coe_finset_sum]
  refine Finset.sum_congr rfl fun k _ => ?_
  show Ideal.exp (k1_pay3 (F := Ideal) x0 x1 (ix2 k m)) = _
  rw [pay3_apply x0 x1 A B h0 h1 k m]
  rfl

include h0 h1 in
/-- The running row of sums after one more tile: what it held plus this tile's column sums of exponentials. -/
theorem pay4_apply (s : FVec Ideal S1x1024 .f32) (S : Fin 1024 → ℝ) (hs : ∀ u m, s (ix2 u m) = ((S m : ℝ) : EReal))
    (u : Fin 1) (m : Fin 1024) :
    k1_pay4 (F := Ideal) x0 x1 s (ix2 u m)
      = ((S m + ∑ k, Real.exp ((∑ d, B k d * A m d) * Spec.invT) : ℝ) : EReal) := by
  unfold k1_pay4
  dsimp only
  refine (congrFun (shapeCast_self _ _) (ix2 u m)).trans ?_
  refine (congrArg (fun t : EReal => s (ix2 u m) + t) (colsum_exp_apply x0 x1 A B h0 h1 _ _ u m)).trans ?_
  show s (ix2 u m) + _ = _
  rw [hs, ← EReal.coe_add]

include h0 h1 in
/-- The diagonal of the tile of logits, as a row: the column sums of the tile masked to its diagonal. In column `m`
    only the term of row `m` is not zero, so entry `m` is the logit of row `m` of `b`'s block against row `m` of `a`'s. -/
theorem pay5_apply (u : Fin 1) (m : Fin 1024) :
    k1_pay5 (F := Ideal) x0 x1 (ix2 u m) = (((∑ d, B m d * A m d) * Spec.invT : ℝ) : EReal) := by
  unfold k1_pay5
  dsimp only
  refine (congrFun (shapeCast_self _ _) (ix2 u m)).trans ?_
  refine (shapeCast_a_1a_apply _ _ u m).trans ?_
  refine (multiReduction_add_axis0_apply _ _ _ _ m).trans ?_
  rw [Finset.sum_eq_single m]
  · show Scalar.select (IntOp.cmpi .eq (iota .tc S1024x1024 32 [0] iota_S1024x1024_d0_w32 (ix2 m m))
        (iota .tc S1024x1024 32 [1] iota_S1024x1024_d1_w32 (ix2 m m))) (k1_pay3 (F := Ideal) x0 x1 (ix2 m m)) _ = _
    rw [iota_single_apply, iota_single_apply]
    show Scalar.select (IntOp.cmpi .eq (BitVec.ofNat 32 m.val) (BitVec.ofNat 32 m.val)) _ _ = _
    rw [(word_eq_iff m m).mpr rfl, select_one, pay3_apply x0 x1 A B h0 h1 m m]
  · intro k _ hk
    show Scalar.select (IntOp.cmpi .eq (iota .tc S1024x1024 32 [0] iota_S1024x1024_d0_w32 (ix2 k m))
        (iota .tc S1024x1024 32 [1] iota_S1024x1024_d1_w32 (ix2 k m))) (k1_pay3 (F := Ideal) x0 x1 (ix2 k m))
        (Ideal.ofBits .f32 0x00000000#32) = 0
    rw [iota_single_apply, iota_single_apply]
    show Scalar.select (IntOp.cmpi .eq (BitVec.ofNat 32 k.val) (BitVec.ofNat 32 m.val)) _ _ = 0
    rw [eq_zero_of_ne_one (fun h => hk ((word_eq_iff k m).mp h)), select_zero]
    exact Ideal.ofBits_zero_f32
  · intro h
    exact absurd (Finset.mem_univ m) h

end Blocks

/-- What is written at the last tile of a row: the logarithm of the running sum, which is positive, less the picked
    diagonal logit. -/
theorem pay6_apply (a d : FVec Ideal S1x1024 .f32) (P Q : Fin 1024 → ℝ)
    (ha : ∀ u m, a (ix2 u m) = ((P m : ℝ) : EReal)) (hd : ∀ u m, d (ix2 u m) = ((Q m : ℝ) : EReal))
    (u : Fin 1) (m : Fin 1024) (hP : 0 < P m) :
    k1_pay6 (F := Ideal) a d (ix2 u m) = ((Real.log (P m) - Q m : ℝ) : EReal) := by
  unfold k1_pay6
  show Ideal.log (a (ix2 u m)) - d (ix2 u m) = _
  rw [ha, hd, LogSumExp.log_coe_of_pos hP, ← EReal.coe_sub]

/-- The running row of sums starts at zero, -/
theorem pay1_apply (j : S1x1024.Idx) : k1_pay1 (F := Ideal) j = ((0 : ℝ) : EReal) := by
  unfold k1_pay1
  refine (congrFun (shapeCast_self _ _) j).trans ?_
  show Ideal.ofBits .f32 0x00000000#32 = _
  rw [Ideal.ofBits_zero_f32, EReal.coe_zero]

/-- and so does the row that will hold the diagonal. -/
theorem pay2_apply (j : S1x1024.Idx) : k1_pay2 (F := Ideal) j = ((0 : ℝ) : EReal) := by
  unfold k1_pay2
  refine (congrFun (shapeCast_self _ _) j).trans ?_
  show Ideal.ofBits .f32 0x00000000#32 = _
  rw [Ideal.ofBits_zero_f32, EReal.coe_zero]

/-! ## The second accumulation region runs the same body -/

section Same
variable {F : FTy → Type} [FloatOps F] [Named F]

theorem k2_pay1_eq : k2_pay1 (F := F) = k1_pay1 := rfl
theorem k2_pay2_eq : k2_pay2 (F := F) = k1_pay2 := rfl
theorem k2_pay3_eq : k2_pay3 (F := F) = k1_pay3 := rfl
theorem k2_pay4_eq : k2_pay4 (F := F) = k1_pay4 := rfl
theorem k2_pay5_eq : k2_pay5 (F := F) = k1_pay5 := rfl
theorem k2_pay6_eq : k2_pay6 (F := F) = k1_pay6 := rfl

end Same

end Cert.KernelIdeal.Hand1V

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.TileSums.lean ====
/-
  The real sums the accumulation kernel builds tile by tile.

  The 8192 rows of a matrix are cut in 8 consecutive tiles of 1024 rows: row `p` of tile `o` is row `1024 o + p`.
  A sum over all rows is the sum over the tiles of the sums over each tile's rows, and the running total after the
  tiles `0, …, r` is the sum of the first `r + 1` tile sums; after the last tile it is the sum over all rows.
-/
import Mathlib.Analysis.SpecialFunctions.Log.Basic
import proofs.«134093_j6932077215890_1_alg».proof.Proof.LibChunkedSum

noncomputable section

open scoped BigOperators

namespace Cert.TileSums

open Cert.Lib.ChunkedSum

/-- Row `p` of tile `o`. -/
def rowOf (o : Fin 8) (p : Fin 1024) : Fin 8192 :=
  ⟨1024 * o.val + p.val, by have := o.isLt; have := p.isLt; omega⟩

theorem rowOf_val (o : Fin 8) (p : Fin 1024) : (rowOf o p).val = 1024 * o.val + p.val := rfl

/-- A function of the rows, continued by zero to all natural numbers. -/
def ext (g : Fin 8192 → ℝ) (i : ℕ) : ℝ := if h : i < 8192 then g ⟨i, h⟩ else 0

/-- The sum over tile `r`'s rows. -/
theorem chunk_ext (g : Fin 8192 → ℝ) (r : Fin 8) :
    chunk 1024 (ext g) r.val = ∑ k : Fin 1024, g (rowOf r k) := by
  unfold chunk
  refine Finset.sum_congr rfl fun k _ => ?_
  unfold ext
  rw [dif_pos (by have := r.isLt; have := k.isLt; omega)]
  rfl

/-- The eight tile sums add up to the sum over all rows. -/
theorem sum_all (g : Fin 8192 → ℝ) : ∑ p ∈ Finset.range 8, chunk 1024 (ext g) p = ∑ i : Fin 8192, g i := by
  rw [sum_chunks_range, show 8 * 1024 = 8192 from rfl, ← Fin.sum_univ_eq_sum_range (fun j => ext g j) 8192]
  refine Finset.sum_congr rfl fun i _ => ?_
  unfold ext
  rw [dif_pos i.isLt]

/-- The running total after the first tile, started from zero. -/
theorem run_first (g : Fin 8192 → ℝ) :
    (0 : ℝ) + chunk 1024 (ext g) 0 = ∑ p ∈ Finset.range (0 + 1), chunk 1024 (ext g) p := by
  rw [zero_add, Finset.sum_range_one]

/-- One more tile added to the running total. -/
theorem run_step (g : Fin 8192 → ℝ) (r : ℕ) :
    (∑ p ∈ Finset.range (r + 1), chunk 1024 (ext g) p) + chunk 1024 (ext g) (r + 1)
      = ∑ p ∈ Finset.range (r + 1 + 1), chunk 1024 (ext g) p :=
  (Finset.sum_range_succ _ _).symm

/-- A sum over all rows of positive numbers is positive. -/
theorem sum_rows_pos (g : Fin 8192 → ℝ) (h : ∀ i, 0 < g i) : 0 < ∑ i : Fin 8192, g i :=
  Finset.sum_pos (fun i _ => h i) ⟨⟨0, by norm_num⟩, Finset.mem_univ _⟩

end Cert.TileSums

end
-- ==== Proof.Region1Value.lean ====
/-
  What the first accumulation region leaves in its output row, at the exact (extended-real) reading, when its two
  operand matrices have real entries.

  Grid point `t` has outer coordinate `o = t / 8` and inner coordinate `r = t % 8`: it multiplies tile `r` of the
  reduction-indexed matrix `B` against tile `o` of the outer-indexed matrix `A`.  By induction along an outer row, after
  point `(o, r)` the running row holds at column `m` the sum, over the rows `k` of the tiles `0, …, r` of `B`, of the
  exponentials of the logits of row `k` of `B` against row `1024 o + m` of `A`; and from the diagonal tile `r = o` on,
  the second row holds that row's own logit.  At `r = 7` the running sum is the sum over all `8192` rows, it is
  positive, and the block written back is its logarithm less the diagonal logit.  Column `j` of the output row lies in
  the block of outer coordinate `j / 1024`, so the eight blocks cover it.
-/
import proofs.«134093_j6932077215890_1_alg».proof.Proof.Region1
import proofs.«134093_j6932077215890_1_alg».proof.Proof.Region1Pay
import proofs.«134093_j6932077215890_1_alg».proof.Proof.TileSums
import proofs.«134093_j6932077215890_1_alg».proof.Proof.Spec
import proofs.«134093_j6932077215890_1_alg».proof.Proof.LibLogSumExp
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Hand1V

open Cert.KernelIdeal Cert.KernelIdeal.Gen Cert.KernelIdeal.Hand1 Cert.TileSums Cert.Lib.ChunkedSum

/-! ## The grid -/

/-- A grid point's outer coordinate: the tile of the outer-indexed matrix, and the block of the output row. -/
def outer (t : Fin cfg1.N) : Fin 8 := ⟨t.val / 8, by have := t.isLt; have h : cfg1.N = 64 := N_1; omega⟩

/-- Its inner coordinate: the tile of the reduction-indexed matrix. -/
def inner (t : Fin cfg1.N) : Fin 8 := ⟨t.val % 8, Nat.mod_lt _ (by norm_num)⟩

/-- The printed index maps, decided over the 64 grid points. -/
theorem block_of_point : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val / 8 :=
  (by decide +kernel : ∀ t : Fin grid1.N, _)

/-- The tile holds the diagonal exactly where the two coordinates agree. -/
theorem hc2 : ∀ t : Fin cfg1.N, c2 (grid1.coords t) ↔ t.val / 8 = t.val % 8 :=
  (by decide +kernel : ∀ t : Fin grid1.N, c2 (grid1.coords t) ↔ t.val / 8 = t.val % 8)

/-! ## The real quantities -/

/-- The exponential of the logit of row `i` of `B` against row `j` of `A`. -/
def expL (A B : Fin 8192 → Fin 1024 → ℝ) (j i : Fin 8192) : ℝ := Real.exp ((∑ d, B i d * A j d) * Spec.invT)

/-- The logit of row `j` of `B` against row `j` of `A`. -/
def diagL (A B : Fin 8192 → Fin 1024 → ℝ) (j : Fin 8192) : ℝ := (∑ d, B j d * A j d) * Spec.invT

theorem expL_pos (A B : Fin 8192 → Fin 1024 → ℝ) (j i : Fin 8192) : 0 < expL A B j i := Real.exp_pos _

/-- The output row: at column `j` the logarithm of the sum over all rows `k` of `B` of the exponentials of the logits
    against row `j` of `A`, less the logit of row `j` against row `j`. -/
def rowTerms (A B : Fin 8192 → Fin 1024 → ℝ) : S1x8192.Idx → EReal := fun j =>
  ((Real.log (∑ k : Fin 8192, Real.exp ((∑ d, B k d * A (j 1) d) * Spec.invT))
    - (∑ d, B (j 1) d * A (j 1) d) * Spec.invT : ℝ) : EReal)

section Grid
variable (V : (c : Dev nD) → (b : Ref sig .tc) → Buf (Elt Ideal) ((c : Thread nD τ).loc b))
variable (A B : Fin 8192 → Fin 1024 → ℝ) (c : Dev nD)
variable (hA : (V c (Pipeline.arrRef spec1 0) : S8192x1024.Idx → EReal) = Spec.arr A)
variable (hB : (V c (Pipeline.arrRef spec1 1) : S8192x1024.Idx → EReal) = Spec.arr B)

/-! ## The two input blocks at a point -/

include hA in
/-- The outer-indexed operand's block at point `t` is tile `t / 8` of `A`. -/
theorem iblk_0_apply (t : Fin cfg1.N) (p q : Fin 1024) :
    (iblk V c 0 t : FVec Ideal S1024x1024 .bf16) (ix2 p q) = ((A (rowOf (outer t) p) q : ℝ) : EReal) := by
  obtain ⟨e0, e1, -⟩ := block_of_point t
  unfold iblk
  rw [View.read_apply]
  show (V c (Pipeline.arrRef spec1 0) : S8192x1024.Idx → EReal) (((cfg1.win 0).blk t).view.emb (ix2 p q)) = _
  rw [hA]
  have h0 : ((((cfg1.win 0).blk t).view.emb (ix2 p q)) 0 : Fin 8192) = rowOf (outer t) p := Fin.ext (by
    show win1_0.index t (0 : Fin 2) * 1024 + 1 * p.val = 1024 * (t.val / 8) + p.val
    rw [e0]; omega)
  have h1 : ((((cfg1.win 0).blk t).view.emb (ix2 p q)) 1 : Fin 1024) = q := Fin.ext (by
    show win1_0.index t (1 : Fin 2) * 1024 + 1 * q.val = q.val
    rw [e1]; omega)
  show ((A ((((cfg1.win 0).blk t).view.emb (ix2 p q)) 0) ((((cfg1.win 0).blk t).view.emb (ix2 p q)) 1) : ℝ) : EReal) = _
  rw [h0, h1]

include hB in
/-- The reduction-indexed operand's block at point `t` is tile `t % 8` of `B`. -/
theorem iblk_1_apply (t : Fin cfg1.N) (p q : Fin 1024) :
    (iblk V c 1 t : FVec Ideal S1024x1024 .bf16) (ix2 p q) = ((B (rowOf (inner t) p) q : ℝ) : EReal) := by
  obtain ⟨-, -, e2, e3, -⟩ := block_of_point t
  unfold iblk
  rw [View.read_apply]
  show (V c (Pipeline.arrRef spec1 1) : S8192x1024.Idx → EReal) (((cfg1.win 1).blk t).view.emb (ix2 p q)) = _
  rw [hB]
  have h0 : ((((cfg1.win 1).blk t).view.emb (ix2 p q)) 0 : Fin 8192) = rowOf (inner t) p := Fin.ext (by
    show win1_1.index t (0 : Fin 2) * 1024 + 1 * p.val = 1024 * (t.val % 8) + p.val
    rw [e2]; omega)
  have h1 : ((((cfg1.win 1).blk t).view.emb (ix2 p q)) 1 : Fin 1024) = q := Fin.ext (by
    show win1_1.index t (1 : Fin 2) * 1024 + 1 * q.val = q.val
    rw [e3]; omega)
  show ((B ((((cfg1.win 1).blk t).view.emb (ix2 p q)) 0) ((((cfg1.win 1).blk t).view.emb (ix2 p q)) 1) : ℝ) : EReal) = _
  rw [h0, h1]

/-! ## One grid point -/

/-- The running row after point `t`, from what the point found. -/
theorem st1_eq (t : Fin cfg1.N) :
    (st V c t.val t.isLt).1 = k1_pay4 (F := Ideal) (iblk V c 0 t) (iblk V c 1 t)
      (if c1 (grid1.coords t) then k1_pay1 (F := Ideal) else (stPrev V c t).1) :=
  congrArg Prod.fst (st_eq V c t)

/-- The diagonal row after point `t`, from what the point found. -/
theorem st2_eq (t : Fin cfg1.N) :
    (st V c t.val t.isLt).2 = (if c2 (grid1.coords t) then k1_pay5 (F := Ideal) (iblk V c 0 t) (iblk V c 1 t)
      else if c1 (grid1.coords t) then k1_pay2 (F := Ideal) else (stPrev V c t).2) :=
  congrArg Prod.snd (st_eq V c t)

include hA hB in
/-- The running row after point `t` at column `m`: what it started the point with, plus the sum over the rows of tile
    `t % 8` of `B` of the exponentials of the logits against row `m` of tile `t / 8` of `A`. -/
theorem acc_point (t : Fin cfg1.N) (s : FVec Ideal S1x1024 .f32) (S : Fin 1024 → ℝ)
    (hs : ∀ u m, s (ix2 u m) = ((S m : ℝ) : EReal))
    (hst : (st V c t.val t.isLt).1 = k1_pay4 (F := Ideal) (iblk V c 0 t) (iblk V c 1 t) s) (u : Fin 1) (m : Fin 1024) :
    (st V c t.val t.isLt).1 (ix2 u m)
      = ((S m + chunk 1024 (ext (expL A B (rowOf (outer t) m))) (inner t).val : ℝ) : EReal) := by
  rw [hst]
  refine (pay4_apply (iblk V c 0 t) (iblk V c 1 t) (fun p q => A (rowOf (outer t) p) q) (fun p q => B (rowOf (inner t) p) q)
    (iblk_0_apply V A c hA t) (iblk_1_apply V B c hB t) s S hs u m).trans ?_
  rw [chunk_ext]
  refine congrArg (fun x : ℝ => ((S m + x : ℝ) : EReal)) (Finset.sum_congr rfl fun k _ => ?_)
  rfl

include hA hB in
/-- One step of the induction: from what point `t` finds (unless it resets) to what it leaves. -/
theorem step (t : Fin cfg1.N)
    (hprev : ¬ t.val % 8 = 0 →
      (∀ (u : Fin 1) (m : Fin 1024), (stPrev V c t).1 (ix2 u m)
          = ((∑ p ∈ Finset.range (t.val % 8), chunk 1024 (ext (expL A B (rowOf (outer t) m))) p : ℝ) : EReal))
      ∧ (t.val / 8 < t.val % 8 → ∀ (u : Fin 1) (m : Fin 1024), (stPrev V c t).2 (ix2 u m)
          = ((diagL A B (rowOf (outer t) m) : ℝ) : EReal))) :
    (∀ (u : Fin 1) (m : Fin 1024), (st V c t.val t.isLt).1 (ix2 u m)
        = ((∑ p ∈ Finset.range (t.val % 8 + 1), chunk 1024 (ext (expL A B (rowOf (outer t) m))) p : ℝ) : EReal))
    ∧ (t.val / 8 ≤ t.val % 8 → ∀ (u : Fin 1) (m : Fin 1024), (st V c t.val t.isLt).2 (ix2 u m)
        = ((diagL A B (rowOf (outer t) m) : ℝ) : EReal)) := by
  refine ⟨fun u m => ?_, fun hle u m => ?_⟩
  · by_cases h0 : t.val % 8 = 0
    · have hc : c1 (grid1.coords t) := (hc1 t).mpr h0
      refine (acc_point V A B c hA hB t (k1_pay1 (F := Ideal)) (fun _ => 0) (fun u m => pay1_apply (ix2 u m))
        ((st1_eq V c t).trans (by rw [if_pos hc])) u m).trans ?_
      show ((0 + chunk 1024 (ext (expL A B (rowOf (outer t) m))) (t.val % 8) : ℝ) : EReal) = _
      rw [h0]
      exact congrArg (fun x : ℝ => (x : EReal)) (run_first _)
    · have hc : ¬ c1 (grid1.coords t) := fun h => h0 ((hc1 t).mp h)
      refine (acc_point V A B c hA hB t (stPrev V c t).1
        (fun m => ∑ p ∈ Finset.range (t.val % 8), chunk 1024 (ext (expL A B (rowOf (outer t) m))) p)
        (hprev h0).1 ((st1_eq V c t).trans (by rw [if_neg hc])) u m).trans ?_
      show ((∑ p ∈ Finset.range (t.val % 8), chunk 1024 (ext (expL A B (rowOf (outer t) m))) p
        + chunk 1024 (ext (expL A B (rowOf (outer t) m))) (t.val % 8) : ℝ) : EReal) = _
      rw [← Finset.sum_range_succ]
  · by_cases heq : t.val / 8 = t.val % 8
    · have hc : c2 (grid1.coords t) := (hc2 t).mpr heq
      have hio : inner t = outer t := Fin.ext heq.symm
      rw [st2_eq V c t, if_pos hc]
      refine (pay5_apply (iblk V c 0 t) (iblk V c 1 t) (fun p q => A (rowOf (outer t) p) q) (fun p q => B (rowOf (inner t) p) q)
        (iblk_0_apply V A c hA t) (iblk_1_apply V B c hB t) u m).trans ?_
      rw [hio]
      rfl
    · have hlt : t.val / 8 < t.val % 8 := lt_of_le_of_ne hle heq
      have h0 : ¬ t.val % 8 = 0 := by omega
      have hc2' : ¬ c2 (grid1.coords t) := fun h => heq ((hc2 t).mp h)
      have hc1' : ¬ c1 (grid1.coords t) := fun h => h0 ((hc1 t).mp h)
      rw [st2_eq V c t, if_neg hc2', if_neg hc1']
      exact (hprev h0).2 hlt u m

/-! ## Every grid point -/

include hA hB in
/-- After point `n`: the running row holds the sums over the tiles `0, …, n % 8` of `B`, and from the diagonal tile on
    the second row holds the diagonal logits. -/
theorem rows_after : ∀ (n : ℕ) (hn : n < cfg1.N),
    (∀ (u : Fin 1) (m : Fin 1024), (st V c n hn).1 (ix2 u m)
        = ((∑ p ∈ Finset.range (n % 8 + 1), chunk 1024 (ext (expL A B (rowOf (outer ⟨n, hn⟩) m))) p : ℝ) : EReal))
    ∧ (n / 8 ≤ n % 8 → ∀ (u : Fin 1) (m : Fin 1024), (st V c n hn).2 (ix2 u m)
        = ((diagL A B (rowOf (outer ⟨n, hn⟩) m) : ℝ) : EReal)) := by
  intro n
  induction n with
  | zero =>
    intro hn
    exact step V A B c hA hB ⟨0, hn⟩ (fun h => absurd (rfl : (0 : ℕ) % 8 = 0) h)
  | succ n ih =>
    intro hn
    refine step V A B c hA hB ⟨n + 1, hn⟩ (fun h => ?_)
    have h' : ¬ (n + 1) % 8 = 0 := h
    have hn' : n < cfg1.N := Nat.lt_of_succ_lt hn
    obtain ⟨i1, i2⟩ := ih hn'
    have ho : outer ⟨n + 1, hn⟩ = outer ⟨n, hn'⟩ := Fin.ext (by show (n + 1) / 8 = n / 8; omega)
    have hr : (n + 1) % 8 = n % 8 + 1 := by omega
    refine ⟨fun u m => ?_, fun hlt u m => ?_⟩
    · show (st V c n hn').1 (ix2 u m)
        = ((∑ p ∈ Finset.range ((n + 1) % 8), chunk 1024 (ext (expL A B (rowOf (outer ⟨n + 1, hn⟩) m))) p : ℝ) : EReal)
      rw [ho, hr]
      exact i1 u m
    · have hlt' : (n + 1) / 8 < (n + 1) % 8 := hlt
      show (st V c n hn').2 (ix2 u m) = ((diagL A B (rowOf (outer ⟨n + 1, hn⟩) m) : ℝ) : EReal)
      rw [ho]
      exact i2 (by omega) u m

/-! ## From the blocks to the output row -/

include hA hB in
/-- What a point with inner coordinate `7` writes back is its block of the output row. -/
theorem written_back (t : Fin cfg1.N) (hf : (cfg1.win 2).flush t = true) :
    (dat V c).flushed 2 t = ((cfg1.win 2).blk t).view.read (Elt Ideal) (rowTerms A B) := by
  have h7 : t.val % 8 = 7 := (flush1_2 t).mp hf
  have hN : cfg1.N = 64 := N_1
  have hlt : t.val < cfg1.N := t.isLt
  obtain ⟨-, -, -, -, e4, e5⟩ := block_of_point t
  obtain ⟨i1, i2⟩ := rows_after V A B c hA hB t.val t.isLt
  show (cfg1.win 2).cut (grid1.coords t) ((dat V c).after 2 t) = _
  rw [after_2]
  funext j
  obtain ⟨u, m, rfl⟩ : ∃ (u : Fin 1) (m : Fin 1024), j = ix2 u m := ⟨j 0, j 1, eq_ix2 (n0 := 1) (n1 := 1024) j⟩
  show k1_pay6 (F := Ideal) (st V c t.val t.isLt).1 (st V c t.val t.isLt).2 (ix2 u m)
    = rowTerms A B (((cfg1.win 2).blk t).view.emb (ix2 u m))
  have ha : ∀ (u : Fin 1) (m : Fin 1024), (st V c t.val t.isLt).1 (ix2 u m)
      = ((∑ i : Fin 8192, expL A B (rowOf (outer t) m) i : ℝ) : EReal) := fun u m => by
    have := i1 u m
    rw [h7] at this
    rw [this, sum_all]
  have hP : 0 < ∑ i : Fin 8192, expL A B (rowOf (outer t) m) i := sum_rows_pos _ (expL_pos A B _)
  refine (pay6_apply (st V c t.val t.isLt).1 (st V c t.val t.isLt).2
    (fun m => ∑ i : Fin 8192, expL A B (rowOf (outer t) m) i) (fun m => diagL A B (rowOf (outer t) m))
    ha (i2 (by omega)) u m hP).trans ?_
  have h1 : ((((cfg1.win 2).blk t).view.emb (ix2 u m)) 1 : Fin 8192) = rowOf (outer t) m := Fin.ext (by
    show win1_2.index t (1 : Fin 2) * 1024 + 1 * m.val = 1024 * (t.val / 8) + m.val
    rw [e5]; omega)
  unfold rowTerms
  show _ = ((Real.log (∑ k : Fin 8192, Real.exp ((∑ d, B k d * A ((((cfg1.win 2).blk t).view.emb (ix2 u m)) 1) d) * Spec.invT))
    - (∑ d, B ((((cfg1.win 2).blk t).view.emb (ix2 u m)) 1) d * A ((((cfg1.win 2).blk t).view.emb (ix2 u m)) 1) d) * Spec.invT : ℝ) : EReal)
  rw [h1]
  exact congrArg (fun x : ℝ => ((Real.log x - diagL A B (rowOf (outer t) m) : ℝ) : EReal))
    (Finset.sum_congr rfl fun k _ => rfl)

/-- Column `j` of the output row lies in the block of the point `(j / 1024, 7)`: the eight blocks cover the row. -/
theorem blocks_cover (i : S1x8192.Idx) :
    ∃ t : Fin cfg1.N, (cfg1.win 2).flush t = true ∧ i ∈ ((cfg1.win 2).blk t).view.set := by
  have hN : cfg1.N = 64 := N_1
  have hi0 : (i 0).val < 1 := (i 0).isLt
  have hi1 : (i 1).val < 8192 := (i 1).isLt
  obtain ⟨t, ht⟩ : ∃ t : Fin cfg1.N, t.val = 8 * ((i 1).val / 1024) + 7 :=
    ⟨⟨8 * ((i 1).val / 1024) + 7, by omega⟩, rfl⟩
  obtain ⟨-, -, -, -, e4, e5⟩ := block_of_point t
  refine ⟨t, (flush1_2 t).mpr (by omega), ?_⟩
  show i ∈ ((View.whole main_v1).slice (win1_2.rect t)).set
  rw [View.set_slice_whole, Rect.mem_set_unit]
  intro a
  match a with
  | ⟨0, _⟩ =>
    show win1_2.index t (0 : Fin 2) * 1 ≤ (i 0).val ∧ (i 0).val < win1_2.index t (0 : Fin 2) * 1 + 1
    rw [e4]; omega
  | ⟨1, _⟩ =>
    show win1_2.index t (1 : Fin 2) * 1024 ≤ (i 1).val ∧ (i 1).val < win1_2.index t (1 : Fin 2) * 1024 + 1024
    rw [e5, ht]; omega

include hA hB in
/-- The output row after the region. -/
theorem arr2_eq_rowTerms : ((dat V c).arrAt 2 cfg1.N : S1x8192.Idx → EReal) = rowTerms A B :=
  (dat V c).arrAt_eq_of_cover 2 (rowTerms A B) (fun t hf => written_back V A B c hA hB t hf) blocks_cover

end Grid

section Statement
variable (V : (c : Dev nD) → (b : Ref sig .tc) → Buf (Elt Ideal) ((c : Thread nD τ).loc b))

/-- The output row after the region, spelt out: at column `j` the logarithm of the sum over all rows `k` of `B` of the
    exponentials of the logits against row `j` of `A`, less the logit of row `j` against row `j`. -/
theorem arr2_eq (A B : Fin 8192 → Fin 1024 → ℝ) (c : Dev nD)
    (hA : (V c (Pipeline.arrRef spec1 0) : S8192x1024.Idx → EReal) = Spec.arr A)
    (hB : (V c (Pipeline.arrRef spec1 1) : S8192x1024.Idx → EReal) = Spec.arr B) :
    ((dat V c).arrAt 2 cfg1.N : S1x8192.Idx → EReal)
      = fun j => ((Real.log (∑ k : Fin 8192, Real.exp ((∑ d, B k d * A (j 1) d) * Spec.invT))
          - (∑ d, B (j 1) d * A (j 1) d) * Spec.invT : ℝ) : EReal) :=
  arr2_eq_rowTerms V A B c hA hB

/-- The same, with the two operand arrays named. -/
theorem arr2_eq_refs (A B : Fin 8192 → Fin 1024 → ℝ) (c : Dev nD)
    (hA : (V c main_v0_0 : S8192x1024.Idx → EReal) = Spec.arr A)
    (hB : (V c main_v0_1 : S8192x1024.Idx → EReal) = Spec.arr B) :
    ((dat V c).arrAt 2 cfg1.N : S1x8192.Idx → EReal)
      = fun j => ((Real.log (∑ k : Fin 8192, Real.exp ((∑ d, B k d * A (j 1) d) * Spec.invT))
          - (∑ d, B (j 1) d * A (j 1) d) * Spec.invT : ℝ) : EReal) :=
  arr2_eq_rowTerms V A B c hA hB

end Statement

end Cert.KernelIdeal.Hand1V

end
-- ==== Proof.Region2Value.lean ====
/-
  What the second accumulation region leaves in its output row, at the exact (extended-real) reading, when its two
  operand matrices have real entries.

  Grid point `t` has outer coordinate `o = t / 8` and inner coordinate `r = t % 8`: it multiplies tile `r` of the
  reduction-indexed matrix `B` against tile `o` of the outer-indexed matrix `A`.  By induction along an outer row, after
  point `(o, r)` the running row holds at column `m` the sum, over the rows `k` of the tiles `0, …, r` of `B`, of the
  exponentials of the logits of row `k` of `B` against row `1024 o + m` of `A`; and from the diagonal tile `r = o` on,
  the second row holds that row's own logit.  At `r = 7` the running sum is the sum over all `8192` rows, it is
  positive, and the block written back is its logarithm less the diagonal logit.  Column `j` of the output row lies in
  the block of outer coordinate `j / 1024`, so the eight blocks cover it.
-/
import proofs.«134093_j6932077215890_1_alg».proof.Proof.Region2
import proofs.«134093_j6932077215890_1_alg».proof.Proof.Region1Pay
import proofs.«134093_j6932077215890_1_alg».proof.Proof.TileSums
import proofs.«134093_j6932077215890_1_alg».proof.Proof.Spec
import proofs.«134093_j6932077215890_1_alg».proof.Proof.LibLogSumExp
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Hand2V

open Cert.KernelIdeal Cert.KernelIdeal.Gen Cert.KernelIdeal.Hand2 Cert.KernelIdeal.Hand1V Cert.TileSums Cert.Lib.ChunkedSum

/-! ## The grid -/

/-- A grid point's outer coordinate: the tile of the outer-indexed matrix, and the block of the output row. -/
def outer (t : Fin cfg2.N) : Fin 8 := ⟨t.val / 8, by have := t.isLt; have h : cfg2.N = 64 := N_2; omega⟩

/-- Its inner coordinate: the tile of the reduction-indexed matrix. -/
def inner (t : Fin cfg2.N) : Fin 8 := ⟨t.val % 8, Nat.mod_lt _ (by norm_num)⟩

/-- The printed index maps, decided over the 64 grid points. -/
theorem block_of_point : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = 0 ∧ win2_2.index t (1 : Fin 2) = t.val / 8 :=
  (by decide +kernel : ∀ t : Fin grid2.N, _)

/-- The tile holds the diagonal exactly where the two coordinates agree. -/
theorem hc2 : ∀ t : Fin cfg2.N, c2 (grid2.coords t) ↔ t.val / 8 = t.val % 8 :=
  (by decide +kernel : ∀ t : Fin grid2.N, c2 (grid2.coords t) ↔ t.val / 8 = t.val % 8)

/-! ## The real quantities -/

/-- The exponential of the logit of row `i` of `B` against row `j` of `A`. -/
def expL (A B : Fin 8192 → Fin 1024 → ℝ) (j i : Fin 8192) : ℝ := Real.exp ((∑ d, B i d * A j d) * Spec.invT)

/-- The logit of row `j` of `B` against row `j` of `A`. -/
def diagL (A B : Fin 8192 → Fin 1024 → ℝ) (j : Fin 8192) : ℝ := (∑ d, B j d * A j d) * Spec.invT

theorem expL_pos (A B : Fin 8192 → Fin 1024 → ℝ) (j i : Fin 8192) : 0 < expL A B j i := Real.exp_pos _

/-- The output row: at column `j` the logarithm of the sum over all rows `k` of `B` of the exponentials of the logits
    against row `j` of `A`, less the logit of row `j` against row `j`. -/
def rowTerms (A B : Fin 8192 → Fin 1024 → ℝ) : S1x8192.Idx → EReal := fun j =>
  ((Real.log (∑ k : Fin 8192, Real.exp ((∑ d, B k d * A (j 1) d) * Spec.invT))
    - (∑ d, B (j 1) d * A (j 1) d) * Spec.invT : ℝ) : EReal)

section Grid
variable (V : (c : Dev nD) → (b : Ref sig .tc) → Buf (Elt Ideal) ((c : Thread nD τ).loc b))
variable (A B : Fin 8192 → Fin 1024 → ℝ) (c : Dev nD)
variable (hA : (V c (Pipeline.arrRef spec2 0) : S8192x1024.Idx → EReal) = Spec.arr A)
variable (hB : (V c (Pipeline.arrRef spec2 1) : S8192x1024.Idx → EReal) = Spec.arr B)

/-! ## The two input blocks at a point -/

include hA in
/-- The outer-indexed operand's block at point `t` is tile `t / 8` of `A`. -/
theorem iblk_0_apply (t : Fin cfg2.N) (p q : Fin 1024) :
    (iblk V c 0 t : FVec Ideal S1024x1024 .bf16) (ix2 p q) = ((A (rowOf (outer t) p) q : ℝ) : EReal) := by
  obtain ⟨e0, e1, -⟩ := block_of_point t
  unfold iblk
  rw [View.read_apply]
  show (V c (Pipeline.arrRef spec2 0) : S8192x1024.Idx → EReal) (((cfg2.win 0).blk t).view.emb (ix2 p q)) = _
  rw [hA]
  have h0 : ((((cfg2.win 0).blk t).view.emb (ix2 p q)) 0 : Fin 8192) = rowOf (outer t) p := Fin.ext (by
    show win2_0.index t (0 : Fin 2) * 1024 + 1 * p.val = 1024 * (t.val / 8) + p.val
    rw [e0]; omega)
  have h1 : ((((cfg2.win 0).blk t).view.emb (ix2 p q)) 1 : Fin 1024) = q := Fin.ext (by
    show win2_0.index t (1 : Fin 2) * 1024 + 1 * q.val = q.val
    rw [e1]; omega)
  show ((A ((((cfg2.win 0).blk t).view.emb (ix2 p q)) 0) ((((cfg2.win 0).blk t).view.emb (ix2 p q)) 1) : ℝ) : EReal) = _
  rw [h0, h1]

include hB in
/-- The reduction-indexed operand's block at point `t` is tile `t % 8` of `B`. -/
theorem iblk_1_apply (t : Fin cfg2.N) (p q : Fin 1024) :
    (iblk V c 1 t : FVec Ideal S1024x1024 .bf16) (ix2 p q) = ((B (rowOf (inner t) p) q : ℝ) : EReal) := by
  obtain ⟨-, -, e2, e3, -⟩ := block_of_point t
  unfold iblk
  rw [View.read_apply]
  show (V c (Pipeline.arrRef spec2 1) : S8192x1024.Idx → EReal) (((cfg2.win 1).blk t).view.emb (ix2 p q)) = _
  rw [hB]
  have h0 : ((((cfg2.win 1).blk t).view.emb (ix2 p q)) 0 : Fin 8192) = rowOf (inner t) p := Fin.ext (by
    show win2_1.index t (0 : Fin 2) * 1024 + 1 * p.val = 1024 * (t.val % 8) + p.val
    rw [e2]; omega)
  have h1 : ((((cfg2.win 1).blk t).view.emb (ix2 p q)) 1 : Fin 1024) = q := Fin.ext (by
    show win2_1.index t (1 : Fin 2) * 1024 + 1 * q.val = q.val
    rw [e3]; omega)
  show ((B ((((cfg2.win 1).blk t).view.emb (ix2 p q)) 0) ((((cfg2.win 1).blk t).view.emb (ix2 p q)) 1) : ℝ) : EReal) = _
  rw [h0, h1]

/-! ## One grid point -/

/-- The running row after point `t`, from what the point found. -/
theorem st1_eq (t : Fin cfg2.N) :
    (st V c t.val t.isLt).1 = k2_pay4 (F := Ideal) (iblk V c 0 t) (iblk V c 1 t)
      (if c1 (grid2.coords t) then k2_pay1 (F := Ideal) else (stPrev V c t).1) :=
  congrArg Prod.fst (st_eq V c t)

/-- The diagonal row after point `t`, from what the point found. -/
theorem st2_eq (t : Fin cfg2.N) :
    (st V c t.val t.isLt).2 = (if c2 (grid2.coords t) then k2_pay5 (F := Ideal) (iblk V c 0 t) (iblk V c 1 t)
      else if c1 (grid2.coords t) then k2_pay2 (F := Ideal) else (stPrev V c t).2) :=
  congrArg Prod.snd (st_eq V c t)

include hA hB in
/-- The running row after point `t` at column `m`: what it started the point with, plus the sum over the rows of tile
    `t % 8` of `B` of the exponentials of the logits against row `m` of tile `t / 8` of `A`. -/
theorem acc_point (t : Fin cfg2.N) (s : FVec Ideal S1x1024 .f32) (S : Fin 1024 → ℝ)
    (hs : ∀ u m, s (ix2 u m) = ((S m : ℝ) : EReal))
    (hst : (st V c t.val t.isLt).1 = k2_pay4 (F := Ideal) (iblk V c 0 t) (iblk V c 1 t) s) (u : Fin 1) (m : Fin 1024) :
    (st V c t.val t.isLt).1 (ix2 u m)
      = ((S m + chunk 1024 (ext (expL A B (rowOf (outer t) m))) (inner t).val : ℝ) : EReal) := by
  rw [hst, k2_pay4_eq]
  refine (pay4_apply (iblk V c 0 t) (iblk V c 1 t) (fun p q => A (rowOf (outer t) p) q) (fun p q => B (rowOf (inner t) p) q)
    (iblk_0_apply V A c hA t) (iblk_1_apply V B c hB t) s S hs u m).trans ?_
  rw [chunk_ext]
  refine congrArg (fun x : ℝ => ((S m + x : ℝ) : EReal)) (Finset.sum_congr rfl fun k _ => ?_)
  rfl

include hA hB in
/-- One step of the induction: from what point `t` finds (unless it resets) to what it leaves. -/
theorem step (t : Fin cfg2.N)
    (hprev : ¬ t.val % 8 = 0 →
      (∀ (u : Fin 1) (m : Fin 1024), (stPrev V c t).1 (ix2 u m)
          = ((∑ p ∈ Finset.range (t.val % 8), chunk 1024 (ext (expL A B (rowOf (outer t) m))) p : ℝ) : EReal))
      ∧ (t.val / 8 < t.val % 8 → ∀ (u : Fin 1) (m : Fin 1024), (stPrev V c t).2 (ix2 u m)
          = ((diagL A B (rowOf (outer t) m) : ℝ) : EReal))) :
    (∀ (u : Fin 1) (m : Fin 1024), (st V c t.val t.isLt).1 (ix2 u m)
        = ((∑ p ∈ Finset.range (t.val % 8 + 1), chunk 1024 (ext (expL A B (rowOf (outer t) m))) p : ℝ) : EReal))
    ∧ (t.val / 8 ≤ t.val % 8 → ∀ (u : Fin 1) (m : Fin 1024), (st V c t.val t.isLt).2 (ix2 u m)
        = ((diagL A B (rowOf (outer t) m) : ℝ) : EReal)) := by
  refine ⟨fun u m => ?_, fun hle u m => ?_⟩
  · by_cases h0 : t.val % 8 = 0
    · have hc : c1 (grid2.coords t) := (hc1 t).mpr h0
      refine (acc_point V A B c hA hB t (k2_pay1 (F := Ideal)) (fun _ => 0) (fun u m => (congrFun k2_pay1_eq (ix2 u m)).trans (pay1_apply (ix2 u m)))
        ((st1_eq V c t).trans (by rw [if_pos hc])) u m).trans ?_
      show ((0 + chunk 1024 (ext (expL A B (rowOf (outer t) m))) (t.val % 8) : ℝ) : EReal) = _
      rw [h0]
      exact congrArg (fun x : ℝ => (x : EReal)) (run_first _)
    · have hc : ¬ c1 (grid2.coords t) := fun h => h0 ((hc1 t).mp h)
      refine (acc_point V A B c hA hB t (stPrev V c t).1
        (fun m => ∑ p ∈ Finset.range (t.val % 8), chunk 1024 (ext (expL A B (rowOf (outer t) m))) p)
        (hprev h0).1 ((st1_eq V c t).trans (by rw [if_neg hc])) u m).trans ?_
      show ((∑ p ∈ Finset.range (t.val % 8), chunk 1024 (ext (expL A B (rowOf (outer t) m))) p
        + chunk 1024 (ext (expL A B (rowOf (outer t) m))) (t.val % 8) : ℝ) : EReal) = _
      rw [← Finset.sum_range_succ]
  · by_cases heq : t.val / 8 = t.val % 8
    · have hc : c2 (grid2.coords t) := (hc2 t).mpr heq
      have hio : inner t = outer t := Fin.ext heq.symm
      rw [st2_eq V c t, if_pos hc, k2_pay5_eq]
      refine (pay5_apply (iblk V c 0 t) (iblk V c 1 t) (fun p q => A (rowOf (outer t) p) q) (fun p q => B (rowOf (inner t) p) q)
        (iblk_0_apply V A c hA t) (iblk_1_apply V B c hB t) u m).trans ?_
      rw [hio]
      rfl
    · have hlt : t.val / 8 < t.val % 8 := lt_of_le_of_ne hle heq
      have h0 : ¬ t.val % 8 = 0 := by omega
      have hc2' : ¬ c2 (grid2.coords t) := fun h => heq ((hc2 t).mp h)
      have hc1' : ¬ c1 (grid2.coords t) := fun h => h0 ((hc1 t).mp h)
      rw [st2_eq V c t, if_neg hc2', if_neg hc1']
      exact (hprev h0).2 hlt u m

/-! ## Every grid point -/

include hA hB in
/-- After point `n`: the running row holds the sums over the tiles `0, …, n % 8` of `B`, and from the diagonal tile on
    the second row holds the diagonal logits. -/
theorem rows_after : ∀ (n : ℕ) (hn : n < cfg2.N),
    (∀ (u : Fin 1) (m : Fin 1024), (st V c n hn).1 (ix2 u m)
        = ((∑ p ∈ Finset.range (n % 8 + 1), chunk 1024 (ext (expL A B (rowOf (outer ⟨n, hn⟩) m))) p : ℝ) : EReal))
    ∧ (n / 8 ≤ n % 8 → ∀ (u : Fin 1) (m : Fin 1024), (st V c n hn).2 (ix2 u m)
        = ((diagL A B (rowOf (outer ⟨n, hn⟩) m) : ℝ) : EReal)) := by
  intro n
  induction n with
  | zero =>
    intro hn
    exact step V A B c hA hB ⟨0, hn⟩ (fun h => absurd (rfl : (0 : ℕ) % 8 = 0) h)
  | succ n ih =>
    intro hn
    refine step V A B c hA hB ⟨n + 1, hn⟩ (fun h => ?_)
    have h' : ¬ (n + 1) % 8 = 0 := h
    have hn' : n < cfg2.N := Nat.lt_of_succ_lt hn
    obtain ⟨i1, i2⟩ := ih hn'
    have ho : outer ⟨n + 1, hn⟩ = outer ⟨n, hn'⟩ := Fin.ext (by show (n + 1) / 8 = n / 8; omega)
    have hr : (n + 1) % 8 = n % 8 + 1 := by omega
    refine ⟨fun u m => ?_, fun hlt u m => ?_⟩
    · show (st V c n hn').1 (ix2 u m)
        = ((∑ p ∈ Finset.range ((n + 1) % 8), chunk 1024 (ext (expL A B (rowOf (outer ⟨n + 1, hn⟩) m))) p : ℝ) : EReal)
      rw [ho, hr]
      exact i1 u m
    · have hlt' : (n + 1) / 8 < (n + 1) % 8 := hlt
      show (st V c n hn').2 (ix2 u m) = ((diagL A B (rowOf (outer ⟨n + 1, hn⟩) m) : ℝ) : EReal)
      rw [ho]
      exact i2 (by omega) u m

/-! ## From the blocks to the output row -/

include hA hB in
/-- What a point with inner coordinate `7` writes back is its block of the output row. -/
theorem written_back (t : Fin cfg2.N) (hf : (cfg2.win 2).flush t = true) :
    (dat V c).flushed 2 t = ((cfg2.win 2).blk t).view.read (Elt Ideal) (rowTerms A B) := by
  have h7 : t.val % 8 = 7 := (flush2_2 t).mp hf
  have hN : cfg2.N = 64 := N_2
  have hlt : t.val < cfg2.N := t.isLt
  obtain ⟨-, -, -, -, e4, e5⟩ := block_of_point t
  obtain ⟨i1, i2⟩ := rows_after V A B c hA hB t.val t.isLt
  show (cfg2.win 2).cut (grid2.coords t) ((dat V c).after 2 t) = _
  rw [after_2]
  funext j
  obtain ⟨u, m, rfl⟩ : ∃ (u : Fin 1) (m : Fin 1024), j = ix2 u m := ⟨j 0, j 1, eq_ix2 (n0 := 1) (n1 := 1024) j⟩
  show k2_pay6 (F := Ideal) (st V c t.val t.isLt).1 (st V c t.val t.isLt).2 (ix2 u m)
    = rowTerms A B (((cfg2.win 2).blk t).view.emb (ix2 u m))
  rw [k2_pay6_eq]
  have ha : ∀ (u : Fin 1) (m : Fin 1024), (st V c t.val t.isLt).1 (ix2 u m)
      = ((∑ i : Fin 8192, expL A B (rowOf (outer t) m) i : ℝ) : EReal) := fun u m => by
    have := i1 u m
    rw [h7] at this
    rw [this, sum_all]
  have hP : 0 < ∑ i : Fin 8192, expL A B (rowOf (outer t) m) i := sum_rows_pos _ (expL_pos A B _)
  refine (pay6_apply (st V c t.val t.isLt).1 (st V c t.val t.isLt).2
    (fun m => ∑ i : Fin 8192, expL A B (rowOf (outer t) m) i) (fun m => diagL A B (rowOf (outer t) m))
    ha (i2 (by omega)) u m hP).trans ?_
  have h1 : ((((cfg2.win 2).blk t).view.emb (ix2 u m)) 1 : Fin 8192) = rowOf (outer t) m := Fin.ext (by
    show win2_2.index t (1 : Fin 2) * 1024 + 1 * m.val = 1024 * (t.val / 8) + m.val
    rw [e5]; omega)
  unfold rowTerms
  show _ = ((Real.log (∑ k : Fin 8192, Real.exp ((∑ d, B k d * A ((((cfg2.win 2).blk t).view.emb (ix2 u m)) 1) d) * Spec.invT))
    - (∑ d, B ((((cfg2.win 2).blk t).view.emb (ix2 u m)) 1) d * A ((((cfg2.win 2).blk t).view.emb (ix2 u m)) 1) d) * Spec.invT : ℝ) : EReal)
  rw [h1]
  exact congrArg (fun x : ℝ => ((Real.log x - diagL A B (rowOf (outer t) m) : ℝ) : EReal))
    (Finset.sum_congr rfl fun k _ => rfl)

/-- Column `j` of the output row lies in the block of the point `(j / 1024, 7)`: the eight blocks cover the row. -/
theorem blocks_cover (i : S1x8192.Idx) :
    ∃ t : Fin cfg2.N, (cfg2.win 2).flush t = true ∧ i ∈ ((cfg2.win 2).blk t).view.set := by
  have hN : cfg2.N = 64 := N_2
  have hi0 : (i 0).val < 1 := (i 0).isLt
  have hi1 : (i 1).val < 8192 := (i 1).isLt
  obtain ⟨t, ht⟩ : ∃ t : Fin cfg2.N, t.val = 8 * ((i 1).val / 1024) + 7 :=
    ⟨⟨8 * ((i 1).val / 1024) + 7, by omega⟩, rfl⟩
  obtain ⟨-, -, -, -, e4, e5⟩ := block_of_point t
  refine ⟨t, (flush2_2 t).mpr (by omega), ?_⟩
  show i ∈ ((View.whole main_v2).slice (win2_2.rect t)).set
  rw [View.set_slice_whole, Rect.mem_set_unit]
  intro a
  match a with
  | ⟨0, _⟩ =>
    show win2_2.index t (0 : Fin 2) * 1 ≤ (i 0).val ∧ (i 0).val < win2_2.index t (0 : Fin 2) * 1 + 1
    rw [e4]; omega
  | ⟨1, _⟩ =>
    show win2_2.index t (1 : Fin 2) * 1024 ≤ (i 1).val ∧ (i 1).val < win2_2.index t (1 : Fin 2) * 1024 + 1024
    rw [e5, ht]; omega

include hA hB in
/-- The output row after the region. -/
theorem arr2_eq_rowTerms : ((dat V c).arrAt 2 cfg2.N : S1x8192.Idx → EReal) = rowTerms A B :=
  (dat V c).arrAt_eq_of_cover 2 (rowTerms A B) (fun t hf => written_back V A B c hA hB t hf) blocks_cover

end Grid

section Statement
variable (V : (c : Dev nD) → (b : Ref sig .tc) → Buf (Elt Ideal) ((c : Thread nD τ).loc b))

/-- The output row after the region, spelt out: at column `j` the logarithm of the sum over all rows `k` of `B` of the
    exponentials of the logits against row `j` of `A`, less the logit of row `j` against row `j`. -/
theorem arr2_eq (A B : Fin 8192 → Fin 1024 → ℝ) (c : Dev nD)
    (hA : (V c (Pipeline.arrRef spec2 0) : S8192x1024.Idx → EReal) = Spec.arr A)
    (hB : (V c (Pipeline.arrRef spec2 1) : S8192x1024.Idx → EReal) = Spec.arr B) :
    ((dat V c).arrAt 2 cfg2.N : S1x8192.Idx → EReal)
      = fun j => ((Real.log (∑ k : Fin 8192, Real.exp ((∑ d, B k d * A (j 1) d) * Spec.invT))
          - (∑ d, B (j 1) d * A (j 1) d) * Spec.invT : ℝ) : EReal) :=
  arr2_eq_rowTerms V A B c hA hB

/-- The same, with the two operand arrays named. -/
theorem arr2_eq_refs (A B : Fin 8192 → Fin 1024 → ℝ) (c : Dev nD)
    (hA : (V c main_v0_1 : S8192x1024.Idx → EReal) = Spec.arr A)
    (hB : (V c main_v0_0 : S8192x1024.Idx → EReal) = Spec.arr B) :
    ((dat V c).arrAt 2 cfg2.N : S1x8192.Idx → EReal)
      = fun j => ((Real.log (∑ k : Fin 8192, Real.exp ((∑ d, B k d * A (j 1) d) * Spec.invT))
          - (∑ d, B (j 1) d * A (j 1) d) * Spec.invT : ℝ) : EReal) :=
  arr2_eq_rowTerms V A B c hA hB

end Statement

end Cert.KernelIdeal.Hand2V

end
-- ==== Proof.HostTail.lean ====
/-
  The host operations that follow the three regions, at the exact (extended-real) reading: each of the two output
  rows is summed over its 8192 entries and divided by 8192, the two means are added and the sum is halved.  For rows
  of reals every step is the real one: a finite sum of reals, a quotient by a nonzero real, a sum of two reals.
-/
import proofs.«134093_j6932077215890_1_alg».proof.Proof.Gen.KernelIdeal
import proofs.«134093_j6932077215890_1_alg».proof.Proof.Consts
import proofs.«134093_j6932077215890_1_alg».proof.Proof.LibLogSumExp
import Idealize.ShloMosaic.PureOps.Ideal.Laws
import Idealize.ShloMosaic.Lib.ValueIdx

noncomputable section

open scoped BigOperators

open Idealize.ShloMosaic Idealize.ShloMosaic.ValueIdx

namespace Cert.KernelIdeal.HandTail

open Cert.KernelIdeal Cert.KernelIdeal.Gen

/-- The host tail: the half-sum of the means of the two rows. -/
def tail (v1 v2 : FVec Ideal S1x8192 .f32) : FVec Ideal S_ .f32 :=
  Host.divf (F := Ideal)
    (addf
      (Host.divf (F := Ideal)
        (Host.reduceAdd (F := Ideal) v1 (constant (F := Ideal) S_ .f32 0x00000000#32) reducesTo_S1x8192_S_d0_1 h_S_)
        (constant (F := Ideal) S_ .f32 0x46000000#32))
      (Host.divf (F := Ideal)
        (Host.reduceAdd (F := Ideal) v2 (constant (F := Ideal) S_ .f32 0x00000000#32) reducesTo_S1x8192_S_d0_1 h_S_)
        (constant (F := Ideal) S_ .f32 0x46000000#32)))
    (constant (F := Ideal) S_ .f32 0x40000000#32)

/-- The sum of a row of reals over its index set is the real sum over its 8192 columns. -/
theorem sum_row (P : Fin 8192 → ℝ) :
    ∑ i : S1x8192.Idx, ((P (i 1) : ℝ) : EReal) = ((∑ k, P k : ℝ) : EReal) := by
  rw [sum_idx2 (n0 := 1) (n1 := 8192), Fin.sum_univ_one, LogSumExp.coe_finset_sum]

/-- The host's sum of a row of reals from the zero word. -/
theorem reduce_row (P : Fin 8192 → ℝ) :
    Host.reduceAdd (F := Ideal) (fun j : S1x8192.Idx => ((P (j 1) : ℝ) : EReal))
        (constant (F := Ideal) S_ .f32 0x00000000#32) reducesTo_S1x8192_S_d0_1 h_S_
      = fun _ => ((∑ k, P k : ℝ) : EReal) := by
  funext j
  show Ideal.hostReduceAdd reducesTo_S1x8192_S_d0_1 (fun j : S1x8192.Idx => ((P (j 1) : ℝ) : EReal))
    (Ideal.ofBits .f32 0x00000000#32) j = _
  rw [Ideal.hostReduceAdd_total _ (fun b => b.elim0), Ideal.ofBits_zero_f32, zero_add]
  exact sum_row P

/-- The tail of two rows of reals: the half-sum of their means. -/
theorem tail_eq (P Q : Fin 8192 → ℝ) (v1 v2 : FVec Ideal S1x8192 .f32)
    (h1 : v1 = fun j => ((P (j 1) : ℝ) : EReal)) (h2 : v2 = fun j => ((Q (j 1) : ℝ) : EReal)) :
    tail v1 v2 = fun _ => ((((∑ i, P i) / 8192 + (∑ j, Q j) / 8192) / 2 : ℝ) : EReal) := by
  subst h1 h2
  unfold tail
  rw [reduce_row P, reduce_row Q]
  funext j
  show Ideal.div (Ideal.div ((∑ k, P k : ℝ) : EReal) (Ideal.ofBits .f32 0x46000000#32)
      + Ideal.div ((∑ k, Q k : ℝ) : EReal) (Ideal.ofBits .f32 0x46000000#32)) (Ideal.ofBits .f32 0x40000000#32) = _
  rw [Consts.ofBits_8192, Consts.ofBits_2, LogSumExp.div_coe_coe _ (by norm_num : (8192 : ℝ) ≠ 0),
    LogSumExp.div_coe_coe _ (by norm_num : (8192 : ℝ) ≠ 0), ← EReal.coe_add,
    LogSumExp.div_coe_coe _ (by norm_num : (2 : ℝ) ≠ 0)]

end Cert.KernelIdeal.HandTail

end
-- ==== Proof.LossForms.lean ====
/-
  The two regions' row vectors, as the accumulation computes them, are the specification's row and column terms:
  the accumulation of region 1 pairs text row `k` with image row `i` as `⟨ŷ_k, x̂_i⟩`, the specification as
  `⟨x̂_i, ŷ_k⟩` — the inner product is symmetric —, and region 2's pairing is the specification's own.
-/
import proofs.«134093_j6932077215890_1_alg».proof.Proof.Spec

noncomputable section

namespace Cert.Spec

variable (ε : ℝ) (X Y : Fin 8192 → Fin 1024 → ℝ)

/-- The inner product of two rows does not depend on the order of the factors. -/
theorem dot_comm (i k : Fin 8192) :
    (∑ d, unit ε Y k d * unit ε X i d) = ∑ d, unit ε X i d * unit ε Y k d :=
  Finset.sum_congr rfl fun d _ => mul_comm _ _

/-- Region 1's entry `i`: the log-sum-exp of image row `i` against every text row, less the diagonal. -/
theorem rowTerm_eq (i : Fin 8192) :
    Real.log (∑ k : Fin 8192, Real.exp ((∑ d, unit ε Y k d * unit ε X i d) * invT))
        - (∑ d, unit ε Y i d * unit ε X i d) * invT = rowTerm ε X Y i := by
  unfold rowTerm logit
  rw [dot_comm ε X Y i i]
  refine congrArg (fun s => Real.log s - (∑ d, unit ε X i d * unit ε Y i d) * invT) ?_
  exact Finset.sum_congr rfl fun k _ => by rw [dot_comm ε X Y i k]

/-- Region 2's entry `j`: the log-sum-exp of text row `j` against every image row, less the diagonal. -/
theorem colTerm_eq (j : Fin 8192) :
    Real.log (∑ k : Fin 8192, Real.exp ((∑ d, unit ε X k d * unit ε Y j d) * invT))
        - (∑ d, unit ε X j d * unit ε Y j d) * invT = colTerm ε X Y j := by
  unfold colTerm logit
  rfl

end Cert.Spec

end
-- ==== Proof.KernelValue.lean ====
/-
  What the kernel program leaves in its result buffer, for real input matrices: the specification's loss.

  Region 0 leaves the two matrices with their rows scaled to clamped unit length; region 1 pairs every image row
  with all text rows and leaves, per image row, the log-sum-exp less the diagonal — the specification's row term —,
  region 2 does the same with the roles exchanged — the column term —; the host stretch takes the two means and
  halves their sum.
-/
import proofs.«134093_j6932077215890_1_alg».proof.Proof.RunIdeal
import proofs.«134093_j6932077215890_1_alg».proof.Proof.Region0Value
import proofs.«134093_j6932077215890_1_alg».proof.Proof.Region1Value
import proofs.«134093_j6932077215890_1_alg».proof.Proof.Region2Value
import proofs.«134093_j6932077215890_1_alg».proof.Proof.HostTail
import proofs.«134093_j6932077215890_1_alg».proof.Proof.LossForms

noncomputable section

namespace Cert.KernelIdeal.HandValue

open Cert.KernelIdeal Cert.KernelIdeal.Gen Cert.KernelIdeal.HandRun
open Idealize.ShloMosaic Idealize.ShloMosaic.TcCoe Idealize.SL.Sem

variable (m : (ℓ : Loc nD τ sig) → Buf (Elt Ideal) ℓ) (ρ : Dev nD → PrngReg)
variable (X Y : Fin 8192 → Fin 1024 → ℝ) (c : Dev nD)
variable (h0 : m ((c.tc : Thread nD τ).loc main_arg0) = Cert.Spec.arr X)
variable (h1 : m ((c.tc : Thread nD τ).loc main_arg1) = Cert.Spec.arr Y)

include h0 in
/-- After region 0 the first scaled matrix is the image matrix with unit rows. -/
theorem v00 : (V1 m ρ c main_v0_0 : S8192x1024.Idx → EReal) = Cert.Spec.arr (Cert.Spec.unit Cert.Consts.eps X) :=
  (W1_main_v0_0 m ρ c).trans (Cert.KernelIdeal.Hand0.arr2_eq (V0 m ρ) X c h0)

include h1 in
/-- And the second the text matrix with unit rows. -/
theorem v01 : (V1 m ρ c main_v0_1 : S8192x1024.Idx → EReal) = Cert.Spec.arr (Cert.Spec.unit Cert.Consts.eps Y) :=
  (W1_main_v0_1 m ρ c).trans (Cert.KernelIdeal.Hand0.arr3_eq (V0 m ρ) Y c h1)

include h0 h1 in
/-- Region 1's row vector: entry `j` is the specification's row term of image row `j`. -/
theorem v1 : (W3 m ρ c (Proc.devRef .tc main_v1) : S1x8192.Idx → EReal)
    = fun j => ((Cert.Spec.rowTerm Cert.Consts.eps X Y (j 1) : ℝ) : EReal) := by
  rw [W3_main_v1 m ρ c,
    Cert.KernelIdeal.Hand1V.arr2_eq_refs (V1 m ρ) (Cert.Spec.unit Cert.Consts.eps X) (Cert.Spec.unit Cert.Consts.eps Y) c
      (v00 m ρ X c h0) (v01 m ρ Y c h1)]
  funext j
  exact congrArg Real.toEReal (Cert.Spec.rowTerm_eq Cert.Consts.eps X Y (j 1))

include h0 in
/-- Region 1 only reads the two scaled matrices: region 2 finds them as region 0 left them. -/
theorem v00' : (V2 m ρ c main_v0_0 : S8192x1024.Idx → EReal) = Cert.Spec.arr (Cert.Spec.unit Cert.Consts.eps X) :=
  ((W2_arr m ρ c 0).trans (((Cert.KernelIdeal.Hand1.dat (V1 m ρ) c).arrAt_in 0 rfl _).trans
    (Cert.KernelIdeal.Hand1.A_eq (V1 m ρ) c 0))).trans (v00 m ρ X c h0)

include h1 in
theorem v01' : (V2 m ρ c main_v0_1 : S8192x1024.Idx → EReal) = Cert.Spec.arr (Cert.Spec.unit Cert.Consts.eps Y) :=
  ((W2_arr m ρ c 1).trans (((Cert.KernelIdeal.Hand1.dat (V1 m ρ) c).arrAt_in 1 rfl _).trans
    (Cert.KernelIdeal.Hand1.A_eq (V1 m ρ) c 1))).trans (v01 m ρ Y c h1)

include h0 h1 in
/-- Region 2's row vector: entry `j` is the specification's column term of text row `j`. -/
theorem v2 : (W3 m ρ c (Proc.devRef .tc main_v2) : S1x8192.Idx → EReal)
    = fun j => ((Cert.Spec.colTerm Cert.Consts.eps X Y (j 1) : ℝ) : EReal) := by
  rw [W3_main_v2 m ρ c,
    Cert.KernelIdeal.Hand2V.arr2_eq_refs (V2 m ρ) (Cert.Spec.unit Cert.Consts.eps Y) (Cert.Spec.unit Cert.Consts.eps X) c
      (v01' m ρ Y c h1) (v00' m ρ X c h0)]
  funext j
  exact congrArg Real.toEReal (Cert.Spec.colTerm_eq Cert.Consts.eps X Y (j 1))

include h0 h1 in
/-- The result buffer at the return: the host stretch's half-sum of the two means of the regions' row vectors is the
    specification's loss. -/
theorem result_eq : W4 m ρ c (Proc.devRef .tc main_v8) = fun _ => ((Cert.Spec.loss Cert.Consts.eps X Y : ℝ) : EReal) := by
  rw [W4_main_v8 m ρ c]
  show Cert.KernelIdeal.HandTail.tail (W3 m ρ c (Proc.devRef .tc main_v1)) (W3 m ρ c (Proc.devRef .tc main_v2)) = _
  rw [Cert.KernelIdeal.HandTail.tail_eq (fun i => Cert.Spec.rowTerm Cert.Consts.eps X Y i) (fun j => Cert.Spec.colTerm Cert.Consts.eps X Y j)
    _ _ (v1 m ρ X Y c h0 h1) (v2 m ρ X Y c h0 h1)]
  unfold Cert.Spec.loss
  rfl

end Cert.KernelIdeal.HandValue
end
-- ==== Proof.RefRun.lean ====
/-
  The reference program's run.

  The reference's @main is a straight line of 105 host operations.  Every weakly fair execution of it from a memory
  with zero counters terminates with the result buffer at the operations' composed term of the two arguments, and
  the two arguments unchanged.  The composed term is stated over named intermediates: the rows scaled to clamped unit
  length, the logits, the row-wise log-softmax (used twice, the second time on the transposed logits), the index
  columns of the diagonal, the negated mean of the gathered diagonal, and the half-sum of the two means.  The
  operation list is cut into seven consecutive stretches, each computing one or two of these intermediates from the
  buffers the stretches before it left; each stretch is read from an arbitrary valuation of the buffers, a value
  carried through a typed reference's buffer type and back being unchanged, and the stretches are composed in order.
-/
import proofs.«134093_j6932077215890_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 105 operations, in order (a called function's operations stand in its call's place, spelt `TRef.…`). -/
abbrev ops : List (HloOp τ sig (Elt F)) :=
  [ binary main_arg0 main_arg0 main_v0 (mulf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x00000000#32),
    binary main_v0 main_cst main_v1 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v2 main_v3 (Host.sqrt : (⟨S8192x1, .f32⟩ : BufTy).Contents (Elt F) → (⟨S8192x1, .f32⟩ : BufTy).Contents (Elt F)),
    nullary main_cst_0 (constant S_ .f32 0x322BCC77#32),
    unary main_cst_0 main_v4 (broadcastInDim S8192x1 ![] bcast_S_S8192x1 : (⟨S_, .f32⟩ : BufTy).Contents (Elt F) → (⟨S8192x1, .f32⟩ : BufTy).Contents (Elt F)),
    binary main_v3 main_v4 main_v5 (maximumf : (⟨S8192x1, .f32⟩ : BufTy).Contents (Elt F) → (⟨S8192x1, .f32⟩ : BufTy).Contents (Elt F) → (⟨S8192x1, .f32⟩ : BufTy).Contents (Elt F)),
    unary main_v5 main_v6 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v6 main_v7 (Host.divf : (⟨S8192x1024, .f32⟩ : BufTy).Contents (Elt F) → (⟨S8192x1024, .f32⟩ : BufTy).Contents (Elt F) → (⟨S8192x1024, .f32⟩ : BufTy).Contents (Elt F)),
    binary main_arg1 main_arg1 main_v8 (mulf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x00000000#32),
    binary main_v8 main_cst_1 main_v9 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v9 main_v10 (broadcastInDim S8192x1 ![0] bcast_S8192_S8192x1_0 : (⟨S8192, .f32⟩ : BufTy).Contents (Elt F) → (⟨S8192x1, .f32⟩ : BufTy).Contents (Elt F)),
    unary main_v10 main_v11 (Host.sqrt : (⟨S8192x1, .f32⟩ : BufTy).Contents (Elt F) → (⟨S8192x1, .f32⟩ : BufTy).Contents (Elt F)),
    nullary main_cst_2 (constant S_ .f32 0x322BCC77#32),
    unary main_cst_2 main_v12 (broadcastInDim S8192x1 ![] bcast_S_S8192x1 : (⟨S_, .f32⟩ : BufTy).Contents (Elt F) → (⟨S8192x1, .f32⟩ : BufTy).Contents (Elt F)),
    binary main_v11 main_v12 main_v13 (maximumf : (⟨S8192x1, .f32⟩ : BufTy).Contents (Elt F) → (⟨S8192x1, .f32⟩ : BufTy).Contents (Elt F) → (⟨S8192x1, .f32⟩ : BufTy).Contents (Elt F)),
    unary main_v13 main_v14 (broadcastInDim S8192x1024 ![0, 1] bcast_S8192x1_S8192x1024_0_1 : (⟨S8192x1, .f32⟩ : BufTy).Contents (Elt F) → (⟨S8192x1024, .f32⟩ : BufTy).Contents (Elt F)),
    binary main_arg1 main_v14 main_v15 (Host.divf : (⟨S8192x1024, .f32⟩ : BufTy).Contents (Elt F) → (⟨S8192x1024, .f32⟩ : BufTy).Contents (Elt F) → (⟨S8192x1024, .f32⟩ : BufTy).Contents (Elt F)),
    binary main_v7 main_v15 main_v16 ((fun l r => Host.dotGeneral dot_S8192x1024_S8192x1024_S8192x8192_1_1_0_0_n_n none l r) : (⟨S8192x1024, .f32⟩ : BufTy).Contents (Elt F) → (⟨S8192x1024, .f32⟩ : BufTy).Contents (Elt F) → (⟨S8192x8192, .f32⟩ : BufTy).Contents (Elt F)),
    nullary main_cst_3 (constant S_ .f32 0x3D8F5C29#32),
    unary main_cst_3 main_v17 (broadcastInDim S8192x8192 ![] bcast_S_S8192x8192 : (⟨S_, .f32⟩ : BufTy).Contents (Elt F) → (⟨S8192x8192, .f32⟩ : BufTy).Contents (Elt F)),
    binary main_v16 main_v17 main_v18 (Host.divf : (⟨S8192x8192, .f32⟩ : BufTy).Contents (Elt F) → (⟨S8192x8192, .f32⟩ : BufTy).Contents (Elt F) → (⟨S8192x8192, .f32⟩ : BufTy).Contents (Elt F)),
    nullary main_v19 (iotaInDim S8192 32 0),
    TRef.nullary (TRef.of (T := ⟨S_, .f32⟩) main_call0_cst) (constant S_ .f32 0xFF800000#32),
    TRef.binary (TRef.of (T := ⟨S8192x8192, .f32⟩) main_v18) (TRef.of (T := ⟨S_, .f32⟩) main_call0_cst) (TRef.of (T := ⟨S8192, .f32⟩) main_call0_v0) (fun x v => Host.reduce FloatOps.maximumf x v reducesTo_S8192x8192_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x8192, .f32⟩) main_call0_v4) (broadcastInDim S8192x8192 ![0, 1] bcast_S8192x1_S8192x8192_0_1),
    TRef.binary (TRef.of (T := ⟨S8192x8192, .f32⟩) main_v18) (TRef.of (T := ⟨S8192x8192, .f32⟩) main_call0_v4) (TRef.of (T := ⟨S8192x8192, .f32⟩) main_call0_v5) subf,
    TRef.unary (TRef.of (T := ⟨S8192x8192, .f32⟩) main_call0_v5) (TRef.of (T := ⟨S8192x8192, .f32⟩) main_call0_v6) Host.exp,
    TRef.nullary (TRef.of (T := ⟨S_, .f32⟩) main_call0_cst_1) (constant S_ .f32 0x00000000#32),
    TRef.binary (TRef.of (T := ⟨S8192x8192, .f32⟩) main_call0_v6) (TRef.of (T := ⟨S_, .f32⟩) main_call0_cst_1) (TRef.of (T := ⟨S8192, .f32⟩) main_call0_v7) (fun x v => Host.reduceAdd x v reducesTo_S8192x8192_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x8192, .f32⟩) main_call0_v10) (broadcastInDim S8192x8192 ![0, 1] bcast_S8192x1_S8192x8192_0_1),
    TRef.binary (TRef.of (T := ⟨S8192x8192, .f32⟩) main_call0_v5) (TRef.of (T := ⟨S8192x8192, .f32⟩) main_call0_v10) (TRef.of (T := ⟨S8192x8192, .f32⟩) main_v20) subf,
    unary main_v18 main_v21 ((transpose S8192x8192 [1, 0] · transposes_S8192x8192_S8192x8192_1_0) : (⟨S8192x8192, .f32⟩ : BufTy).Contents (Elt F) → (⟨S8192x8192, .f32⟩ : BufTy).Contents (Elt F)),
    TRef.nullary (TRef.of (T := ⟨S_, .f32⟩) main_call1_cst) (constant S_ .f32 0xFF800000#32),
    TRef.binary (TRef.of (T := ⟨S8192x8192, .f32⟩) main_v21) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v21) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v22) subf,
    nullary main_c (constantI S_ 32 0#32),
    unary main_c main_v23 (broadcastInDim S8192 ![] bcast_S_S8192 : (⟨S_, .i32⟩ : BufTy).Contents (Elt F) → (⟨S8192, .i32⟩ : BufTy).Contents (Elt F)),
    binary main_v19 main_v23 main_v24 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v25 (broadcastInDim S8192 ![] bcast_S_S8192 : (⟨S_, .i32⟩ : BufTy).Contents (Elt F) → (⟨S8192, .i32⟩ : BufTy).Contents (Elt F)),
    binary main_v19 main_v25 main_v26 (addi : (⟨S8192, .i32⟩ : BufTy).Contents (Elt F) → (⟨S8192, .i32⟩ : BufTy).Contents (Elt F) → (⟨S8192, .i32⟩ : BufTy).Contents (Elt F)),
    ternary main_v24 main_v26 main_v19 main_v27 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_5 (constantI S_ 32 0#32),
    unary main_c_5 main_v28 (broadcastInDim S8192 ![] bcast_S_S8192 : (⟨S_, .i32⟩ : BufTy).Contents (Elt F) → (⟨S8192, .i32⟩ : BufTy).Contents (Elt F)),
    binary main_v19 main_v28 main_v29 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v30 (broadcastInDim S8192 ![] bcast_S_S8192 : (⟨S_, .i32⟩ : BufTy).Contents (Elt F) → (⟨S8192, .i32⟩ : BufTy).Contents (Elt F)),
    binary main_v19 main_v30 main_v31 (addi : (⟨S8192, .i32⟩ : BufTy).Contents (Elt F) → (⟨S8192, .i32⟩ : BufTy).Contents (Elt F) → (⟨S8192, .i32⟩ : BufTy).Contents (Elt F)),
    ternary main_v29 main_v31 main_v19 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v27 main_v33 (broadcastInDim S8192x1 ![0] bcast_S8192_S8192x1_0 : (⟨S8192, .i32⟩ : BufTy).Contents (Elt F) → (⟨S8192x1, .i32⟩ : BufTy).Contents (Elt F)),
    unary main_v32 main_v34 (broadcastInDim S8192x1 ![0] bcast_S8192_S8192x1_0 : (⟨S8192, .i32⟩ : BufTy).Contents (Elt F) → (⟨S8192x1, .i32⟩ : BufTy).Contents (Elt F)),
    binary main_v33 main_v34 main_v35 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v20 main_v35 main_v36 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_7 (constant S_ .f32 0x00000000#32),
    binary main_v36 main_cst_7 main_v37 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x46000000#32),
    binary main_v37 main_cst_8 main_v38 (Host.divf : (⟨S_, .f32⟩ : BufTy).Contents (Elt F) → (⟨S_, .f32⟩ : BufTy).Contents (Elt F) → (⟨S_, .f32⟩ : BufTy).Contents (Elt F)),
    unary main_v38 main_v39 (Host.negf : (⟨S_, .f32⟩ : BufTy).Contents (Elt F) → (⟨S_, .f32⟩ : BufTy).Contents (Elt F)),
    nullary main_c_9 (constantI S_ 32 0#32),
    unary main_c_9 main_v40 (broadcastInDim S8192 ![] bcast_S_S8192 : (⟨S_, .i32⟩ : BufTy).Contents (Elt F) → (⟨S8192, .i32⟩ : BufTy).Contents (Elt F)),
    binary main_v19 main_v40 main_v41 (cmpi .slt : (⟨S8192, .i32⟩ : BufTy).Contents (Elt F) → (⟨S8192, .i32⟩ : BufTy).Contents (Elt F) → (⟨S8192, .i1⟩ : BufTy).Contents (Elt F)),
    nullary main_c_10 (constantI S_ 32 8192#32),
    unary main_c_10 main_v42 (broadcastInDim S8192 ![] bcast_S_S8192 : (⟨S_, .i32⟩ : BufTy).Contents (Elt F) → (⟨S8192, .i32⟩ : BufTy).Contents (Elt F)),
    binary main_v19 main_v42 main_v43 (addi : (⟨S8192, .i32⟩ : BufTy).Contents (Elt F) → (⟨S8192, .i32⟩ : BufTy).Contents (Elt F) → (⟨S8192, .i32⟩ : BufTy).Contents (Elt F)),
    ternary main_v41 main_v43 main_v19 main_v44 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_11 (constantI S_ 32 0#32),
    unary main_c_11 main_v45 (broadcastInDim S8192 ![] bcast_S_S8192 : (⟨S_, .i32⟩ : BufTy).Contents (Elt F) → (⟨S8192, .i32⟩ : BufTy).Contents (Elt F)),
    binary main_v19 main_v45 main_v46 (cmpi .slt : (⟨S8192, .i32⟩ : BufTy).Contents (Elt F) → (⟨S8192, .i32⟩ : BufTy).Contents (Elt F) → (⟨S8192, .i1⟩ : BufTy).Contents (Elt F)),
    nullary main_c_12 (constantI S_ 32 8192#32),
    unary main_c_12 main_v47 (broadcastInDim S8192 ![] bcast_S_S8192 : (⟨S_, .i32⟩ : BufTy).Contents (Elt F) → (⟨S8192, .i32⟩ : BufTy).Contents (Elt F)),
    binary main_v19 main_v47 main_v48 (addi : (⟨S8192, .i32⟩ : BufTy).Contents (Elt F) → (⟨S8192, .i32⟩ : BufTy).Contents (Elt F) → (⟨S8192, .i32⟩ : BufTy).Contents (Elt F)),
    ternary main_v46 main_v48 main_v19 main_v49 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v44 main_v50 (broadcastInDim S8192x1 ![0] bcast_S8192_S8192x1_0 : (⟨S8192, .i32⟩ : BufTy).Contents (Elt F) → (⟨S8192x1, .i32⟩ : BufTy).Contents (Elt F)),
    unary main_v49 main_v51 (broadcastInDim S8192x1 ![0] bcast_S8192_S8192x1_0 : (⟨S8192, .i32⟩ : BufTy).Contents (Elt F) → (⟨S8192x1, .i32⟩ : BufTy).Contents (Elt F)),
    binary main_v50 main_v51 main_v52 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v22 main_v52 main_v53 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_13 (constant S_ .f32 0x00000000#32),
    binary main_v53 main_cst_13 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_14 (constant S_ .f32 0x46000000#32),
    binary main_v54 main_cst_14 main_v55 (Host.divf : (⟨S_, .f32⟩ : BufTy).Contents (Elt F) → (⟨S_, .f32⟩ : BufTy).Contents (Elt F) → (⟨S_, .f32⟩ : BufTy).Contents (Elt F)),
    unary main_v55 main_v56 (Host.negf : (⟨S_, .f32⟩ : BufTy).Contents (Elt F) → (⟨S_, .f32⟩ : BufTy).Contents (Elt F)),
    binary main_v39 main_v56 main_v57 (addf : (⟨S_, .f32⟩ : BufTy).Contents (Elt F) → (⟨S_, .f32⟩ : BufTy).Contents (Elt F) → (⟨S_, .f32⟩ : BufTy).Contents (Elt F)),
    nullary main_cst_15 (constant S_ .f32 0x40000000#32),
    binary main_v57 main_cst_15 main_v58 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., binary_bufs_sub .., nullary_bufs_sub .., binary_bufs_sub .., unary_bufs_sub .., binary_bufs_sub .., nullary_bufs_sub .., binary_bufs_sub ..⟩

/-! ## The result over named intermediates -/

/-- The rows of a matrix scaled to unit Euclidean length, the length clamped below. -/
def normRows (x : (⟨S8192x1024, .f32⟩ : BufTy).Contents (Elt F)) : (⟨S8192x1024, .f32⟩ : BufTy).Contents (Elt F) :=
  Host.divf x (broadcastInDim S8192x1024 ![0, 1] bcast_S8192x1_S8192x1024_0_1 (maximumf (Host.sqrt (broadcastInDim S8192x1 ![0] bcast_S8192_S8192x1_0 (Host.reduceAdd (mulf x x) (constant S_ .f32 0x00000000#32) reducesTo_S8192x1024_S8192_d1 h_S_))) (broadcastInDim S8192x1 ![] bcast_S_S8192x1 (constant S_ .f32 0x322BCC77#32))))

/-- The logits: the inner products of the scaled rows, divided by the temperature. -/
def logits (x0 x1 : (⟨S8192x1024, .f32⟩ : BufTy).Contents (Elt F)) : (⟨S8192x8192, .f32⟩ : BufTy).Contents (Elt F) :=
  Host.divf (Host.dotGeneral dot_S8192x1024_S8192x1024_S8192x8192_1_1_0_0_n_n none (normRows x0) (normRows x1)) (broadcastInDim S8192x8192 ![] bcast_S_S8192x8192 (constant S_ .f32 0x3D8F5C29#32))

/-- A matrix less, in each row, the row's maximum. -/
def shifted (L : (⟨S8192x8192, .f32⟩ : BufTy).Contents (Elt F)) : (⟨S8192x8192, .f32⟩ : BufTy).Contents (Elt F) :=
  subf L (broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) (Host.reduce FloatOps.maximumf L (constant S_ .f32 0xFF800000#32) reducesTo_S8192x8192_S8192_d1 h_S_))))

/-- The row-wise log-softmax: the shifted matrix less, in each row, the logarithm of the sum of its exponentials. -/
def logSoftmax (L : (⟨S8192x8192, .f32⟩ : BufTy).Contents (Elt F)) : (⟨S8192x8192, .f32⟩ : BufTy).Contents (Elt F) :=
  subf (shifted L) (broadcastInDim S8192x8192 ![0, 1] bcast_S8192x1_S8192x8192_0_1 (Host.log (broadcastInDim S8192x1 ![0] bcast_S8192_S8192x1_0 (Host.reduceAdd (Host.exp (shifted L)) (constant S_ .f32 0x00000000#32) reducesTo_S8192x8192_S8192_d1 h_S_))))

/-- An index column: the row numbers, a negative one wrapped around by the extent. -/
def wrapCol (io : (⟨S8192, .i32⟩ : BufTy).Contents (Elt F)) : (⟨S8192x1, .i32⟩ : BufTy).Contents (Elt F) :=
  broadcastInDim S8192x1 ![0] bcast_S8192_S8192x1_0 (select (cmpi .slt io (broadcastInDim S8192 ![] bcast_S_S8192 (constantI S_ 32 0#32))) (addi io (broadcastInDim S8192 ![] bcast_S_S8192 (constantI S_ 32 8192#32))) io)

/-- Two index columns joined into index pairs. -/
def diagIdx (a b : (⟨S8192x1, .i32⟩ : BufTy).Contents (Elt F)) : (⟨S8192x2, .i32⟩ : BufTy).Contents (Elt F) :=
  concatenate S8192x2 1 [⟨S8192x1, a⟩, ⟨S8192x1, b⟩] concatenates_S8192x1_S8192x1_S8192x2_d1

/-- The negated mean of the entries of a matrix at the index pairs. -/
def negMeanDiag (P : (⟨S8192x8192, .f32⟩ : BufTy).Contents (Elt F)) (a b : (⟨S8192x1, .i32⟩ : BufTy).Contents (Elt F)) : (⟨S_, .f32⟩ : BufTy).Contents (Elt F) :=
  Host.negf (Host.divf (Host.reduceAdd (Host.gather gather_S8192x8192_S8192x2_S8192_n_01_n_n_01_1_11 P (diagIdx a b)) (constant S_ .f32 0x00000000#32) reducesTo_S8192_S_d0 h_S_) (constant S_ .f32 0x46000000#32))

/-- The whole result as a function of the two arguments. -/
def resOf (x0 x1 : (⟨S8192x1024, .f32⟩ : BufTy).Contents (Elt F)) : (⟨S_, .f32⟩ : BufTy).Contents (Elt F) :=
  Host.divf (addf (negMeanDiag (logSoftmax (logits x0 x1)) (wrapCol (iotaInDim S8192 32 0)) (wrapCol (iotaInDim S8192 32 0))) (negMeanDiag (logSoftmax (transpose S8192x8192 [1, 0] (logits x0 x1) transposes_S8192x8192_S8192x8192_1_0)) (wrapCol (iotaInDim S8192 32 0)) (wrapCol (iotaInDim S8192 32 0)))) (constant S_ .f32 0x40000000#32)

/-- `main_v58`'s term of the arguments: `resOf` at the arguments' launch contents. -/
def res_main_v58 (m : (ℓ : Loc nD τ sig) → Buf (Elt F) ℓ) (c : Dev nD) : Buf (Elt F) ((c.tc : Thread nD τ).loc main_v58) :=
  resOf (m ((c.tc : Thread nD τ).loc main_arg0)) (m ((c.tc : Thread nD τ).loc main_arg1))

/-- `res_main_v58` by its position among the values @main returns. -/
abbrev res_out0 (m : (ℓ : Loc nD τ sig) → Buf (Elt F) ℓ) (c : Dev nD) : Buf (Elt F) ((c.tc : Thread nD τ).loc main_v58) := res_main_v58 m c

/-! ## The transports of the typed references -/

/-- Contents moved to a typed reference's buffer type and back are unchanged. -/
theorem ofBuf_toBuf {T : BufTy} (x : TRef sig T) (v : T.Contents (Elt F)) : x.ofBuf (x.toBuf v) = v := by
  obtain ⟨r, rfl, _, _⟩ := x; rfl

/-- At a literal reference whose table entry is the carried type, the transport is the identity. -/
theorem ofBuf_v18 (h1 h2 h3) (v : (⟨S8192x8192, .f32⟩ : BufTy).Contents (Elt F)) : (TRef.of (T := ⟨S8192x8192, .f32⟩) main_v18 h1 h2 h3).ofBuf v = v := rfl
theorem ofBuf_v21 (h1 h2 h3) (v : (⟨S8192x8192, .f32⟩ : BufTy).Contents (Elt F)) : (TRef.of (T := ⟨S8192x8192, .f32⟩) main_v21 h1 h2 h3).ofBuf v = v := rfl
theorem toBuf_v20 (h1 h2 h3) (v : (⟨S8192x8192, .f32⟩ : BufTy).Contents (Elt F)) : (TRef.of (T := ⟨S8192x8192, .f32⟩) main_v20 h1 h2 h3).toBuf v = v := rfl
theorem toBuf_v22 (h1 h2 h3) (v : (⟨S8192x8192, .f32⟩ : BufTy).Contents (Elt F)) : (TRef.of (T := ⟨S8192x8192, .f32⟩) main_v22 h1 h2 h3).toBuf v = v := rfl

/-! ## The operation list in seven stretches -/

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The scaled rows, the logits and the row numbers. -/
def segA : List (HloOp τ sig (Elt F)) :=
  [ binary main_arg0 main_arg0 main_v0 (mulf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x00000000#32),
    binary main_v0 main_cst main_v1 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v2 main_v3 (Host.sqrt : (⟨S8192x1, .f32⟩ : BufTy).Contents (Elt F) → (⟨S8192x1, .f32⟩ : BufTy).Contents (Elt F)),
    nullary main_cst_0 (constant S_ .f32 0x322BCC77#32),
    unary main_cst_0 main_v4 (broadcastInDim S8192x1 ![] bcast_S_S8192x1 : (⟨S_, .f32⟩ : BufTy).Contents (Elt F) → (⟨S8192x1, .f32⟩ : BufTy).Contents (Elt F)),
    binary main_v3 main_v4 main_v5 (maximumf : (⟨S8192x1, .f32⟩ : BufTy).Contents (Elt F) → (⟨S8192x1, .f32⟩ : BufTy).Contents (Elt F) → (⟨S8192x1, .f32⟩ : BufTy).Contents (Elt F)),
    unary main_v5 main_v6 (broadcastInDim S8192x1024 ![0, 1] bcast_S8192x1_S8192x1024_0_1 : (⟨S8192x1, .f32⟩ : BufTy).Contents (Elt F) → (⟨S8192x1024, .f32⟩ : BufTy).Contents (Elt F)),
    binary main_arg0 main_v6 main_v7 (Host.divf : (⟨S8192x1024, .f32⟩ : BufTy).Contents (Elt F) → (⟨S8192x1024, .f32⟩ : BufTy).Contents (Elt F) → (⟨S8192x1024, .f32⟩ : BufTy).Contents (Elt F)),
    binary main_arg1 main_arg1 main_v8 (mulf : (⟨S8192x1024, .f32⟩ : BufTy).Contents (Elt F) → (⟨S8192x1024, .f32⟩ : BufTy).Contents (Elt F) → (⟨S8192x1024, .f32⟩ : BufTy).Contents (Elt F)),
    nullary main_cst_1 (constant S_ .f32 0x00000000#32),
    binary main_v8 main_cst_1 main_v9 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    unary main_v9 main_v10 (broadcastInDim S8192x1 ![0] bcast_S8192_S8192x1_0 : (⟨S8192, .f32⟩ : BufTy).Contents (Elt F) → (⟨S8192x1, .f32⟩ : BufTy).Contents (Elt F)),
    unary main_v10 main_v11 (Host.sqrt : (⟨S8192x1, .f32⟩ : BufTy).Contents (Elt F) → (⟨S8192x1, .f32⟩ : BufTy).Contents (Elt F)),
    nullary main_cst_2 (constant S_ .f32 0x322BCC77#32),
    unary main_cst_2 main_v12 (broadcastInDim S8192x1 ![] bcast_S_S8192x1 : (⟨S_, .f32⟩ : BufTy).Contents (Elt F) → (⟨S8192x1, .f32⟩ : BufTy).Contents (Elt F)),
    binary main_v11 main_v12 main_v13 (maximumf : (⟨S8192x1, .f32⟩ : BufTy).Contents (Elt F) → (⟨S8192x1, .f32⟩ : BufTy).Contents (Elt F) → (⟨S8192x1, .f32⟩ : BufTy).Contents (Elt F)),
    unary main_v13 main_v14 (broadcastInDim S8192x1024 ![0, 1] bcast_S8192x1_S8192x1024_0_1 : (⟨S8192x1, .f32⟩ : BufTy).Contents (Elt F) → (⟨S8192x1024, .f32⟩ : BufTy).Contents (Elt F)),
    binary main_arg1 main_v14 main_v15 (Host.divf : (⟨S8192x1024, .f32⟩ : BufTy).Contents (Elt F) → (⟨S8192x1024, .f32⟩ : BufTy).Contents (Elt F) → (⟨S8192x1024, .f32⟩ : BufTy).Contents (Elt F)),
    binary main_v7 main_v15 main_v16 ((fun l r => Host.dotGeneral dot_S8192x1024_S8192x1024_S8192x8192_1_1_0_0_n_n none l r) : (⟨S8192x1024, .f32⟩ : BufTy).Contents (Elt F) → (⟨S8192x1024, .f32⟩ : BufTy).Contents (Elt F) → (⟨S8192x8192, .f32⟩ : BufTy).Contents (Elt F)),
    nullary main_cst_3 (constant S_ .f32 0x3D8F5C29#32),
    unary main_cst_3 main_v17 (broadcastInDim S8192x8192 ![] bcast_S_S8192x8192 : (⟨S_, .f32⟩ : BufTy).Contents (Elt F) → (⟨S8192x8192, .f32⟩ : BufTy).Contents (Elt F)),
    binary main_v16 main_v17 main_v18 (Host.divf : (⟨S8192x8192, .f32⟩ : BufTy).Contents (Elt F) → (⟨S8192x8192, .f32⟩ : BufTy).Contents (Elt F) → (⟨S8192x8192, .f32⟩ : BufTy).Contents (Elt F)),
    nullary main_v19 (iotaInDim S8192 32 0) ]

/-- The log-softmax of the logits. -/
def segB : List (HloOp τ sig (Elt F)) :=
  [ TRef.nullary (TRef.of (T := ⟨S_, .f32⟩) main_call0_cst) (constant S_ .f32 0xFF800000#32),
    TRef.binary (TRef.of (T := ⟨S8192x8192, .f32⟩) main_v18) (TRef.of (T := ⟨S_, .f32⟩) main_call0_cst) (TRef.of (T := ⟨S8192, .f32⟩) main_call0_v0) (fun x v => Host.reduce FloatOps.maximumf x v reducesTo_S8192x8192_S8192_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S8192, .f32⟩) main_call0_v1) (broadcastInDim S8192 ![] bcast_S_S8192),
    TRef.binary (TRef.of (T := ⟨S8192, .f32⟩) main_call0_v1) (TRef.of (T := ⟨S8192, .f32⟩) main_call0_v0) (TRef.of (T := ⟨S8192, .f32⟩) main_call0_v2) maximumf,
    TRef.unary (TRef.of (T := ⟨S8192, .f32⟩) main_call0_v2) (TRef.of (T := ⟨S8192x1, .f32⟩) main_call0_v3) (broadcastInDim S8192x1 ![0] bcast_S8192_S8192x1_0),
    TRef.unary (TRef.of (T := ⟨S8192x1, .f32⟩) main_call0_v3) (TRef.of (T := ⟨S8192x8192, .f32⟩) main_call0_v4) (broadcastInDim S8192x8192 ![0, 1] bcast_S8192x1_S8192x8192_0_1),
    TRef.binary (TRef.of (T := ⟨S8192x8192, .f32⟩) main_v18) (TRef.of (T := ⟨S8192x8192, .f32⟩) main_call0_v4) (TRef.of (T := ⟨S8192x8192, .f32⟩) main_call0_v5) subf,
    TRef.unary (TRef.of (T := ⟨S8192x8192, .f32⟩) main_call0_v5) (TRef.of (T := ⟨S8192x8192, .f32⟩) main_call0_v6) Host.exp,
    TRef.nullary (TRef.of (T := ⟨S_, .f32⟩) main_call0_cst_1) (constant S_ .f32 0x00000000#32),
    TRef.binary (TRef.of (T := ⟨S8192x8192, .f32⟩) main_call0_v6) (TRef.of (T := ⟨S_, .f32⟩) main_call0_cst_1) (TRef.of (T := ⟨S8192, .f32⟩) main_call0_v7) (fun x v => Host.reduceAdd x v reducesTo_S8192x8192_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x8192, .f32⟩) main_call0_v10) (broadcastInDim S8192x8192 ![0, 1] bcast_S8192x1_S8192x8192_0_1),
    TRef.binary (TRef.of (T := ⟨S8192x8192, .f32⟩) main_call0_v5) (TRef.of (T := ⟨S8192x8192, .f32⟩) main_call0_v10) (TRef.of (T := ⟨S8192x8192, .f32⟩) main_v20) subf ]

/-- The transposed logits and their log-softmax. -/
def segC : List (HloOp τ sig (Elt F)) :=
  [ unary main_v18 main_v21 ((transpose S8192x8192 [1, 0] · transposes_S8192x8192_S8192x8192_1_0) : (⟨S8192x8192, .f32⟩ : BufTy).Contents (Elt F) → (⟨S8192x8192, .f32⟩ : BufTy).Contents (Elt F)),
    TRef.nullary (TRef.of (T := ⟨S_, .f32⟩) main_call1_cst) (constant S_ .f32 0xFF800000#32),
    TRef.binary (TRef.of (T := ⟨S8192x8192, .f32⟩) main_v21) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v21) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v22) subf ]

/-- The two index columns of the first diagonal. -/
def segD1 : List (HloOp τ sig (Elt F)) :=
  [ nullary main_c (constantI S_ 32 0#32),
    unary main_c main_v23 (broadcastInDim S8192 ![] bcast_S_S8192 : (⟨S_, .i32⟩ : BufTy).Contents (Elt F) → (⟨S8192, .i32⟩ : BufTy).Contents (Elt F)),
    binary main_v19 main_v23 main_v24 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v25 (broadcastInDim S8192 ![] bcast_S_S8192 : (⟨S_, .i32⟩ : BufTy).Contents (Elt F) → (⟨S8192, .i32⟩ : BufTy).Contents (Elt F)),
    binary main_v19 main_v25 main_v26 (addi : (⟨S8192, .i32⟩ : BufTy).Contents (Elt F) → (⟨S8192, .i32⟩ : BufTy).Contents (Elt F) → (⟨S8192, .i32⟩ : BufTy).Contents (Elt F)),
    ternary main_v24 main_v26 main_v19 main_v27 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_5 (constantI S_ 32 0#32),
    unary main_c_5 main_v28 (broadcastInDim S8192 ![] bcast_S_S8192 : (⟨S_, .i32⟩ : BufTy).Contents (Elt F) → (⟨S8192, .i32⟩ : BufTy).Contents (Elt F)),
    binary main_v19 main_v28 main_v29 (cmpi .slt : (⟨S8192, .i32⟩ : BufTy).Contents (Elt F) → (⟨S8192, .i32⟩ : BufTy).Contents (Elt F) → (⟨S8192, .i1⟩ : BufTy).Contents (Elt F)),
    nullary main_c_6 (constantI S_ 32 8192#32),
    unary main_c_6 main_v30 (broadcastInDim S8192 ![] bcast_S_S8192 : (⟨S_, .i32⟩ : BufTy).Contents (Elt F) → (⟨S8192, .i32⟩ : BufTy).Contents (Elt F)),
    binary main_v19 main_v30 main_v31 (addi : (⟨S8192, .i32⟩ : BufTy).Contents (Elt F) → (⟨S8192, .i32⟩ : BufTy).Contents (Elt F) → (⟨S8192, .i32⟩ : BufTy).Contents (Elt F)),
    ternary main_v29 main_v31 main_v19 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v27 main_v33 (broadcastInDim S8192x1 ![0] bcast_S8192_S8192x1_0 : (⟨S8192, .i32⟩ : BufTy).Contents (Elt F) → (⟨S8192x1, .i32⟩ : BufTy).Contents (Elt F)),
    unary main_v32 main_v34 (broadcastInDim S8192x1 ![0] bcast_S8192_S8192x1_0 : (⟨S8192, .i32⟩ : BufTy).Contents (Elt F) → (⟨S8192x1, .i32⟩ : BufTy).Contents (Elt F)) ]

/-- The diagonal of the first log-softmax and its negated mean. -/
def segD2 : List (HloOp τ sig (Elt F)) :=
  [ binary main_v33 main_v34 main_v35 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v20 main_v35 main_v36 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_7 (constant S_ .f32 0x00000000#32),
    binary main_v36 main_cst_7 main_v37 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_8 (constant S_ .f32 0x46000000#32),
    binary main_v37 main_cst_8 main_v38 (Host.divf : (⟨S_, .f32⟩ : BufTy).Contents (Elt F) → (⟨S_, .f32⟩ : BufTy).Contents (Elt F) → (⟨S_, .f32⟩ : BufTy).Contents (Elt F)),
    unary main_v38 main_v39 (Host.negf : (⟨S_, .f32⟩ : BufTy).Contents (Elt F) → (⟨S_, .f32⟩ : BufTy).Contents (Elt F)) ]

/-- The two index columns of the second diagonal. -/
def segE1 : List (HloOp τ sig (Elt F)) :=
  [ nullary main_c_9 (constantI S_ 32 0#32),
    unary main_c_9 main_v40 (broadcastInDim S8192 ![] bcast_S_S8192 : (⟨S_, .i32⟩ : BufTy).Contents (Elt F) → (⟨S8192, .i32⟩ : BufTy).Contents (Elt F)),
    binary main_v19 main_v40 main_v41 (cmpi .slt : (⟨S8192, .i32⟩ : BufTy).Contents (Elt F) → (⟨S8192, .i32⟩ : BufTy).Contents (Elt F) → (⟨S8192, .i1⟩ : BufTy).Contents (Elt F)),
    nullary main_c_10 (constantI S_ 32 8192#32),
    unary main_c_10 main_v42 (broadcastInDim S8192 ![] bcast_S_S8192 : (⟨S_, .i32⟩ : BufTy).Contents (Elt F) → (⟨S8192, .i32⟩ : BufTy).Contents (Elt F)),
    binary main_v19 main_v42 main_v43 (addi : (⟨S8192, .i32⟩ : BufTy).Contents (Elt F) → (⟨S8192, .i32⟩ : BufTy).Contents (Elt F) → (⟨S8192, .i32⟩ : BufTy).Contents (Elt F)),
    ternary main_v41 main_v43 main_v19 main_v44 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_11 (constantI S_ 32 0#32),
    unary main_c_11 main_v45 (broadcastInDim S8192 ![] bcast_S_S8192 : (⟨S_, .i32⟩ : BufTy).Contents (Elt F) → (⟨S8192, .i32⟩ : BufTy).Contents (Elt F)),
    binary main_v19 main_v45 main_v46 (cmpi .slt : (⟨S8192, .i32⟩ : BufTy).Contents (Elt F) → (⟨S8192, .i32⟩ : BufTy).Contents (Elt F) → (⟨S8192, .i1⟩ : BufTy).Contents (Elt F)),
    nullary main_c_12 (constantI S_ 32 8192#32),
    unary main_c_12 main_v47 (broadcastInDim S8192 ![] bcast_S_S8192 : (⟨S_, .i32⟩ : BufTy).Contents (Elt F) → (⟨S8192, .i32⟩ : BufTy).Contents (Elt F)),
    binary main_v19 main_v47 main_v48 (addi : (⟨S8192, .i32⟩ : BufTy).Contents (Elt F) → (⟨S8192, .i32⟩ : BufTy).Contents (Elt F) → (⟨S8192, .i32⟩ : BufTy).Contents (Elt F)),
    ternary main_v46 main_v48 main_v19 main_v49 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v44 main_v50 (broadcastInDim S8192x1 ![0] bcast_S8192_S8192x1_0 : (⟨S8192, .i32⟩ : BufTy).Contents (Elt F) → (⟨S8192x1, .i32⟩ : BufTy).Contents (Elt F)),
    unary main_v49 main_v51 (broadcastInDim S8192x1 ![0] bcast_S8192_S8192x1_0 : (⟨S8192, .i32⟩ : BufTy).Contents (Elt F) → (⟨S8192x1, .i32⟩ : BufTy).Contents (Elt F)) ]

/-- The diagonal of the second log-softmax, its negated mean, and the half-sum. -/
def segE2 : List (HloOp τ sig (Elt F)) :=
  [ binary main_v50 main_v51 main_v52 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    binary main_v22 main_v52 main_v53 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    nullary main_cst_13 (constant S_ .f32 0x00000000#32),
    binary main_v53 main_cst_13 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_14 (constant S_ .f32 0x46000000#32),
    binary main_v54 main_cst_14 main_v55 (Host.divf : (⟨S_, .f32⟩ : BufTy).Contents (Elt F) → (⟨S_, .f32⟩ : BufTy).Contents (Elt F) → (⟨S_, .f32⟩ : BufTy).Contents (Elt F)),
    unary main_v55 main_v56 (Host.negf : (⟨S_, .f32⟩ : BufTy).Contents (Elt F) → (⟨S_, .f32⟩ : BufTy).Contents (Elt F)),
    binary main_v39 main_v56 main_v57 (addf : (⟨S_, .f32⟩ : BufTy).Contents (Elt F) → (⟨S_, .f32⟩ : BufTy).Contents (Elt F) → (⟨S_, .f32⟩ : BufTy).Contents (Elt F)),
    nullary main_cst_15 (constant S_ .f32 0x40000000#32),
    binary main_v57 main_cst_15 main_v58 (Host.divf : (⟨S_, .f32⟩ : BufTy).Contents (Elt F) → (⟨S_, .f32⟩ : BufTy).Contents (Elt F) → (⟨S_, .f32⟩ : BufTy).Contents (Elt F)) ]

/-! ### Each stretch from an arbitrary valuation -/

theorem segA_v18 (V : Valuation τ sig (Elt F)) :
    after segA V (Proc.devRef .tc main_v18) = logits (V (Proc.devRef .tc main_arg0)) (V (Proc.devRef .tc main_arg1)) := by
  unfold segA logits normRows
  after_results_simp
theorem segA_v19 (V : Valuation τ sig (Elt F)) :
    after segA V (Proc.devRef .tc main_v19) = iotaInDim S8192 32 0 := by
  unfold segA
  after_results_simp
theorem segA_arg0 (V : Valuation τ sig (Elt F)) :
    after segA V (Proc.devRef .tc main_arg0) = V (Proc.devRef .tc main_arg0) := by
  unfold segA
  after_results_simp
theorem segA_arg1 (V : Valuation τ sig (Elt F)) :
    after segA V (Proc.devRef .tc main_arg1) = V (Proc.devRef .tc main_arg1) := by
  unfold segA
  after_results_simp

theorem segB_v20 (V : Valuation τ sig (Elt F)) :
    after segB V (Proc.devRef .tc main_v20) = logSoftmax (V (Proc.devRef .tc main_v18)) := by
  unfold segB logSoftmax shifted
  after_results_simp
  simp only [ofBuf_toBuf, ofBuf_v18, toBuf_v20]
theorem segB_v18 (V : Valuation τ sig (Elt F)) :
    after segB V (Proc.devRef .tc main_v18) = V (Proc.devRef .tc main_v18) := by
  unfold segB
  after_results_simp
theorem segB_v19 (V : Valuation τ sig (Elt F)) :
    after segB V (Proc.devRef .tc main_v19) = V (Proc.devRef .tc main_v19) := by
  unfold segB
  after_results_simp
theorem segB_arg0 (V : Valuation τ sig (Elt F)) :
    after segB V (Proc.devRef .tc main_arg0) = V (Proc.devRef .tc main_arg0) := by
  unfold segB
  after_results_simp
theorem segB_arg1 (V : Valuation τ sig (Elt F)) :
    after segB V (Proc.devRef .tc main_arg1) = V (Proc.devRef .tc main_arg1) := by
  unfold segB
  after_results_simp

theorem segC_v22 (V : Valuation τ sig (Elt F)) :
    after segC V (Proc.devRef .tc main_v22) = logSoftmax (transpose S8192x8192 [1, 0] (V (Proc.devRef .tc main_v18)) transposes_S8192x8192_S8192x8192_1_0) := by
  unfold segC logSoftmax shifted
  after_results_simp
  simp only [ofBuf_toBuf, ofBuf_v21, toBuf_v22]
theorem segC_v20 (V : Valuation τ sig (Elt F)) :
    after segC V (Proc.devRef .tc main_v20) = V (Proc.devRef .tc main_v20) := by
  unfold segC
  after_results_simp
theorem segC_v19 (V : Valuation τ sig (Elt F)) :
    after segC V (Proc.devRef .tc main_v19) = V (Proc.devRef .tc main_v19) := by
  unfold segC
  after_results_simp
theorem segC_arg0 (V : Valuation τ sig (Elt F)) :
    after segC V (Proc.devRef .tc main_arg0) = V (Proc.devRef .tc main_arg0) := by
  unfold segC
  after_results_simp
theorem segC_arg1 (V : Valuation τ sig (Elt F)) :
    after segC V (Proc.devRef .tc main_arg1) = V (Proc.devRef .tc main_arg1) := by
  unfold segC
  after_results_simp

theorem segD1_v33 (V : Valuation τ sig (Elt F)) :
    after segD1 V (Proc.devRef .tc main_v33) = wrapCol (V (Proc.devRef .tc main_v19)) := by
  unfold segD1 wrapCol
  after_results_simp
theorem segD1_v34 (V : Valuation τ sig (Elt F)) :
    after segD1 V (Proc.devRef .tc main_v34) = wrapCol (V (Proc.devRef .tc main_v19)) := by
  unfold segD1 wrapCol
  after_results_simp
theorem segD1_v20 (V : Valuation τ sig (Elt F)) :
    after segD1 V (Proc.devRef .tc main_v20) = V (Proc.devRef .tc main_v20) := by
  unfold segD1
  after_results_simp
theorem segD1_v22 (V : Valuation τ sig (Elt F)) :
    after segD1 V (Proc.devRef .tc main_v22) = V (Proc.devRef .tc main_v22) := by
  unfold segD1
  after_results_simp
theorem segD1_v19 (V : Valuation τ sig (Elt F)) :
    after segD1 V (Proc.devRef .tc main_v19) = V (Proc.devRef .tc main_v19) := by
  unfold segD1
  after_results_simp
theorem segD1_arg0 (V : Valuation τ sig (Elt F)) :
    after segD1 V (Proc.devRef .tc main_arg0) = V (Proc.devRef .tc main_arg0) := by
  unfold segD1
  after_results_simp
theorem segD1_arg1 (V : Valuation τ sig (Elt F)) :
    after segD1 V (Proc.devRef .tc main_arg1) = V (Proc.devRef .tc main_arg1) := by
  unfold segD1
  after_results_simp

theorem segD2_v39 (V : Valuation τ sig (Elt F)) :
    after segD2 V (Proc.devRef .tc main_v39) = negMeanDiag (V (Proc.devRef .tc main_v20)) (V (Proc.devRef .tc main_v33)) (V (Proc.devRef .tc main_v34)) := by
  unfold segD2 negMeanDiag diagIdx
  after_results_simp
theorem segD2_v22 (V : Valuation τ sig (Elt F)) :
    after segD2 V (Proc.devRef .tc main_v22) = V (Proc.devRef .tc main_v22) := by
  unfold segD2
  after_results_simp
theorem segD2_v19 (V : Valuation τ sig (Elt F)) :
    after segD2 V (Proc.devRef .tc main_v19) = V (Proc.devRef .tc main_v19) := by
  unfold segD2
  after_results_simp
theorem segD2_arg0 (V : Valuation τ sig (Elt F)) :
    after segD2 V (Proc.devRef .tc main_arg0) = V (Proc.devRef .tc main_arg0) := by
  unfold segD2
  after_results_simp
theorem segD2_arg1 (V : Valuation τ sig (Elt F)) :
    after segD2 V (Proc.devRef .tc main_arg1) = V (Proc.devRef .tc main_arg1) := by
  unfold segD2
  after_results_simp

theorem segE1_v50 (V : Valuation τ sig (Elt F)) :
    after segE1 V (Proc.devRef .tc main_v50) = wrapCol (V (Proc.devRef .tc main_v19)) := by
  unfold segE1 wrapCol
  after_results_simp
theorem segE1_v51 (V : Valuation τ sig (Elt F)) :
    after segE1 V (Proc.devRef .tc main_v51) = wrapCol (V (Proc.devRef .tc main_v19)) := by
  unfold segE1 wrapCol
  after_results_simp
theorem segE1_v39 (V : Valuation τ sig (Elt F)) :
    after segE1 V (Proc.devRef .tc main_v39) = V (Proc.devRef .tc main_v39) := by
  unfold segE1
  after_results_simp
theorem segE1_v22 (V : Valuation τ sig (Elt F)) :
    after segE1 V (Proc.devRef .tc main_v22) = V (Proc.devRef .tc main_v22) := by
  unfold segE1
  after_results_simp
theorem segE1_arg0 (V : Valuation τ sig (Elt F)) :
    after segE1 V (Proc.devRef .tc main_arg0) = V (Proc.devRef .tc main_arg0) := by
  unfold segE1
  after_results_simp
theorem segE1_arg1 (V : Valuation τ sig (Elt F)) :
    after segE1 V (Proc.devRef .tc main_arg1) = V (Proc.devRef .tc main_arg1) := by
  unfold segE1
  after_results_simp

theorem segE2_v58 (V : Valuation τ sig (Elt F)) :
    after segE2 V (Proc.devRef .tc main_v58) = Host.divf (addf (V (Proc.devRef .tc main_v39)) (negMeanDiag (V (Proc.devRef .tc main_v22)) (V (Proc.devRef .tc main_v50)) (V (Proc.devRef .tc main_v51)))) (constant S_ .f32 0x40000000#32) := by
  unfold segE2 negMeanDiag diagIdx
  after_results_simp
theorem segE2_arg0 (V : Valuation τ sig (Elt F)) :
    after segE2 V (Proc.devRef .tc main_arg0) = V (Proc.devRef .tc main_arg0) := by
  unfold segE2
  after_results_simp
theorem segE2_arg1 (V : Valuation τ sig (Elt F)) :
    after segE2 V (Proc.devRef .tc main_arg1) = V (Proc.devRef .tc main_arg1) := by
  unfold segE2
  after_results_simp

/-! ### The whole list -/

set_option maxRecDepth 8192 in
theorem ops_split : (ops : List (HloOp τ sig (Elt F))) = segA ++ segB ++ segC ++ segD1 ++ segD2 ++ segE1 ++ segE2 := rfl

theorem after_ops (V : Valuation τ sig (Elt F)) :
    after ops V = after segE2 (after segE1 (after segD2 (after segD1 (after segC (after segB (after segA V)))))) := by
  rw [ops_split, after_append, after_append, after_append, after_append, after_append, after_append]

theorem after_ops_v58 (V : Valuation τ sig (Elt F)) :
    after ops V (Proc.devRef .tc main_v58) = resOf (V (Proc.devRef .tc main_arg0)) (V (Proc.devRef .tc main_arg1)) := by
  rw [after_ops, segE2_v58, segE1_v39, segE1_v22, segE1_v50, segE1_v51, segD2_v39, segD2_v22, segD2_v19,
    segD1_v20, segD1_v33, segD1_v34, segD1_v22, segD1_v19, segC_v20, segC_v22, segC_v19, segB_v20, segB_v18, segB_v19,
    segA_v18, segA_v19]
  rfl

theorem after_ops_arg0 (V : Valuation τ sig (Elt F)) :
    after ops V (Proc.devRef .tc main_arg0) = V (Proc.devRef .tc main_arg0) := by
  rw [after_ops, segE2_arg0, segE1_arg0, segD2_arg0, segD1_arg0, segC_arg0, segB_arg0, segA_arg0]

theorem after_ops_arg1 (V : Valuation τ sig (Elt F)) :
    after ops V (Proc.devRef .tc main_arg1) = V (Proc.devRef .tc main_arg1) := by
  rw [after_ops, segE2_arg1, segE1_arg1, segD2_arg1, segD1_arg1, segC_arg1, segB_arg1, segA_arg1]

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = res_main_v58 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v58).trans (after_ops_v58 _),
      (h c main_arg0).trans (after_ops_arg0 _),
      (h c main_arg1).trans (after_ops_arg1 _)⟩)
    (run_seq scopedRefs_eq scopedSems_eq defs main (fun _ => ops) main_eq (fun _ => ops_sub) m ρ)

end Cert.ReferenceIdeal.ValueP

end
-- ==== Proof.RefValue.lean ====
/-
  The reference's result is the contrastive loss of the two argument matrices.

  Every intermediate of the reference, read at an index from real argument matrices, is the coercion of a real
  number: a row's sum of squares is not negative, so its square root is real; the clamp is positive, so the clamped
  length is positive and the quotient by it is real; the logits are finite sums of products divided by a nonzero
  constant, and dividing by the temperature is multiplying by its exact reciprocal; a row's maximum from the bottom
  element over a nonempty row of reals is a real, and whatever it is it cancels between the shifted entry and the
  logarithm of the sum of the shifted exponentials; the gather reads the diagonal, its index columns being the row
  numbers (none negative, so the wrap-around never fires); the negated means of the diagonal log-probabilities are
  the means of the row terms and of the column terms.
-/
import proofs.«134093_j6932077215890_1_alg».proof.Proof.RefRun
import proofs.«134093_j6932077215890_1_alg».proof.Proof.Spec
import proofs.«134093_j6932077215890_1_alg».proof.Proof.Consts
import proofs.«134093_j6932077215890_1_alg».proof.Proof.LibLogSumExp
import Idealize.ShloMosaic.Lib.Pipeline.Value
import Idealize.ShloMosaic.Lib.ValueIdx
import Idealize.ShloMosaic.PureOps.Ideal.Laws
import Idealize.ShloMosaic.Lib.DynamicIndex

noncomputable section

namespace Cert.ReferenceIdeal.RefValue

open Cert.ReferenceIdeal Cert.ReferenceIdeal.Gen Cert.ReferenceIdeal.ValueP Idealize.ShloMosaic Idealize.ShloMosaic.ValueIdx
open Idealize.ShloMosaic.TcCoe Idealize.SL.Sem Idealize.ShloMosaic.StableHlo
open Cert.LogSumExp

/-! ## Layout operations read at an index -/

section Layout
variable {α : Type}

/-- A vector as a one-column matrix: entry `(p, 0)` is entry `p`. -/
theorem bc_vec_col (y : S8192.Idx → α) (p : Fin 8192) (q : Fin 1) :
    broadcastInDim S8192x1 ![0] bcast_S8192_S8192x1_0 y (ix2 p q) = y (ix1 p) :=
  broadcastInDim_apply _ bcast_S8192_S8192x1_0 y (ix2 p q) (ix1 p) (fun a => match a with
    | ⟨0, _⟩ => by show p.val = if (8192 : Nat) = 1 then 0 else p.val; rw [if_neg (by decide)])

/-- A scalar spread over a column, a vector, a square matrix: every entry is the scalar. -/
theorem bc_sc_col (y : S_.Idx → α) (j : S8192x1.Idx) :
    broadcastInDim S8192x1 ![] bcast_S_S8192x1 y j = y ix0 :=
  broadcastInDim_apply _ bcast_S_S8192x1 y j ix0 (fun a => a.elim0)
theorem bc_sc_vec (y : S_.Idx → α) (j : S8192.Idx) :
    broadcastInDim S8192 ![] bcast_S_S8192 y j = y ix0 :=
  broadcastInDim_apply _ bcast_S_S8192 y j ix0 (fun a => a.elim0)
theorem bc_sc_mat (y : S_.Idx → α) (j : S8192x8192.Idx) :
    broadcastInDim S8192x8192 ![] bcast_S_S8192x8192 y j = y ix0 :=
  broadcastInDim_apply _ bcast_S_S8192x8192 y j ix0 (fun a => a.elim0)

/-- A column spread along the rows of a matrix: entry `(p, q)` is the column's entry `p`. -/
theorem bc_col_mat1024 (y : S8192x1.Idx → α) (p : Fin 8192) (q : Fin 1024) :
    broadcastInDim S8192x1024 ![0, 1] bcast_S8192x1_S8192x1024_0_1 y (ix2 p q) = y (ix2 p (0 : Fin 1)) :=
  broadcastInDim_apply _ bcast_S8192x1_S8192x1024_0_1 y (ix2 p q) (ix2 p (0 : Fin 1)) (fun a => match a with
    | ⟨0, _⟩ => by show p.val = if (8192 : Nat) = 1 then 0 else p.val; rw [if_neg (by decide)]
    | ⟨1, _⟩ => by show 0 = if (1 : Nat) = 1 then 0 else q.val; rw [if_pos rfl])
theorem bc_col_mat8192 (y : S8192x1.Idx → α) (p q : Fin 8192) :
    broadcastInDim S8192x8192 ![0, 1] bcast_S8192x1_S8192x8192_0_1 y (ix2 p q) = y (ix2 p (0 : Fin 1)) :=
  broadcastInDim_apply _ bcast_S8192x1_S8192x8192_0_1 y (ix2 p q) (ix2 p (0 : Fin 1)) (fun a => match a with
    | ⟨0, _⟩ => by show p.val = if (8192 : Nat) = 1 then 0 else p.val; rw [if_neg (by decide)]
    | ⟨1, _⟩ => by show 0 = if (1 : Nat) = 1 then 0 else q.val; rw [if_pos rfl])

/-- The transpose of a square matrix read at `(p, q)` is the matrix at `(q, p)`. -/
theorem transpose_ix2 (y : S8192x8192.Idx → α) (p q : Fin 8192) :
    transpose S8192x8192 [1, 0] y transposes_S8192x8192_S8192x8192_1_0 (ix2 p q) = y (ix2 q p) :=
  transpose_apply [1, 0] y transposes_S8192x8192_S8192x8192_1_0 (ix2 p q) (ix2 q p) (fun b => match b with
    | ⟨0, _⟩ => rfl
    | ⟨1, _⟩ => rfl)

/-- The indices of a vector are its coordinates. -/
def idxEquiv1 : S8192.Idx ≃ Fin 8192 where
  toFun j := j 0
  invFun p := ix1 p
  left_inv j := (eq_ix1 j).symm
  right_inv _ := rfl

end Layout

/-! ## Sums, the product and the row maximum read at an index -/

/-- The sum over the columns of a 1024-column matrix, from zero. -/
theorem rowsum1024 (x : (⟨S8192x1024, .f32⟩ : BufTy).Contents (Elt Ideal)) (p : Fin 8192) :
    Host.reduceAdd (F := Ideal) x (constant S_ .f32 0x00000000#32) reducesTo_S8192x1024_S8192_d1 h_S_ (ix1 p)
      = ∑ k : Fin 1024, x (ix2 p k) := by
  simp only [Host.reduceAdd, Ideal.hostReduceAdd_def]
  rw [Ideal.hostReduceAdd_single reducesTo_S8192x1024_S8192_d1 (by decide)]
  refine (congrArg (· + _) (Ideal.ofBits_zero_f32)).trans ((zero_add _).trans ?_)
  refine Finset.sum_congr rfl fun k _ => ?_
  exact congrArg x (funext fun a => Fin.ext (by match a with | ⟨0, _⟩ => rfl | ⟨1, _⟩ => rfl))

/-- The sum over the columns of a square matrix, from zero. -/
theorem rowsum8192 (x : (⟨S8192x8192, .f32⟩ : BufTy).Contents (Elt Ideal)) (p : Fin 8192) :
    Host.reduceAdd (F := Ideal) x (constant S_ .f32 0x00000000#32) reducesTo_S8192x8192_S8192_d1 h_S_ (ix1 p)
      = ∑ k : Fin 8192, x (ix2 p k) := by
  simp only [Host.reduceAdd, Ideal.hostReduceAdd_def]
  rw [Ideal.hostReduceAdd_single reducesTo_S8192x8192_S8192_d1 (by decide)]
  refine (congrArg (· + _) (Ideal.ofBits_zero_f32)).trans ((zero_add _).trans ?_)
  refine Finset.sum_congr rfl fun k _ => ?_
  exact congrArg x (funext fun a => Fin.ext (by match a with | ⟨0, _⟩ => rfl | ⟨1, _⟩ => rfl))

/-- The sum of all the entries of a vector, from zero. -/
theorem totalsum8192 (x : (⟨S8192, .f32⟩ : BufTy).Contents (Elt Ideal)) (i : S_.Idx) :
    Host.reduceAdd (F := Ideal) x (constant S_ .f32 0x00000000#32) reducesTo_S8192_S_d0 h_S_ i
      = ∑ p : Fin 8192, x (ix1 p) := by
  simp only [Host.reduceAdd, Ideal.hostReduceAdd_def]
  rw [Ideal.hostReduceAdd_total reducesTo_S8192_S_d0 (fun b => b.elim0) x _ i]
  refine (congrArg (· + _) (Ideal.ofBits_zero_f32)).trans ((zero_add _).trans ?_)
  exact Fintype.sum_equiv idxEquiv1 _ _ (fun j => congrArg x (eq_ix1 j))

/-- The inner products of the rows of two 1024-column matrices. -/
theorem lhs0 (i : S8192x8192.Idx) (q : dot_S8192x1024_S8192x1024_S8192x8192_1_1_0_0_n_n.contr.Idx) : (dot_S8192x1024_S8192x1024_S8192x8192_1_1_0_0_n_n.lhsIdx i q 0).val = (i 0).val := by
  unfold DotDims.lhsIdx
  rw [dif_neg (show ¬(0 : Fin S8192x1024.rank) ∈ dot_S8192x1024_S8192x1024_S8192x8192_1_1_0_0_n_n.lhsBatch by decide), dif_pos (show (0 : Fin S8192x1024.rank) ∈ dot_S8192x1024_S8192x1024_S8192x8192_1_1_0_0_n_n.lhsNonContracting by decide)]
  rfl
theorem lhs1 (i : S8192x8192.Idx) (q : dot_S8192x1024_S8192x1024_S8192x8192_1_1_0_0_n_n.contr.Idx) : (dot_S8192x1024_S8192x1024_S8192x8192_1_1_0_0_n_n.lhsIdx i q 1).val = (q ⟨0, by decide⟩).val :=
  dot_S8192x1024_S8192x1024_S8192x8192_1_1_0_0_n_n.lhsIdx_val_of_single rfl i q
theorem rhs0 (i : S8192x8192.Idx) (q : dot_S8192x1024_S8192x1024_S8192x8192_1_1_0_0_n_n.contr.Idx) : (dot_S8192x1024_S8192x1024_S8192x8192_1_1_0_0_n_n.rhsIdx i q 0).val = (i 1).val := by
  unfold DotDims.rhsIdx
  rw [dif_neg (show ¬(0 : Fin S8192x1024.rank) ∈ dot_S8192x1024_S8192x1024_S8192x8192_1_1_0_0_n_n.rhsBatch by decide), dif_pos (show (0 : Fin S8192x1024.rank) ∈ dot_S8192x1024_S8192x1024_S8192x8192_1_1_0_0_n_n.rhsNonContracting by decide)]
  rfl
theorem rhs1 (i : S8192x8192.Idx) (q : dot_S8192x1024_S8192x1024_S8192x8192_1_1_0_0_n_n.contr.Idx) : (dot_S8192x1024_S8192x1024_S8192x8192_1_1_0_0_n_n.rhsIdx i q 1).val = (q ⟨0, by decide⟩).val :=
  dot_S8192x1024_S8192x1024_S8192x8192_1_1_0_0_n_n.rhsIdx_val_of_single rfl i q

theorem dot_ix2 (l r : FVec Ideal S8192x1024 .f32) (p q : Fin 8192) :
    Host.dotGeneral (F := Ideal) dot_S8192x1024_S8192x1024_S8192x8192_1_1_0_0_n_n none l r (ix2 p q) = ∑ k : Fin 1024, l (ix2 p k) * r (ix2 q k) := by
  simp only [Host.dotGeneral]
  rw [Ideal.dotGeneral_apply, ← Equiv.sum_comp (ValueIdx.contrEquiv1 dot_S8192x1024_S8192x1024_S8192x8192_1_1_0_0_n_n 1024 rfl rfl).symm]
  refine Finset.sum_congr rfl fun k _ => ?_
  have hk := ValueIdx.contrEquiv1_symm_val dot_S8192x1024_S8192x1024_S8192x8192_1_1_0_0_n_n 1024 rfl rfl k
  have el : dot_S8192x1024_S8192x1024_S8192x8192_1_1_0_0_n_n.lhsIdx (ix2 p q) ((ValueIdx.contrEquiv1 dot_S8192x1024_S8192x1024_S8192x8192_1_1_0_0_n_n 1024 rfl rfl).symm k) = ix2 p k := funext fun a => Fin.ext (by
    match a with
    | ⟨0, _⟩ => exact lhs0 _ _
    | ⟨1, _⟩ => exact (lhs1 _ _).trans hk)
  have er : dot_S8192x1024_S8192x1024_S8192x8192_1_1_0_0_n_n.rhsIdx (ix2 p q) ((ValueIdx.contrEquiv1 dot_S8192x1024_S8192x1024_S8192x8192_1_1_0_0_n_n 1024 rfl rfl).symm k) = ix2 q k := funext fun a => Fin.ext (by
    match a with
    | ⟨0, _⟩ => exact rhs0 _ _
    | ⟨1, _⟩ => exact (rhs1 _ _).trans hk)
  rw [el, er]

/-- A real square matrix as an array of extended reals. -/
def arr2 (L : Fin 8192 → Fin 8192 → ℝ) : S8192x8192.Idx → EReal := fun j => ((L (j 0) (j 1) : ℝ) : EReal)

theorem arr2_ix2 (L : Fin 8192 → Fin 8192 → ℝ) (p q : Fin 8192) : arr2 L (ix2 p q) = ((L p q : ℝ) : EReal) := rfl
theorem arr_ix2 (A : Fin 8192 → Fin 1024 → ℝ) (p : Fin 8192) (q : Fin 1024) : Cert.Spec.arr A (ix2 p q) = ((A p q : ℝ) : EReal) := rfl

/-- Row `p` of a square matrix with column `k` put back is the index `(p, k)`. -/
theorem lift_row (h : S8192x8192.Reduces [1] S8192) (p : Fin 8192) (k : Fin (S8192x8192.size 1)) :
    h.lift (ix1 p) k = ix2 p (⟨k.val, k.isLt⟩ : Fin 8192) := by
  funext c; apply Fin.ext
  fin_cases c <;> rfl

/-- From the bottom element, the maximum of a row whose entries are reals is a real. -/
theorem rowmax_real (x : FVec Ideal S8192x8192 .f32) (p : Fin 8192) (g : Fin 8192 → ℝ)
    (hx : ∀ k : Fin 8192, x (ix2 p k) = ((g k : ℝ) : EReal)) :
    ∃ M : ℝ, Host.reduce FloatOps.maximumf x (constant S_ .f32 0xFF800000#32) reducesTo_S8192x8192_S8192_d1 h_S_ (ix1 p)
      = (M : EReal) := by
  have h : S8192x8192.Reduces [1] S8192 := by decide
  obtain ⟨M, hM⟩ := fold_max_bot_coe (Finset.univ : Finset (Fin 8192)) Finset.univ_nonempty g
  refine ⟨M, ?_⟩
  rw [Host.reduce_eq_fold_single FloatOps.maximumf x _ reducesTo_S8192x8192_S8192_d1 h h_S_]
  have hf : (x ∘ h.lift (ix1 p)) = fun k : Fin 8192 => ((g k : ℝ) : EReal) := funext fun k => by
    show x (h.lift (ix1 p) k) = _
    rw [lift_row]; exact hx _
  have hM' : Finset.fold max (Ideal.ofBits .f32 0xFF800000#32) (fun k : Fin 8192 => ((g k : ℝ) : EReal)) Finset.univ = (M : EReal) := by
    rw [Cert.Consts.ofBits_neg_inf]; exact hM
  refine Eq.trans ?_ hM'
  exact congrArg (fun f => Finset.fold max (Ideal.ofBits .f32 0xFF800000#32) f (Finset.univ : Finset (Fin 8192))) hf

/-! ## The diagonal -/

/-- A row number as a 32-bit word, read signed, is the row number. -/
theorem toNat_row (p : Fin 8192) : (BitVec.ofNat 32 p.val).toInt.toNat = p.val := by
  rw [toInt_ofNat_of_lt (by have := p.isLt; omega)]; rfl

/-- The gather at index pairs `(p, p)` reads the diagonal. -/
theorem gather_diag {α : Type} (P : S8192x8192.Idx → α) (idx : IVec S8192x2 32) (p : Fin 8192)
    (h0 : idx (ix2 p (0 : Fin 2)) = BitVec.ofNat 32 p.val) (h1 : idx (ix2 p (1 : Fin 2)) = BitVec.ofNat 32 p.val) :
    Host.gather gather_S8192x8192_S8192x2_S8192_n_01_n_n_01_1_11 P idx (ix1 p) = P (ix2 p p) := by
  unfold Host.gather
  congr 1
  have key : ∀ a : Fin 2, (gather_S8192x8192_S8192x2_S8192_n_01_n_n_01_1_11.operandIdx (ix1 p) idx a).val = (ix2 p p a).val := by
    refine Fin.forall_fin_two.2 ⟨?_, ?_⟩
    · show gather_S8192x8192_S8192x2_S8192_n_01_n_n_01_1_11.start (ix1 p) idx 0 + gather_S8192x8192_S8192x2_S8192_n_01_n_n_01_1_11.batchCoord (ix1 p) 0 + gather_S8192x8192_S8192x2_S8192_n_01_n_n_01_1_11.offCoord (ix1 p) 0 = p.val
      rw [GatherDims.batchCoord_eq_zero _ _ _ List.not_mem_nil,
        GatherDims.offCoord_eq_zero _ _ _ (fun h => ((GatherDims.mem_sKept _ _).mp h).1 (show (0 : Fin 2) ∈ gather_S8192x8192_S8192x2_S8192_n_01_n_n_01_1_11.collapsedSliceDims by decide))]
      simp only [Nat.add_zero]
      unfold GatherDims.start
      rw [dif_pos (show (0 : Fin 2) ∈ gather_S8192x8192_S8192x2_S8192_n_01_n_n_01_1_11.startIndexMap by decide)]
      have hsi : gather_S8192x8192_S8192x2_S8192_n_01_n_n_01_1_11.siIdx (ix1 p) ⟨List.idxOf (0 : Fin 2) gather_S8192x8192_S8192x2_S8192_n_01_n_n_01_1_11.startIndexMap,
          List.idxOf_lt_length_iff.2 (show (0 : Fin 2) ∈ gather_S8192x8192_S8192x2_S8192_n_01_n_n_01_1_11.startIndexMap by decide)⟩ = ix2 p (0 : Fin 2) := by
        funext b; refine Fin.ext ?_
        match b with
        | ⟨0, _⟩ => rfl
        | ⟨1, _⟩ => rfl
      rw [hsi, h0, toNat_row]
      show min p.val (8192 - 1) = p.val
      have := p.isLt; omega
    · show gather_S8192x8192_S8192x2_S8192_n_01_n_n_01_1_11.start (ix1 p) idx 1 + gather_S8192x8192_S8192x2_S8192_n_01_n_n_01_1_11.batchCoord (ix1 p) 1 + gather_S8192x8192_S8192x2_S8192_n_01_n_n_01_1_11.offCoord (ix1 p) 1 = p.val
      rw [GatherDims.batchCoord_eq_zero _ _ _ List.not_mem_nil,
        GatherDims.offCoord_eq_zero _ _ _ (fun h => ((GatherDims.mem_sKept _ _).mp h).1 (show (1 : Fin 2) ∈ gather_S8192x8192_S8192x2_S8192_n_01_n_n_01_1_11.collapsedSliceDims by decide))]
      simp only [Nat.add_zero]
      unfold GatherDims.start
      rw [dif_pos (show (1 : Fin 2) ∈ gather_S8192x8192_S8192x2_S8192_n_01_n_n_01_1_11.startIndexMap by decide)]
      have hsi : gather_S8192x8192_S8192x2_S8192_n_01_n_n_01_1_11.siIdx (ix1 p) ⟨List.idxOf (1 : Fin 2) gather_S8192x8192_S8192x2_S8192_n_01_n_n_01_1_11.startIndexMap,
          List.idxOf_lt_length_iff.2 (show (1 : Fin 2) ∈ gather_S8192x8192_S8192x2_S8192_n_01_n_n_01_1_11.startIndexMap by decide)⟩ = ix2 p (1 : Fin 2) := by
        funext b; refine Fin.ext ?_
        match b with
        | ⟨0, _⟩ => rfl
        | ⟨1, _⟩ => rfl
      rw [hsi, h1, toNat_row]
      show min p.val (8192 - 1) = p.val
      have := p.isLt; omega
  exact funext fun a => Fin.ext (key a)

/-- The index column over the row numbers: none is negative, so entry `p` is `p`. -/
theorem wrapCol_iota (p : Fin 8192) (q : Fin 1) :
    wrapCol (F := Ideal) (iotaInDim S8192 32 0) (ix2 p q) = BitVec.ofNat 32 p.val := by
  unfold wrapCol
  rw [bc_vec_col]
  have hZ : (broadcastInDim S8192 ![] bcast_S_S8192 (constantI S_ 32 0#32) : IVec S8192 32) = constantI S8192 32 0#32 :=
    funext fun j => bc_sc_vec _ j
  have h0 : 0 ≤ ((iotaInDim S8192 32 0 : IVec S8192 32) (ix1 p)).toInt := by
    show 0 ≤ (BitVec.ofNat 32 p.val).toInt
    rw [toInt_ofNat_of_lt (by have := p.isLt; omega)]; omega
  rw [hZ, select_slt_zero_of_nonneg _ _ _ (ix1 p) h0]
  rfl

/-- The joined index columns read at the two columns. -/
theorem diagIdx_left (a b : IVec S8192x1 32) (p : Fin 8192) :
    diagIdx (F := Ideal) a b (ix2 p (0 : Fin 2)) = a (ix2 p (0 : Fin 1)) := by
  unfold diagIdx
  exact concatenate_pair_apply_left 1 a b concatenates_S8192x1_S8192x1_S8192x2_d1 (ix2 p (0 : Fin 2)) rfl (ix2 p (0 : Fin 1))
    (fun b => match b with | ⟨0, _⟩ => rfl | ⟨1, _⟩ => rfl)
theorem diagIdx_right (a b : IVec S8192x1 32) (p : Fin 8192) :
    diagIdx (F := Ideal) a b (ix2 p (1 : Fin 2)) = b (ix2 p (0 : Fin 1)) := by
  unfold diagIdx
  exact concatenate_pair_apply_right 1 a b concatenates_S8192x1_S8192x1_S8192x2_d1 (ix2 p (1 : Fin 2)) rfl rfl (ix2 p (0 : Fin 1))
    (fun b hb => match b, hb with | ⟨0, _⟩, _ => rfl | ⟨1, _⟩, hb => absurd rfl hb) rfl

/-! ## The host's pointwise operations at the exact values -/

section Pointwise
variable {s : Shape} {φ : FTy}
theorem hdivf_apply (a b : FVec Ideal s φ) (i : s.Idx) : Host.divf a b i = Ideal.div (a i) (b i) := rfl
theorem hsqrt_apply (a : FVec Ideal s φ) (i : s.Idx) : Host.sqrt a i = Ideal.sqrt (a i) := rfl
theorem hexp_apply (a : FVec Ideal s φ) (i : s.Idx) : Host.exp a i = Ideal.exp (a i) := rfl
theorem hlog_apply (a : FVec Ideal s φ) (i : s.Idx) : Host.log a i = Ideal.log (a i) := rfl
theorem hnegf_apply (a : FVec Ideal s φ) (i : s.Idx) : Host.negf a i = -(a i) := rfl
end Pointwise

/-! ## The stages on real matrices -/

open Cert.Spec Cert.Consts

/-- A row's sum of squares. -/
theorem sumsq_arr (A : Fin 8192 → Fin 1024 → ℝ) (p : Fin 8192) :
    Host.reduceAdd (F := Ideal) (mulf (arr A : (⟨S8192x1024, .f32⟩ : BufTy).Contents (Elt Ideal)) (arr A)) (constant S_ .f32 0x00000000#32)
        reducesTo_S8192x1024_S8192_d1 h_S_ (ix1 p)
      = ((∑ d, A p d * A p d : ℝ) : EReal) := by
  rw [rowsum1024, coe_finset_sum]
  refine Finset.sum_congr rfl fun k _ => ?_
  rw [mulf_apply, arr_ix2, ← EReal.coe_mul]

/-- The scaled rows of a real matrix are the real scaled rows. -/
theorem normRows_arr (A : Fin 8192 → Fin 1024 → ℝ) :
    normRows (F := Ideal) (arr A) = arr (unit eps A) := by
  funext j
  obtain ⟨p, q, rfl⟩ : ∃ (p : Fin 8192) (q : Fin 1024), j = ix2 p q := ⟨j 0, j 1, eq_ix2 j⟩
  unfold normRows
  rw [hdivf_apply, bc_col_mat1024, maximumf_apply, hsqrt_apply, bc_vec_col, sumsq_arr, bc_sc_col, constant_apply,
    ofBits_eps, sqrt_coe_of_nonneg (sum_mul_self_nonneg _), max_coe_coe, arr_ix2, arr_ix2,
    div_coe_coe _ (ne_of_gt (max_pos_of_right eps_pos))]
  rfl

/-- The logits of two real matrices are the real logits. -/
theorem logits_arr (X Y : Fin 8192 → Fin 1024 → ℝ) :
    logits (F := Ideal) (arr X) (arr Y) = arr2 (logit eps X Y) := by
  funext j
  obtain ⟨p, q, rfl⟩ : ∃ (p : Fin 8192) (q : Fin 8192), j = ix2 p q := ⟨j 0, j 1, eq_ix2 j⟩
  unfold logits
  rw [hdivf_apply, dot_ix2, normRows_arr, normRows_arr, bc_sc_mat, constant_apply, ofBits_temp]
  have hs : (∑ k : Fin 1024, arr (unit eps X) (ix2 p k) * arr (unit eps Y) (ix2 q k))
      = ((∑ d, unit eps X p d * unit eps Y q d : ℝ) : EReal) := by
    rw [coe_finset_sum]
    refine Finset.sum_congr rfl fun k _ => ?_
    rw [arr_ix2, arr_ix2, ← EReal.coe_mul]
  rw [hs, div_coe_coe _ (by norm_num), arr2_ix2]
  rw [EReal.coe_eq_coe_iff]
  unfold logit invT
  ring

/-- A log-softmax entry does not depend on the shift. -/
theorem log_softmax_entry {ι : Type*} [Fintype ι] [Nonempty ι] (l : ι → ℝ) (M : ℝ) (i : ι) :
    (l i - M) - Real.log (∑ j, Real.exp (l j - M)) = l i - Real.log (∑ j, Real.exp (l j)) := by
  rw [log_sum_exp_sub]; ring

/-- The half-sum of the negated means of the diagonal log-probabilities, by rows and by columns, is the half-sum
    of the means of the row terms and of the column terms. -/
theorem half_sum_means {ι : Type*} [Fintype ι] (L : ι → ι → ℝ) (n : ℝ) :
    (-((∑ p, (L p p - Real.log (∑ k, Real.exp (L p k)))) / n) + -((∑ p, (L p p - Real.log (∑ k, Real.exp (L k p)))) / n)) / 2
      = ((∑ i, (Real.log (∑ j, Real.exp (L i j)) - L i i)) / n + (∑ j, (Real.log (∑ i, Real.exp (L i j)) - L j j)) / n) / 2 := by
  rw [neg_mean, neg_mean]
  simp only [neg_sub]

/-- The log-softmax of a real matrix: the row maximum cancels. -/
theorem logSoftmax_arr2 (L : Fin 8192 → Fin 8192 → ℝ) :
    logSoftmax (F := Ideal) (arr2 L) = arr2 (fun i j => L i j - Real.log (∑ k, Real.exp (L i k))) := by
  funext j
  obtain ⟨p, q, rfl⟩ : ∃ (p : Fin 8192) (q : Fin 8192), j = ix2 p q := ⟨j 0, j 1, eq_ix2 j⟩
  obtain ⟨M, hM⟩ := rowmax_real (arr2 L) p (L p) (fun k => rfl)
  have hsh : ∀ k : Fin 8192, shifted (F := Ideal) (arr2 L) (ix2 p k) = ((L p k : ℝ) : EReal) - (M : EReal) := fun k => by
    unfold shifted
    rw [subf_apply, bc_col_mat8192, bc_vec_col, maximumf_apply, bc_sc_vec, constant_apply, ofBits_neg_inf, hM,
      max_bot_left, arr2_ix2]
  unfold logSoftmax
  rw [subf_apply, bc_col_mat8192, hlog_apply, bc_vec_col, rowsum8192, hsh q]
  rw [Finset.sum_congr rfl (fun k _ => (hexp_apply _ _).trans (congrArg Ideal.exp (hsh k)))]
  rw [log_softmax_coe (L p) M q, arr2_ix2]
  exact congrArg Real.toEReal (log_softmax_entry (L p) M q)

/-- The negated mean of the diagonal of a real matrix. -/
theorem negMeanDiag_arr2 (P : Fin 8192 → Fin 8192 → ℝ) (i : S_.Idx) :
    negMeanDiag (F := Ideal) (arr2 P) (wrapCol (iotaInDim S8192 32 0)) (wrapCol (iotaInDim S8192 32 0)) i
      = ((-((∑ p, P p p) / 8192) : ℝ) : EReal) := by
  have hg : ∀ p : Fin 8192, Host.gather gather_S8192x8192_S8192x2_S8192_n_01_n_n_01_1_11 (arr2 P : (⟨S8192x8192, .f32⟩ : BufTy).Contents (Elt Ideal))
      (diagIdx (F := Ideal) (wrapCol (iotaInDim S8192 32 0)) (wrapCol (iotaInDim S8192 32 0))) (ix1 p) = ((P p p : ℝ) : EReal) := fun p => by
    rw [gather_diag _ _ p (by rw [diagIdx_left, wrapCol_iota]) (by rw [diagIdx_right, wrapCol_iota])]; rfl
  unfold negMeanDiag
  rw [hnegf_apply, hdivf_apply, totalsum8192, constant_apply, ofBits_8192]
  simp only [hg]
  rw [← coe_finset_sum, neg_div_coe_coe _ (by norm_num)]

/-- The transpose of a real matrix. -/
theorem transpose_arr2 (L : Fin 8192 → Fin 8192 → ℝ) :
    transpose S8192x8192 [1, 0] (arr2 L : (⟨S8192x8192, .f32⟩ : BufTy).Contents (Elt Ideal)) transposes_S8192x8192_S8192x8192_1_0 = arr2 (fun i j => L j i) := by
  funext j
  obtain ⟨p, q, rfl⟩ : ∃ (p : Fin 8192) (q : Fin 8192), j = ix2 p q := ⟨j 0, j 1, eq_ix2 j⟩
  rw [transpose_ix2]; rfl

/-- The whole result on real matrices is the loss. -/
theorem resOf_arr (X Y : Fin 8192 → Fin 1024 → ℝ) (i : S_.Idx) :
    resOf (F := Ideal) (arr X) (arr Y) i = ((loss eps X Y : ℝ) : EReal) := by
  unfold resOf
  rw [hdivf_apply, addf_apply, logits_arr, transpose_arr2, logSoftmax_arr2, logSoftmax_arr2, negMeanDiag_arr2, negMeanDiag_arr2,
    constant_apply, ofBits_2, ← EReal.coe_add, div_coe_coe _ (by norm_num)]
  unfold loss rowTerm colTerm
  exact congrArg Real.toEReal (half_sum_means (logit eps X Y) 8192)

/-- The reference's result, from a memory holding two real matrices at the arguments, is the loss of the two. -/
theorem result_eq (X Y : Fin 8192 → Fin 1024 → ℝ) (m : (ℓ : Loc nD τ sig) → Buf (Elt Ideal) ℓ) (c : Dev nD)
    (h0 : m ((c.tc : Thread nD τ).loc main_arg0) = Cert.Spec.arr X)
    (h1 : m ((c.tc : Thread nD τ).loc main_arg1) = Cert.Spec.arr Y) :
    Cert.ReferenceIdeal.ValueP.res_main_v58 (F := Ideal) m c = fun _ => ((Cert.Spec.loss Cert.Consts.eps X Y : ℝ) : EReal) := by
  unfold Cert.ReferenceIdeal.ValueP.res_main_v58
  rw [h0, h1]
  exact funext fun i => resOf_arr X Y i

end Cert.ReferenceIdeal.RefValue

end
-- ==== Proof.Finite.lean ====
/-
  From the precondition to real matrices.

  The precondition says of each argument that every entry's absolute value is below the pattern of positive
  infinity, as one conjunction over all the entries.  The conjunction being one, every entry passes the test; an
  extended real whose absolute value is below the top element is neither infinity, so it is a real.  Choosing the
  real behind every entry gives the two real matrices the arguments are.
-/
import proofs.«134093_j6932077215890_1_alg».proof.Defs
import proofs.«134093_j6932077215890_1_alg».proof.Proof.Spec
import Idealize.ShloMosaic.Lib.ReduceAll
import Idealize.ShloMosaic.Lib.Pipeline.Value
import Idealize.ShloMosaic.Lib.ValueIdx

noncomputable section

namespace Cert.Finite

open Idealize.ShloMosaic Idealize.SL.Sem Idealize.ShloMosaic.ValueIdx

/-- The shape with no axes has one index. -/
instance : Subsingleton (⟨0, ![]⟩ : Shape).Idx := ⟨fun a b => funext fun d => d.elim0⟩

/-- An extended real whose absolute value is below the top element is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The pattern of positive infinity denotes the top element. -/
theorem ofBits_pos_inf : Ideal.ofBits .f32 0x7F800000#32 = (⊤ : EReal) := by
  simp [Ideal.ofBits, Ideal.ieee]

/-- A comparison "less than" that answers one holds. -/
theorem lt_of_cmp_olt {x y : EReal} (h : Ideal.cmp .olt x y = 1#1) : x < y := by
  by_contra hn
  simp [Ideal.cmp, hn] at h

/-- An array every entry of which passes the test "the absolute value is below positive infinity", the tests joined
    by one conjunction over all the entries, is an array of reals. -/
theorem real_of_all (x : FVec Ideal ⟨2, ![8192, 1024]⟩ .f32)
    (hb : (⟨0, ![]⟩ : Shape).BroadcastsInDim ⟨2, ![8192, 1024]⟩ (![] : Fin 0 → Fin 2))
    (hr : (⟨2, ![8192, 1024]⟩ : Shape).ReducesTo [0, 1] ⟨0, ![]⟩) (hu : 0 < (⟨0, ![]⟩ : Shape).numel)
    (e : Host.reduce IntOp.andi
        (cmpf .olt (Host.absf x) (broadcastInDim ⟨2, ![8192, 1024]⟩ ![] hb (constant (F := Ideal) ⟨0, ![]⟩ .f32 0x7F800000#32)))
        (constantI ⟨0, ![]⟩ 1 1#1) hr hu ix0 = 1#1) :
    ∃ A : Fin 8192 → Fin 1024 → ℝ, x = Cert.Spec.arr A := by
  have hel : ∀ i, ∃ r : ℝ, x i = (r : EReal) := fun i => by
    have h1 := Host.reduce_andi_all _ _ hr hu ix0 e i
    have h2 : Ideal.cmp .olt (max (x i) (-(x i))) (Ideal.ofBits .f32 0x7F800000#32) = 1#1 := by
      have hbc : broadcastInDim ⟨2, ![8192, 1024]⟩ ![] hb (constant (F := Ideal) ⟨0, ![]⟩ .f32 0x7F800000#32) i
          = Ideal.ofBits .f32 0x7F800000#32 :=
        broadcastInDim_apply _ hb _ i ix0 (fun a => a.elim0)
      rw [← hbc]; exact h1
    rw [ofBits_pos_inf] at h2
    exact real_of_abs_lt_top _ (lt_of_cmp_olt h2)
  choose f hf using hel
  refine ⟨fun p q => f (ix2 p q), funext fun j => ?_⟩
  rw [hf j]
  exact congrArg (fun k => ((f k : ℝ) : EReal)) (eq_ix2 j)

variable [Cert.Pre_finite_inputs.Facts]

/-- Under the precondition the two arguments hold real matrices. -/
theorem real_args (m : (ℓ : Loc Cert.KernelIdeal.nD Cert.KernelIdeal.τ Cert.KernelIdeal.sig) → Buf (Elt Ideal) ℓ)
    (h : Cert.Pre_KernelIdeal m) (c : Dev Cert.KernelIdeal.nD) :
    ∃ X Y : Fin 8192 → Fin 1024 → ℝ,
      m ((c.tc : Thread Cert.KernelIdeal.nD Cert.KernelIdeal.τ).loc Cert.KernelIdeal.main_arg0) = Cert.Spec.arr X
      ∧ m ((c.tc : Thread Cert.KernelIdeal.nD Cert.KernelIdeal.τ).loc Cert.KernelIdeal.main_arg1) = Cert.Spec.arr Y := by
  have hc := congrFun (h c) ix0
  dsimp only [Cert.Pre_finite_inputs.fn] at hc
  obtain ⟨e0, e1⟩ := IntOp.andi_eq_one.1 hc
  obtain ⟨X, hX⟩ := real_of_all _ _ _ _ e0
  obtain ⟨Y, hY⟩ := real_of_all _ _ _ _ e1
  exact ⟨X, Y, hX, hY⟩

end Cert.Finite

end
-- ==== Proof.lean ====
/-
  The certificate: a contrastive loss over two 8192 × 1024 matrices, computed by three accumulation regions and a
  host mean, against its plain definition.

  Both programs are read as ONE real function of the inputs (Proof/Spec.lean): rows scaled to clamped unit length,
  logits their inner products times the inverse temperature, per row and per column the log-sum-exp less the
  diagonal, the two means halved. The kernel's inverse temperature is the exact reciprocal of the reference's divisor,
  so dividing by the one is multiplying by the other; the reference's shift by the row maximum inside its log-softmax
  cancels (log ∑ exp (l - M) = log ∑ exp l - M); the kernel's tiling of each sum into 8 chunks of 1024 and its
  order of the factors of each inner product change nothing over the reals. Finiteness of the inputs is what makes
  every intermediate a real number.

  The frames of the two kernel programs are one run over the three regions and the host stretch, at the end of which
  every unscoped buffer is named; the reference's frame is its run with the result dropped.
-/
import proofs.«134093_j6932077215890_1_alg».proof.Defs
import proofs.«134093_j6932077215890_1_alg».proof.Proof.Gen.Kernel
import proofs.«134093_j6932077215890_1_alg».proof.Proof.Gen.KernelIdeal
import proofs.«134093_j6932077215890_1_alg».proof.Proof.Gen.ReferenceIdeal
import proofs.«134093_j6932077215890_1_alg».proof.Proof.Gen.Pre_finite_inputs
import proofs.«134093_j6932077215890_1_alg».proof.Proof.RunBits
import proofs.«134093_j6932077215890_1_alg».proof.Proof.RunIdeal
import proofs.«134093_j6932077215890_1_alg».proof.Proof.KernelValue
import proofs.«134093_j6932077215890_1_alg».proof.Proof.RefRun
import proofs.«134093_j6932077215890_1_alg».proof.Proof.RefValue
import proofs.«134093_j6932077215890_1_alg».proof.Proof.Finite
import Idealize.ShloMosaic.Adequacy
import Idealize.ShloMosaic.Init

noncomputable section

namespace Cert.Proof

open Idealize.ShloMosaic Idealize.ShloMosaic.TcCoe Idealize.SL.Sem

/-- The word-level program runs and leaves its two arguments as launched: both are read off the last valuation
    of its run, which no region and no host operation writes. -/
theorem frame_k : Cert.frame_Kernel := fun m ρ _ =>
  (θ_run (Cert.Kernel.defs (F := Bits)) _ _).mono (fun _ h c =>
      ⟨(h c _ (Cert.Kernel.HandRun.mem_uc Cert.Kernel.main_arg0 (by decide))).trans (Cert.Kernel.HandRun.W4_main_arg0 m ρ c),
       (h c _ (Cert.Kernel.HandRun.mem_uc Cert.Kernel.main_arg1 (by decide))).trans (Cert.Kernel.HandRun.W4_main_arg1 m ρ c)⟩)
    (Cert.Kernel.HandRun.run_all (F := Bits) m ρ)

/-- The same for the idealized program. -/
theorem frame_ki : Cert.frame_KernelIdeal := fun m ρ _ =>
  (θ_run (Cert.KernelIdeal.defs (F := Ideal)) _ _).mono (fun _ h c =>
      ⟨(h c _ (Cert.KernelIdeal.HandRun.mem_uc Cert.KernelIdeal.main_arg0 (by decide))).trans (Cert.KernelIdeal.HandRun.W4_main_arg0 m ρ c),
       (h c _ (Cert.KernelIdeal.HandRun.mem_uc Cert.KernelIdeal.main_arg1 (by decide))).trans (Cert.KernelIdeal.HandRun.W4_main_arg1 m ρ c)⟩)
    (Cert.KernelIdeal.HandRun.run_all (F := Ideal) m ρ)

/-- The reference's frame is its run with the result dropped. -/
theorem frame_ri : Cert.frame_ReferenceIdeal := fun m ρ _ =>
  (θ_run (Cert.ReferenceIdeal.defs (F := Ideal)) _ _).mono (fun _ h c => (h c).2) (Cert.ReferenceIdeal.ValueP.run (F := Ideal) m ρ)

/-- The two sites of the one named constant: the table gives the inverse temperature the exact reciprocal
    `134217728 / 9395241`, and the printed constant is that value at the ideal instance. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl⟩

/-- From memories agreeing on finite arguments both programs end with the specification's loss of the two real
    matrices the arguments are. -/
theorem algebraic : Cert.algebraic_KernelIdeal_ReferenceIdeal := by
  intro m ρ m' ρ' hpre hagree
  refine ⟨fun c => Cert.KernelIdeal.HandRun.W4 m ρ c (Proc.devRef .tc Cert.KernelIdeal.main_v8), ?_, ?_⟩
  · exact (θ_run (Cert.KernelIdeal.defs (F := Ideal)) _ _).mono (fun _ h c =>
      ⟨h c _ (Cert.KernelIdeal.HandRun.mem_uc Cert.KernelIdeal.main_v8 (by decide)),
       (h c _ (Cert.KernelIdeal.HandRun.mem_uc Cert.KernelIdeal.main_arg0 (by decide))).trans (Cert.KernelIdeal.HandRun.W4_main_arg0 m ρ c),
       (h c _ (Cert.KernelIdeal.HandRun.mem_uc Cert.KernelIdeal.main_arg1 (by decide))).trans (Cert.KernelIdeal.HandRun.W4_main_arg1 m ρ c)⟩)
      (Cert.KernelIdeal.HandRun.run_all (F := Ideal) m ρ)
  · refine (θ_run (Cert.ReferenceIdeal.defs (F := Ideal)) _ _).mono (fun _ h c => ⟨(h c).1.trans ?_, (h c).2⟩)
      (Cert.ReferenceIdeal.ValueP.run (F := Ideal) m' ρ')
    obtain ⟨X, Y, hX, hY⟩ := Cert.Finite.real_args m hpre c
    rw [Cert.ReferenceIdeal.RefValue.result_eq X Y m' c ((hagree c).1.trans hX) ((hagree c).2.trans hY)]
    exact (Cert.KernelIdeal.HandValue.result_eq m ρ X Y c hX hY).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
